-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x116x116 : Shape := ⟨3, ![128, 116, 116]⟩
abbrev S116x64 : Shape := ⟨2, ![116, 64]⟩
abbrev S64 : Shape := ⟨1, ![64]⟩
abbrev S64x32 : Shape := ⟨2, ![64, 32]⟩
abbrev S32 : Shape := ⟨1, ![32]⟩
abbrev S128x200x200 : Shape := ⟨3, ![128, 200, 200]⟩
abbrev S200x64 : Shape := ⟨2, ![200, 64]⟩
abbrev S128x264x264 : Shape := ⟨3, ![128, 264, 264]⟩
abbrev S264x64 : Shape := ⟨2, ![264, 64]⟩
abbrev S128x325x325 : Shape := ⟨3, ![128, 325, 325]⟩
abbrev S325x64 : Shape := ⟨2, ![325, 64]⟩
abbrev S_ : Shape := ⟨0, ![]⟩

class Facts : Prop where
  bcast_S_S128x116x116 : S_.BroadcastsInDim S128x116x116 (![] : Fin 0 → Fin S128x116x116.rank)
  reducesTo_S128x116x116_S_d0_1_2 : S128x116x116.ReducesTo [0, 1, 2] S_
  h_S_ : 0 < S_.numel
  bcast_S_S116x64 : S_.BroadcastsInDim S116x64 (![] : Fin 0 → Fin S116x64.rank)
  reducesTo_S116x64_S_d0_1 : S116x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S128x200x200 : S_.BroadcastsInDim S128x200x200 (![] : Fin 0 → Fin S128x200x200.rank)
  reducesTo_S128x200x200_S_d0_1_2 : S128x200x200.ReducesTo [0, 1, 2] S_
  bcast_S_S200x64 : S_.BroadcastsInDim S200x64 (![] : Fin 0 → Fin S200x64.rank)
  reducesTo_S200x64_S_d0_1 : S200x64.ReducesTo [0, 1] S_
  bcast_S_S128x264x264 : S_.BroadcastsInDim S128x264x264 (![] : Fin 0 → Fin S128x264x264.rank)
  reducesTo_S128x264x264_S_d0_1_2 : S128x264x264.ReducesTo [0, 1, 2] S_
  bcast_S_S264x64 : S_.BroadcastsInDim S264x64 (![] : Fin 0 → Fin S264x64.rank)
  reducesTo_S264x64_S_d0_1 : S264x64.ReducesTo [0, 1] S_
  bcast_S_S128x325x325 : S_.BroadcastsInDim S128x325x325 (![] : Fin 0 → Fin S128x325x325.rank)
  reducesTo_S128x325x325_S_d0_1_2 : S128x325x325.ReducesTo [0, 1, 2] S_
  bcast_S_S325x64 : S_.BroadcastsInDim S325x64 (![] : Fin 0 → Fin S325x64.rank)
  reducesTo_S325x64_S_d0_1 : S325x64.ReducesTo [0, 1] S_

variable [Facts]

def fn_part9 {F : FTy → Type} [FloatOps F] (main_arg31 : FVec F S32 .f32) (main_v153 : IVec S_ 1) : IVec S_ 1 :=
  let main_v154 : FVec F S32 .f32 := Host.absf main_arg31
  let main_cst_60 : FVec F S_ .f32 := constant S_ .f32 0x7F800000#32
  let main_v155 : FVec F S32 .f32 := broadcastInDim S32 ![] bcast_S_S32 main_cst_60
  let main_v156 : IVec S32 1 := cmpf .olt main_v154 main_v155
  let main_c_61 : IVec S_ 1 := constantI S_ 1 1#1
  let main_v157 : IVec S_ 1 := (fun x v => Host.reduce IntOp.andi x v reducesTo_S32_S_d0 h_S_) main_v156 main_c_61
  let main_v158 : IVec S_ 1 := andi main_v153 main_v157
  main_v158

def fn_part8 {F : FTy → Type} [FloatOps F] (main_arg28 : FVec F S325x64 .f32) (main_arg29 : FVec F S64 .f32) (main_arg30 : FVec F S64x32 .f32) (main_arg31 : FVec F S32 .f32) (main_v133 : IVec S_ 1) (main_v136 : IVec S128x325x325 1) : IVec S_ 1 :=
  let main_c_53 : IVec S_ 1 := constantI S_ 1 1#1
  let main_v137 : IVec S_ 1 := (fun x v => Host.reduce IntOp.andi x v reducesTo_S128x325x325_S_d0_1_2 h_S_) main_v136 main_c_53
  let main_v138 : IVec S_ 1 := andi main_v133 main_v137
  let main_v139 : FVec F S325x64 .f32 := Host.absf main_arg28
  let main_cst_54 : FVec F S_ .f32 := constant S_ .f32 0x7F800000#32
  let main_v140 : FVec F S325x64 .f32 := broadcastInDim S325x64 ![] bcast_S_S325x64 main_cst_54
  let main_v141 : IVec S325x64 1 := cmpf .olt main_v139 main_v140
  let main_c_55 : IVec S_ 1 := constantI S_ 1 1#1
  let main_v142 : IVec S_ 1 := (fun x v => Host.reduce IntOp.andi x v reducesTo_S325x64_S_d0_1 h_S_) main_v141 main_c_55
  let main_v143 : IVec S_ 1 := andi main_v138 main_v142
  let main_v144 : FVec F S64 .f32 := Host.absf main_arg29
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64x32 .f32 := Host.absf main_arg30
  let main_cst_58 : FVec F S_ .f32 := constant S_ .f32 0x7F800000#32
  let main_v150 : FVec F S64x32 .f32 := broadcastInDim S64x32 ![] bcast_S_S64x32 main_cst_58
  let main_v151 : IVec S64x32 1 := cmpf .olt main_v149 main_v150
  let main_c_59 : IVec S_ 1 := constantI S_ 1 1#1
  let main_v152 : IVec S_ 1 := (fun x v => Host.reduce IntOp.andi x v reducesTo_S64x32_S_d0_1 h_S_) main_v151 main_c_59
  let main_v153 : IVec S_ 1 := andi main_v148 main_v152
  fn_part9 (F := F) main_arg31 main_v153

def fn_part7 {F : FTy → Type} [FloatOps F] (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v118 : IVec S_ 1) (main_v119 : FVec F S128x325x325 .f32) : IVec S_ 1 :=
  let main_cst_46 : FVec F S_ .f32 := constant S_ .f32 0x7F800000#32
  let main_v120 : FVec F S128x325x325 .f32 := broadcastInDim S128x325x325 ![] bcast_S_S128x325x325 main_cst_46
  let main_v121 : IVec S128x325x325 1 := cmpf .olt main_v119 main_v120
  let main_c_47 : IVec S_ 1 := constantI S_ 1 1#1
  let main_v122 : IVec S_ 1 := (fun x v => Host.reduce IntOp.andi x v reducesTo_S128x325x325_S_d0_1_2 h_S_) main_v121 main_c_47
  let main_v123 : IVec S_ 1 := andi main_v118 main_v122
  let main_v124 : FVec F S128x325x325 .f32 := Host.absf main_arg25
  let main_cst_48 : FVec F S_ .f32 := constant S_ .f32 0x7F800000#32
  let main_v125 : FVec F S128x325x325 .f32 := broadcastInDim S128x325x325 ![] bcast_S_S128x325x325 main_cst_48
  let main_v126 : IVec S128x325x325 1 := cmpf .olt main_v124 main_v125
  let main_c_49 : IVec S_ 1 := constantI S_ 1 1#1
  let main_v127 : IVec S_ 1 := (fun x v => Host.reduce IntOp.andi x v reducesTo_S128x325x325_S_d0_1_2 h_S_) main_v126 main_c_49
  let main_v128 : IVec S_ 1 := andi main_v123 main_v127
  let main_v129 : FVec F S128x325x325 .f32 := Host.absf main_arg26
  let main_cst_50 : FVec F S_ .f32 := constant S_ .f32 0x7F800000#32
  let main_v130 : FVec F S128x325x325 .f32 := broadcastInDim S128x325x325 ![] bcast_S_S128x325x325 main_cst_50
  let main_v131 : IVec S128x325x325 1 := cmpf .olt main_v129 main_v130
  let main_c_51 : IVec S_ 1 := constantI S_ 1 1#1
  let main_v132 : IVec S_ 1 := (fun x v => Host.reduce IntOp.andi x v reducesTo_S128x325x325_S_d0_1_2 h_S_) main_v131 main_c_51
  let main_v133 : IVec S_ 1 := andi main_v128 main_v132
  let main_v134 : FVec F S128x325x325 .f32 := Host.absf main_arg27
  let main_cst_52 : FVec F S_ .f32 := constant S_ .f32 0x7F800000#32
  let main_v135 : FVec F S128x325x325 .f32 := broadcastInDim S128x325x325 ![] bcast_S_S128x325x325 main_cst_52
  let main_v136 : IVec S128x325x325 1 := cmpf .olt main_v134 main_v135
  fn_part8 (F := F) main_arg28 main_arg29 main_arg30 main_arg31 main_v133 main_v136

def fn_part6 {F : FTy → Type} [FloatOps F] (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v98 : IVec S_ 1) (main_v101 : IVec S264x64 1) (main_c_39 : IVec S_ 1) : IVec S_ 1 :=
  let main_v102 : IVec S_ 1 := (fun x v => Host.reduce IntOp.andi x v reducesTo_S264x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x32 .f32 := Host.absf main_arg22
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg23
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S128x325x325 .f32 := Host.absf main_arg24
  fn_part7 (F := F) main_arg25 main_arg26 main_arg27 main_arg28 main_arg29 main_arg30 main_arg31 main_v118 main_v119

def fn_part5 {F : FTy → Type} [FloatOps F] (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v83 : IVec S_ 1) (main_v84 : FVec F S128x264x264 .f32) (main_cst_32 : FVec F S_ .f32) : IVec S_ 1 :=
  let main_v85 : FVec F S128x264x264 .f32 := broadcastInDim S128x264x264 ![] bcast_S_S128x264x264 main_cst_32
  let main_v86 : IVec S128x264x264 1 := cmpf .olt main_v84 main_v85
  let main_c_33 : IVec S_ 1 := constantI S_ 1 1#1
  let main_v87 : IVec S_ 1 := (fun x v => Host.reduce IntOp.andi x v reducesTo_S128x264x264_S_d0_1_2 h_S_) main_v86 main_c_33
  let main_v88 : IVec S_ 1 := andi main_v83 main_v87
  let main_v89 : FVec F S128x264x264 .f32 := Host.absf main_arg18
  let main_cst_34 : FVec F S_ .f32 := constant S_ .f32 0x7F800000#32
  let main_v90 : FVec F S128x264x264 .f32 := broadcastInDim S128x264x264 ![] bcast_S_S128x264x264 main_cst_34
  let main_v91 : IVec S128x264x264 1 := cmpf .olt main_v89 main_v90
  let main_c_35 : IVec S_ 1 := constantI S_ 1 1#1
  let main_v92 : IVec S_ 1 := (fun x v => Host.reduce IntOp.andi x v reducesTo_S128x264x264_S_d0_1_2 h_S_) main_v91 main_c_35
  let main_v93 : IVec S_ 1 := andi main_v88 main_v92
  let main_v94 : FVec F S128x264x264 .f32 := Host.absf main_arg19
  let main_cst_36 : FVec F S_ .f32 := constant S_ .f32 0x7F800000#32
  let main_v95 : FVec F S128x264x264 .f32 := broadcastInDim S128x264x264 ![] bcast_S_S128x264x264 main_cst_36
  let main_v96 : IVec S128x264x264 1 := cmpf .olt main_v94 main_v95
  let main_c_37 : IVec S_ 1 := constantI S_ 1 1#1
  let main_v97 : IVec S_ 1 := (fun x v => Host.reduce IntOp.andi x v reducesTo_S128x264x264_S_d0_1_2 h_S_) main_v96 main_c_37
  let main_v98 : IVec S_ 1 := andi main_v93 main_v97
  let main_v99 : FVec F S264x64 .f32 := Host.absf main_arg20
  let main_cst_38 : FVec F S_ .f32 := constant S_ .f32 0x7F800000#32
  let main_v100 : FVec F S264x64 .f32 := broadcastInDim S264x64 ![] bcast_S_S264x64 main_cst_38
  let main_v101 : IVec S264x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_v98 main_v101 main_c_39

def fn_part4 {F : FTy → Type} [FloatOps F] (main_arg14 : FVec F S64x32 .f32) (main_arg15 : FVec F S32 .f32) (main_arg16 : FVec F S128x264x264 .f32) (main_arg17 : FVec F S128x264x264 .f32) (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v63 : IVec S_ 1) (main_v67 : IVec S_ 1) : IVec S_ 1 :=
  let main_v68 : IVec S_ 1 := andi main_v63 main_v67
  let main_v69 : FVec F S64x32 .f32 := Host.absf main_arg14
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S128x264x264 .f32 := Host.absf main_arg16
  let main_cst_30 : FVec F S_ .f32 := constant S_ .f32 0x7F800000#32
  let main_v80 : FVec F S128x264x264 .f32 := broadcastInDim S128x264x264 ![] bcast_S_S128x264x264 main_cst_30
  let main_v81 : IVec S128x264x264 1 := cmpf .olt main_v79 main_v80
  let main_c_31 : IVec S_ 1 := constantI S_ 1 1#1
  let main_v82 : IVec S_ 1 := (fun x v => Host.reduce IntOp.andi x v reducesTo_S128x264x264_S_d0_1_2 h_S_) main_v81 main_c_31
  let main_v83 : IVec S_ 1 := andi main_v78 main_v82
  let main_v84 : FVec F S128x264x264 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg11 : FVec F S128x200x200 .f32) (main_arg12 : FVec F S200x64 .f32) (main_arg13 : FVec F S64 .f32) (main_arg14 : FVec F S64x32 .f32) (main_arg15 : FVec F S32 .f32) (main_arg16 : FVec F S128x264x264 .f32) (main_arg17 : FVec F S128x264x264 .f32) (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v48 : IVec S_ 1) (main_v49 : FVec F S128x200x200 .f32) (main_v50 : FVec F S128x200x200 .f32) : IVec S_ 1 :=
  let main_v51 : IVec S128x200x200 1 := cmpf .olt main_v49 main_v50
  let main_c_19 : IVec S_ 1 := constantI S_ 1 1#1
  let main_v52 : IVec S_ 1 := (fun x v => Host.reduce IntOp.andi x v reducesTo_S128x200x200_S_d0_1_2 h_S_) main_v51 main_c_19
  let main_v53 : IVec S_ 1 := andi main_v48 main_v52
  let main_v54 : FVec F S128x200x200 .f32 := Host.absf main_arg11
  let main_cst_20 : FVec F S_ .f32 := constant S_ .f32 0x7F800000#32
  let main_v55 : FVec F S128x200x200 .f32 := broadcastInDim S128x200x200 ![] bcast_S_S128x200x200 main_cst_20
  let main_v56 : IVec S128x200x200 1 := cmpf .olt main_v54 main_v55
  let main_c_21 : IVec S_ 1 := constantI S_ 1 1#1
  let main_v57 : IVec S_ 1 := (fun x v => Host.reduce IntOp.andi x v reducesTo_S128x200x200_S_d0_1_2 h_S_) main_v56 main_c_21
  let main_v58 : IVec S_ 1 := andi main_v53 main_v57
  let main_v59 : FVec F S200x64 .f32 := Host.absf main_arg12
  let main_cst_22 : FVec F S_ .f32 := constant S_ .f32 0x7F800000#32
  let main_v60 : FVec F S200x64 .f32 := broadcastInDim S200x64 ![] bcast_S_S200x64 main_cst_22
  let main_v61 : IVec S200x64 1 := cmpf .olt main_v59 main_v60
  let main_c_23 : IVec S_ 1 := constantI S_ 1 1#1
  let main_v62 : IVec S_ 1 := (fun x v => Host.reduce IntOp.andi x v reducesTo_S200x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg7 : FVec F S32 .f32) (main_arg8 : FVec F S128x200x200 .f32) (main_arg9 : FVec F S128x200x200 .f32) (main_arg10 : FVec F S128x200x200 .f32) (main_arg11 : FVec F S128x200x200 .f32) (main_arg12 : FVec F S200x64 .f32) (main_arg13 : FVec F S64 .f32) (main_arg14 : FVec F S64x32 .f32) (main_arg15 : FVec F S32 .f32) (main_arg16 : FVec F S128x264x264 .f32) (main_arg17 : FVec F S128x264x264 .f32) (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x200x200 .f32 := Host.absf main_arg8
  let main_cst_14 : FVec F S_ .f32 := constant S_ .f32 0x7F800000#32
  let main_v40 : FVec F S128x200x200 .f32 := broadcastInDim S128x200x200 ![] bcast_S_S128x200x200 main_cst_14
  let main_v41 : IVec S128x200x200 1 := cmpf .olt main_v39 main_v40
  let main_c_15 : IVec S_ 1 := constantI S_ 1 1#1
  let main_v42 : IVec S_ 1 := (fun x v => Host.reduce IntOp.andi x v reducesTo_S128x200x200_S_d0_1_2 h_S_) main_v41 main_c_15
  let main_v43 : IVec S_ 1 := andi main_v38 main_v42
  let main_v44 : FVec F S128x200x200 .f32 := Host.absf main_arg9
  let main_cst_16 : FVec F S_ .f32 := constant S_ .f32 0x7F800000#32
  let main_v45 : FVec F S128x200x200 .f32 := broadcastInDim S128x200x200 ![] bcast_S_S128x200x200 main_cst_16
  let main_v46 : IVec S128x200x200 1 := cmpf .olt main_v44 main_v45
  let main_c_17 : IVec S_ 1 := constantI S_ 1 1#1
  let main_v47 : IVec S_ 1 := (fun x v => Host.reduce IntOp.andi x v reducesTo_S128x200x200_S_d0_1_2 h_S_) main_v46 main_c_17
  let main_v48 : IVec S_ 1 := andi main_v43 main_v47
  let main_v49 : FVec F S128x200x200 .f32 := Host.absf main_arg10
  let main_cst_18 : FVec F S_ .f32 := constant S_ .f32 0x7F800000#32
  let main_v50 : FVec F S128x200x200 .f32 := broadcastInDim S128x200x200 ![] bcast_S_S128x200x200 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : FVec F S116x64 .f32) (main_arg5 : FVec F S64 .f32) (main_arg6 : FVec F S64x32 .f32) (main_arg7 : FVec F S32 .f32) (main_arg8 : FVec F S128x200x200 .f32) (main_arg9 : FVec F S128x200x200 .f32) (main_arg10 : FVec F S128x200x200 .f32) (main_arg11 : FVec F S128x200x200 .f32) (main_arg12 : FVec F S200x64 .f32) (main_arg13 : FVec F S64 .f32) (main_arg14 : FVec F S64x32 .f32) (main_arg15 : FVec F S32 .f32) (main_arg16 : FVec F S128x264x264 .f32) (main_arg17 : FVec F S128x264x264 .f32) (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) (main_v13 : IVec S_ 1) (main_v16 : IVec S128x116x116 1) : IVec S_ 1 :=
  let main_c_5 : IVec S_ 1 := constantI S_ 1 1#1
  let main_v17 : IVec S_ 1 := (fun x v => Host.reduce IntOp.andi x v reducesTo_S128x116x116_S_d0_1_2 h_S_) main_v16 main_c_5
  let main_v18 : IVec S_ 1 := andi main_v13 main_v17
  let main_v19 : FVec F S116x64 .f32 := Host.absf main_arg4
  let main_cst_6 : FVec F S_ .f32 := constant S_ .f32 0x7F800000#32
  let main_v20 : FVec F S116x64 .f32 := broadcastInDim S116x64 ![] bcast_S_S116x64 main_cst_6
  let main_v21 : IVec S116x64 1 := cmpf .olt main_v19 main_v20
  let main_c_7 : IVec S_ 1 := constantI S_ 1 1#1
  let main_v22 : IVec S_ 1 := (fun x v => Host.reduce IntOp.andi x v reducesTo_S116x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S128x116x116 .f32) (main_arg1 : FVec F S128x116x116 .f32) (main_arg2 : FVec F S128x116x116 .f32) (main_arg3 : FVec F S128x116x116 .f32) (main_arg4 : FVec F S116x64 .f32) (main_arg5 : FVec F S64 .f32) (main_arg6 : FVec F S64x32 .f32) (main_arg7 : FVec F S32 .f32) (main_arg8 : FVec F S128x200x200 .f32) (main_arg9 : FVec F S128x200x200 .f32) (main_arg10 : FVec F S128x200x200 .f32) (main_arg11 : FVec F S128x200x200 .f32) (main_arg12 : FVec F S200x64 .f32) (main_arg13 : FVec F S64 .f32) (main_arg14 : FVec F S64x32 .f32) (main_arg15 : FVec F S32 .f32) (main_arg16 : FVec F S128x264x264 .f32) (main_arg17 : FVec F S128x264x264 .f32) (main_arg18 : FVec F S128x264x264 .f32) (main_arg19 : FVec F S128x264x264 .f32) (main_arg20 : FVec F S264x64 .f32) (main_arg21 : FVec F S64 .f32) (main_arg22 : FVec F S64x32 .f32) (main_arg23 : FVec F S32 .f32) (main_arg24 : FVec F S128x325x325 .f32) (main_arg25 : FVec F S128x325x325 .f32) (main_arg26 : FVec F S128x325x325 .f32) (main_arg27 : FVec F S128x325x325 .f32) (main_arg28 : FVec F S325x64 .f32) (main_arg29 : FVec F S64 .f32) (main_arg30 : FVec F S64x32 .f32) (main_arg31 : FVec F S32 .f32) : IVec S_ 1 :=
  let main_v0 : FVec F S128x116x116 .f32 := Host.absf main_arg0
  let main_cst : FVec F S_ .f32 := constant S_ .f32 0x7F800000#32
  let main_v1 : FVec F S128x116x116 .f32 := broadcastInDim S128x116x116 ![] bcast_S_S128x116x116 main_cst
  let main_v2 : IVec S128x116x116 1 := cmpf .olt main_v0 main_v1
  let main_c : IVec S_ 1 := constantI S_ 1 1#1
  let main_v3 : IVec S_ 1 := (fun x v => Host.reduce IntOp.andi x v reducesTo_S128x116x116_S_d0_1_2 h_S_) main_v2 main_c
  let main_v4 : FVec F S128x116x116 .f32 := Host.absf main_arg1
  let main_cst_0 : FVec F S_ .f32 := constant S_ .f32 0x7F800000#32
  let main_v5 : FVec F S128x116x116 .f32 := broadcastInDim S128x116x116 ![] bcast_S_S128x116x116 main_cst_0
  let main_v6 : IVec S128x116x116 1 := cmpf .olt main_v4 main_v5
  let main_c_1 : IVec S_ 1 := constantI S_ 1 1#1
  let main_v7 : IVec S_ 1 := (fun x v => Host.reduce IntOp.andi x v reducesTo_S128x116x116_S_d0_1_2 h_S_) main_v6 main_c_1
  let main_v8 : IVec S_ 1 := andi main_v3 main_v7
  let main_v9 : FVec F S128x116x116 .f32 := Host.absf main_arg2
  let main_cst_2 : FVec F S_ .f32 := constant S_ .f32 0x7F800000#32
  let main_v10 : FVec F S128x116x116 .f32 := broadcastInDim S128x116x116 ![] bcast_S_S128x116x116 main_cst_2
  let main_v11 : IVec S128x116x116 1 := cmpf .olt main_v9 main_v10
  let main_c_3 : IVec S_ 1 := constantI S_ 1 1#1
  let main_v12 : IVec S_ 1 := (fun x v => Host.reduce IntOp.andi x v reducesTo_S128x116x116_S_d0_1_2 h_S_) main_v11 main_c_3
  let main_v13 : IVec S_ 1 := andi main_v8 main_v12
  let main_v14 : FVec F S128x116x116 .f32 := Host.absf main_arg3
  let main_cst_4 : FVec F S_ .f32 := constant S_ .f32 0x7F800000#32
  let main_v15 : FVec F S128x116x116 .f32 := broadcastInDim S128x116x116 ![] bcast_S_S128x116x116 main_cst_4
  let main_v16 : IVec S128x116x116 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S128x116x116 : Shape := ⟨3, ![128, 116, 116]⟩
abbrev S116x64 : Shape := ⟨2, ![116, 64]⟩
abbrev S64 : Shape := ⟨1, ![64]⟩
abbrev S64x32 : Shape := ⟨2, ![64, 32]⟩
abbrev S32 : Shape := ⟨1, ![32]⟩
abbrev S128x200x200 : Shape := ⟨3, ![128, 200, 200]⟩
abbrev S200x64 : Shape := ⟨2, ![200, 64]⟩
abbrev S128x264x264 : Shape := ⟨3, ![128, 264, 264]⟩
abbrev S264x64 : Shape := ⟨2, ![264, 64]⟩
abbrev S128x325x325 : Shape := ⟨3, ![128, 325, 325]⟩
abbrev S325x64 : Shape := ⟨2, ![325, 64]⟩
abbrev S1x64 : Shape := ⟨2, ![1, 64]⟩
abbrev S1x32 : Shape := ⟨2, ![1, 32]⟩
abbrev S128x1x1 : Shape := ⟨3, ![128, 1, 1]⟩
abbrev S4x116x116 : Shape := ⟨3, ![4, 116, 116]⟩
abbrev S4x200x200 : Shape := ⟨3, ![4, 200, 200]⟩
abbrev S4x264x264 : Shape := ⟨3, ![4, 264, 264]⟩
abbrev S4x325x325 : Shape := ⟨3, ![4, 325, 325]⟩
abbrev S4x1x1 : Shape := ⟨3, ![4, 1, 1]⟩
abbrev S1x116x116 : Shape := ⟨3, ![1, 116, 116]⟩
abbrev S116x116 : Shape := ⟨2, ![116, 116]⟩
abbrev S116x32 : Shape := ⟨2, ![116, 32]⟩
abbrev S1x116x32 : Shape := ⟨3, ![1, 116, 32]⟩
abbrev S1 : Shape := ⟨1, ![1]⟩
abbrev S1x1x1 : Shape := ⟨3, ![1, 1, 1]⟩
abbrev S1x1 : Shape := ⟨2, ![1, 1]⟩
abbrev S1x200x200 : Shape := ⟨3, ![1, 200, 200]⟩
abbrev S200x200 : Shape := ⟨2, ![200, 200]⟩
abbrev S200x32 : Shape := ⟨2, ![200, 32]⟩
abbrev S1x200x32 : Shape := ⟨3, ![1, 200, 32]⟩
abbrev S1x264x264 : Shape := ⟨3, ![1, 264, 264]⟩
abbrev S264x264 : Shape := ⟨2, ![264, 264]⟩
abbrev S264x32 : Shape := ⟨2, ![264, 32]⟩
abbrev S1x264x32 : Shape := ⟨3, ![1, 264, 32]⟩
abbrev S1x325x325 : Shape := ⟨3, ![1, 325, 325]⟩
abbrev S325x325 : Shape := ⟨2, ![325, 325]⟩
abbrev S325x32 : Shape := ⟨2, ![325, 32]⟩
abbrev S1x325x32 : Shape := ⟨3, ![1, 325, 32]⟩
abbrev S128 : Shape := ⟨1, ![128]⟩

abbrev nBuf : Space → Nat
  | .hbm => 48
  | .vmem => 56
  | .smem => 0
  | _ => 0

abbrev bufTy : (tb : Table) → Fin (tcTables nBuf tb) → BufTy
  | .hbm, ⟨0, _⟩ => ⟨S128x116x116, .f32⟩
  | .hbm, ⟨1, _⟩ => ⟨S128x116x116, .f32⟩
  | .hbm, ⟨2, _⟩ => ⟨S128x116x116, .f32⟩
  | .hbm, ⟨3, _⟩ => ⟨S128x116x116, .f32⟩
  | .hbm, ⟨4, _⟩ => ⟨S116x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S128x200x200, .f32⟩
  | .hbm, ⟨9, _⟩ => ⟨S128x200x200, .f32⟩
  | .hbm, ⟨10, _⟩ => ⟨S128x200x200, .f32⟩
  | .hbm, ⟨11, _⟩ => ⟨S128x200x200, .f32⟩
  | .hbm, ⟨12, _⟩ => ⟨S200x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S128x264x264, .f32⟩
  | .hbm, ⟨17, _⟩ => ⟨S128x264x264, .f32⟩
  | .hbm, ⟨18, _⟩ => ⟨S128x264x264, .f32⟩
  | .hbm, ⟨19, _⟩ => ⟨S128x264x264, .f32⟩
  | .hbm, ⟨20, _⟩ => ⟨S264x64, .f32⟩
  | .hbm, ⟨21, _⟩ => ⟨S64, .f32⟩
  | .hbm, ⟨22, _⟩ => ⟨S64x32, .f32⟩
  | .hbm, ⟨23, _⟩ => ⟨S32, .f32⟩
  | .hbm, ⟨24, _⟩ => ⟨S128x325x325, .f32⟩
  | .hbm, ⟨25, _⟩ => ⟨S128x325x325, .f32⟩
  | .hbm, ⟨26, _⟩ => ⟨S128x325x325, .f32⟩
  | .hbm, ⟨27, _⟩ => ⟨S128x325x325, .f32⟩
  | .hbm, ⟨28, _⟩ => ⟨S325x64, .f32⟩
  | .hbm, ⟨29, _⟩ => ⟨S64, .f32⟩
  | .hbm, ⟨30, _⟩ => ⟨S64x32, .f32⟩
  | .hbm, ⟨31, _⟩ => ⟨S32, .f32⟩
  | .hbm, ⟨32, _⟩ => ⟨S1x64, .f32⟩
  | .hbm, ⟨33, _⟩ => ⟨S1x32, .f32⟩
  | .hbm, ⟨34, _⟩ => ⟨S1x64, .f32⟩
  | .hbm, ⟨35, _⟩ => ⟨S1x32, .f32⟩
  | .hbm, ⟨36, _⟩ => ⟨S1x64, .f32⟩
  | .hbm, ⟨37, _⟩ => ⟨S1x32, .f32⟩
  | .hbm, ⟨38, _⟩ => ⟨S1x64, .f32⟩
  | .hbm, ⟨39, _⟩ => ⟨S1x32, .f32⟩
  | .hbm, ⟨40, _⟩ => ⟨S128x1x1, .f32⟩
  | .hbm, ⟨41, _⟩ => ⟨S128x1x1, .f32⟩
  | .hbm, ⟨42, _⟩ => ⟨S128x1x1, .f32⟩
  | .hbm, ⟨43, _⟩ => ⟨S128x1x1, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .local _ .vmem, ⟨0, _⟩ => ⟨S4x116x116, .f32⟩
  | .local _ .vmem, ⟨1, _⟩ => ⟨S4x116x116, .f32⟩
  | .local _ .vmem, ⟨2, _⟩ => ⟨S4x116x116, .f32⟩
  | .local _ .vmem, ⟨3, _⟩ => ⟨S4x116x116, .f32⟩
  | .local _ .vmem, ⟨4, _⟩ => ⟨S4x116x116, .f32⟩
  | .local _ .vmem, ⟨5, _⟩ => ⟨S4x116x116, .f32⟩
  | .local _ .vmem, ⟨6, _⟩ => ⟨S4x116x116, .f32⟩
  | .local _ .vmem, ⟨7, _⟩ => ⟨S4x116x116, .f32⟩
  | .local _ .vmem, ⟨8, _⟩ => ⟨S4x200x200, .f32⟩
  | .local _ .vmem, ⟨9, _⟩ => ⟨S4x200x200, .f32⟩
  | .local _ .vmem, ⟨10, _⟩ => ⟨S4x200x200, .f32⟩
  | .local _ .vmem, ⟨11, _⟩ => ⟨S4x200x200, .f32⟩
  | .local _ .vmem, ⟨12, _⟩ => ⟨S4x200x200, .f32⟩
  | .local _ .vmem, ⟨13, _⟩ => ⟨S4x200x200, .f32⟩
  | .local _ .vmem, ⟨14, _⟩ => ⟨S4x200x200, .f32⟩
  | .local _ .vmem, ⟨15, _⟩ => ⟨S4x200x200, .f32⟩
  | .local _ .vmem, ⟨16, _⟩ => ⟨S4x264x264, .f32⟩
  | .local _ .vmem, ⟨17, _⟩ => ⟨S4x264x264, .f32⟩
  | .local _ .vmem, ⟨18, _⟩ => ⟨S4x264x264, .f32⟩
  | .local _ .vmem, ⟨19, _⟩ => ⟨S4x264x264, .f32⟩
  | .local _ .vmem, ⟨20, _⟩ => ⟨S4x264x264, .f32⟩
  | .local _ .vmem, ⟨21, _⟩ => ⟨S4x264x264, .f32⟩
  | .local _ .vmem, ⟨22, _⟩ => ⟨S4x264x264, .f32⟩
  | .local _ .vmem, ⟨23, _⟩ => ⟨S4x264x264, .f32⟩
  | .local _ .vmem, ⟨24, _⟩ => ⟨S4x325x325, .f32⟩
  | .local _ .vmem, ⟨25, _⟩ => ⟨S4x325x325, .f32⟩
  | .local _ .vmem, ⟨26, _⟩ => ⟨S4x325x325, .f32⟩
  | .local _ .vmem, ⟨27, _⟩ => ⟨S4x325x325, .f32⟩
  | .local _ .vmem, ⟨28, _⟩ => ⟨S4x325x325, .f32⟩
  | .local _ .vmem, ⟨29, _⟩ => ⟨S4x325x325, .f32⟩
  | .local _ .vmem, ⟨30, _⟩ => ⟨S4x325x325, .f32⟩
  | .local _ .vmem, ⟨31, _⟩ => ⟨S4x325x325, .f32⟩
  | .local _ .vmem, ⟨32, _⟩ => ⟨S116x64, .f32⟩
  | .local _ .vmem, ⟨33, _⟩ => ⟨S1x64, .f32⟩
  | .local _ .vmem, ⟨34, _⟩ => ⟨S64x32, .f32⟩
  | .local _ .vmem, ⟨35, _⟩ => ⟨S1x32, .f32⟩
  | .local _ .vmem, ⟨36, _⟩ => ⟨S200x64, .f32⟩
  | .local _ .vmem, ⟨37, _⟩ => ⟨S1x64, .f32⟩
  | .local _ .vmem, ⟨38, _⟩ => ⟨S64x32, .f32⟩
  | .local _ .vmem, ⟨39, _⟩ => ⟨S1x32, .f32⟩
  | .local _ .vmem, ⟨40, _⟩ => ⟨S264x64, .f32⟩
  | .local _ .vmem, ⟨41, _⟩ => ⟨S1x64, .f32⟩
  | .local _ .vmem, ⟨42, _⟩ => ⟨S64x32, .f32⟩
  | .local _ .vmem, ⟨43, _⟩ => ⟨S1x32, .f32⟩
  | .local _ .vmem, ⟨44, _⟩ => ⟨S325x64, .f32⟩
  | .local _ .vmem, ⟨45, _⟩ => ⟨S1x64, .f32⟩
  | .local _ .vmem, ⟨46, _⟩ => ⟨S64x32, .f32⟩
  | .local _ .vmem, ⟨47, _⟩ => ⟨S1x32, .f32⟩
  | .local _ .vmem, ⟨48, _⟩ => ⟨S4x1x1, .f32⟩
  | .local _ .vmem, ⟨49, _⟩ => ⟨S4x1x1, .f32⟩
  | .local _ .vmem, ⟨50, _⟩ => ⟨S4x1x1, .f32⟩
  | .local _ .vmem, ⟨51, _⟩ => ⟨S4x1x1, .f32⟩
  | .local _ .vmem, ⟨52, _⟩ => ⟨S4x1x1, .f32⟩
  | .local _ .vmem, ⟨53, _⟩ => ⟨S4x1x1, .f32⟩
  | .local _ .vmem, ⟨54, _⟩ => ⟨S4x1x1, .f32⟩
  | .local _ .vmem, ⟨55, _⟩ => ⟨S4x1x1, .f32⟩
  | _, _ => ⟨S128x116x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8_0 : Ref sig .tc := ⟨.hbm, 40, rfl⟩
abbrev main_v8_1 : Ref sig .tc := ⟨.hbm, 41, rfl⟩
abbrev main_v8_2 : Ref sig .tc := ⟨.hbm, 42, rfl⟩
abbrev main_v8_3 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg25_0 : Ref sig .tc := ⟨.vmem, 41, rfl⟩
abbrev cc0_stg26_0 : Ref sig .tc := ⟨.vmem, 42, rfl⟩
abbrev cc0_stg27_0 : Ref sig .tc := ⟨.vmem, 43, rfl⟩
abbrev cc0_stg28_0 : Ref sig .tc := ⟨.vmem, 44, rfl⟩
abbrev cc0_stg29_0 : Ref sig .tc := ⟨.vmem, 45, rfl⟩
abbrev cc0_stg30_0 : Ref sig .tc := ⟨.vmem, 46, rfl⟩
abbrev cc0_stg31_0 : Ref sig .tc := ⟨.vmem, 47, rfl⟩
abbrev cc0_stg32_0 : Ref sig .tc := ⟨.vmem, 48, rfl⟩
abbrev cc0_stg32_1 : Ref sig .tc := ⟨.vmem, 49, rfl⟩
abbrev cc0_stg33_0 : Ref sig .tc := ⟨.vmem, 50, rfl⟩
abbrev cc0_stg33_1 : Ref sig .tc := ⟨.vmem, 51, rfl⟩
abbrev cc0_stg34_0 : Ref sig .tc := ⟨.vmem, 52, rfl⟩
abbrev cc0_stg34_1 : Ref sig .tc := ⟨.vmem, 53, rfl⟩
abbrev cc0_stg35_0 : Ref sig .tc := ⟨.vmem, 54, rfl⟩
abbrev cc0_stg35_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem25_0 : DmaSem sig := 41
abbrev cc0_sem26_0 : DmaSem sig := 42
abbrev cc0_sem27_0 : DmaSem sig := 43
abbrev cc0_sem28_0 : DmaSem sig := 44
abbrev cc0_sem29_0 : DmaSem sig := 45
abbrev cc0_sem30_0 : DmaSem sig := 46
abbrev cc0_sem31_0 : DmaSem sig := 47
abbrev cc0_sem32_0 : DmaSem sig := 48
abbrev cc0_sem32_1 : DmaSem sig := 49
abbrev cc0_sem33_0 : DmaSem sig := 50
abbrev cc0_sem33_1 : DmaSem sig := 51
abbrev cc0_sem34_0 : DmaSem sig := 52
abbrev cc0_sem34_1 : DmaSem sig := 53
abbrev cc0_sem35_0 : DmaSem sig := 54
abbrev cc0_sem35_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_34 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x116x116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x116x116 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x116x116 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x116x116 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x200x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x200x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x200x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x200x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x264x264 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x264x264 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x264x264 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x264x264 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x325x325 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x325x325 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x325x325 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x325x325 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S116x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S200x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S264x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x32 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x32 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S325x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S64x32 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x32 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S4x1x1 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S4x1x1 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S4x1x1 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S4x1x1 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

class Facts₀ : Prop where
  shapeCasts_S64_S1x64 : S64.ShapeCasts S1x64
  shapeCasts_S32_S1x32 : S32.ShapeCasts S1x32
  inb_S116x64_S116x64_0_0 : ∀ a, (![0, 0] : Fin 2 → Nat) a + S116x64.size a ≤ S116x64.size a
  h_S116x64 : 0 < S116x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S4x116x116_S1x116x116_0_0_0 : ∀ a, (![0, 0, 0] : Fin 3 → Nat) a + S1x116x116.size a ≤ S4x116x116.size a
  h_S1x116x116 : 0 < S1x116x116.numel
  shapeCasts_S1x116x116_S116x116 : S1x116x116.ShapeCasts S116x116
  broadcasts_S1x64_S116x64 : S1x64.Broadcasts S116x64
  broadcasts_S1x32_S116x32 : S1x32.Broadcasts S116x32
  shapeCasts_S116x32_S1x116x32 : S116x32.ShapeCasts S1x116x32
  reduces_S1x116x32_S1 : S1x116x32.Reduces [1, 2] S1
  shapeCasts_S1_S1x1x1 : S1.ShapeCasts S1x1x1
  inpos_S1x1x1_p0_0_0 : ∀ a, (![0, 0, 0] : Fin 3 → Nat) a < S1x1x1.size a
  inb_S4x1x1_S1x1x1_0_0_0 : ∀ a, (![0, 0, 0] : Fin 3 → Nat) a + S1x1x1.size a ≤ S4x1x1.size a
  h_S1x1x1 : 0 < S1x1x1.numel
  shapeCasts_S1x1x1_S1x1 : S1x1x1.ShapeCasts S1x1
  shapeCasts_S1x1_S1x1x1 : S1x1.ShapeCasts S1x1x1
  inb_S4x116x116_S1x116x116_1_0_0 : ∀ a, (![1, 0, 0] : Fin 3 → Nat) a + S1x116x116.size a ≤ S4x116x116.size a
  inb_S4x1x1_S1x1x1_1_0_0 : ∀ a, (![1, 0, 0] : Fin 3 → Nat) a + S1x1x1.size a ≤ S4x1x1.size a
  inb_S4x116x116_S1x116x116_2_0_0 : ∀ a, (![2, 0, 0] : Fin 3 → Nat) a + S1x116x116.size a ≤ S4x116x116.size a
  inb_S4x1x1_S1x1x1_2_0_0 : ∀ a, (![2, 0, 0] : Fin 3 → Nat) a + S1x1x1.size a ≤ S4x1x1.size a
  inb_S4x116x116_S1x116x116_3_0_0 : ∀ a, (![3, 0, 0] : Fin 3 → Nat) a + S1x116x116.size a ≤ S4x116x116.size a
  inb_S4x1x1_S1x1x1_3_0_0 : ∀ a, (![3, 0, 0] : Fin 3 → Nat) a + S1x1x1.size a ≤ S4x1x1.size a
  inb_S200x64_S200x64_0_0 : ∀ a, (![0, 0] : Fin 2 → Nat) a + S200x64.size a ≤ S200x64.size a
  h_S200x64 : 0 < S200x64.numel
  inb_S4x200x200_S1x200x200_0_0_0 : ∀ a, (![0, 0, 0] : Fin 3 → Nat) a + S1x200x200.size a ≤ S4x200x200.size a
  h_S1x200x200 : 0 < S1x200x200.numel
  shapeCasts_S1x200x200_S200x200 : S1x200x200.ShapeCasts S200x200
  broadcasts_S1x64_S200x64 : S1x64.Broadcasts S200x64
  broadcasts_S1x32_S200x32 : S1x32.Broadcasts S200x32
  shapeCasts_S200x32_S1x200x32 : S200x32.ShapeCasts S1x200x32
  reduces_S1x200x32_S1 : S1x200x32.Reduces [1, 2] S1
  inb_S4x200x200_S1x200x200_1_0_0 : ∀ a, (![1, 0, 0] : Fin 3 → Nat) a + S1x200x200.size a ≤ S4x200x200.size a
  inb_S4x200x200_S1x200x200_2_0_0 : ∀ a, (![2, 0, 0] : Fin 3 → Nat) a + S1x200x200.size a ≤ S4x200x200.size a
  inb_S4x200x200_S1x200x200_3_0_0 : ∀ a, (![3, 0, 0] : Fin 3 → Nat) a + S1x200x200.size a ≤ S4x200x200.size a
  inb_S264x64_S264x64_0_0 : ∀ a, (![0, 0] : Fin 2 → Nat) a + S264x64.size a ≤ S264x64.size a
  h_S264x64 : 0 < S264x64.numel
  inb_S4x264x264_S1x264x264_0_0_0 : ∀ a, (![0, 0, 0] : Fin 3 → Nat) a + S1x264x264.size a ≤ S4x264x264.size a
  h_S1x264x264 : 0 < S1x264x264.numel
  shapeCasts_S1x264x264_S264x264 : S1x264x264.ShapeCasts S264x264
  broadcasts_S1x64_S264x64 : S1x64.Broadcasts S264x64
  broadcasts_S1x32_S264x32 : S1x32.Broadcasts S264x32
  shapeCasts_S264x32_S1x264x32 : S264x32.ShapeCasts S1x264x32
  reduces_S1x264x32_S1 : S1x264x32.Reduces [1, 2] S1
  inb_S4x264x264_S1x264x264_1_0_0 : ∀ a, (![1, 0, 0] : Fin 3 → Nat) a + S1x264x264.size a ≤ S4x264x264.size a
  inb_S4x264x264_S1x264x264_2_0_0 : ∀ a, (![2, 0, 0] : Fin 3 → Nat) a + S1x264x264.size a ≤ S4x264x264.size a
  inb_S4x264x264_S1x264x264_3_0_0 : ∀ a, (![3, 0, 0] : Fin 3 → Nat) a + S1x264x264.size a ≤ S4x264x264.size a
  inb_S325x64_S325x64_0_0 : ∀ a, (![0, 0] : Fin 2 → Nat) a + S325x64.size a ≤ S325x64.size a
  h_S325x64 : 0 < S325x64.numel
  inb_S4x325x325_S1x325x325_0_0_0 : ∀ a, (![0, 0, 0] : Fin 3 → Nat) a + S1x325x325.size a ≤ S4x325x325.size a
  h_S1x325x325 : 0 < S1x325x325.numel
  shapeCasts_S1x325x325_S325x325 : S1x325x325.ShapeCasts S325x325
  broadcasts_S1x64_S325x64 : S1x64.Broadcasts S325x64
  broadcasts_S1x32_S325x32 : S1x32.Broadcasts S325x32
  shapeCasts_S325x32_S1x325x32 : S325x32.ShapeCasts S1x325x32
  reduces_S1x325x32_S1 : S1x325x32.Reduces [1, 2] S1
  inb_S4x325x325_S1x325x325_1_0_0 : ∀ a, (![1, 0, 0] : Fin 3 → Nat) a + S1x325x325.size a ≤ S4x325x325.size a
  inb_S4x325x325_S1x325x325_2_0_0 : ∀ a, (![2, 0, 0] : Fin 3 → Nat) a + S1x325x325.size a ≤ S4x325x325.size a
  inb_S4x325x325_S1x325x325_3_0_0 : ∀ a, (![3, 0, 0] : Fin 3 → Nat) a + S1x325x325.size a ≤ S4x325x325.size a
  shapeCasts_S128x1x1_S128 : S128x1x1.ShapeCasts S128
  dot_S116x116_S116x64_S116x64_1_0_0_1_n_n_wf : DotDims.WF S116x116 S116x64 S116x64 [1] [0] [0] [1] [] []
  dot_S116x64_S64x32_S116x32_1_0_0_1_n_n_wf : DotDims.WF S116x64 S64x32 S116x32 [1] [0] [0] [1] [] []
  dot_S116x116_S116x32_S116x32_1_0_0_1_n_n_wf : DotDims.WF S116x116 S116x32 S116x32 [1] [0] [0] [1] [] []
  dot_S200x200_S200x64_S200x64_1_0_0_1_n_n_wf : DotDims.WF S200x200 S200x64 S200x64 [1] [0] [0] [1] [] []
  dot_S200x64_S64x32_S200x32_1_0_0_1_n_n_wf : DotDims.WF S200x64 S64x32 S200x32 [1] [0] [0] [1] [] []
  dot_S200x200_S200x32_S200x32_1_0_0_1_n_n_wf : DotDims.WF S200x200 S200x32 S200x32 [1] [0] [0] [1] [] []
  dot_S264x264_S264x64_S264x64_1_0_0_1_n_n_wf : DotDims.WF S264x264 S264x64 S264x64 [1] [0] [0] [1] [] []
  dot_S264x64_S64x32_S264x32_1_0_0_1_n_n_wf : DotDims.WF S264x64 S64x32 S264x32 [1] [0] [0] [1] [] []
  dot_S264x264_S264x32_S264x32_1_0_0_1_n_n_wf : DotDims.WF S264x264 S264x32 S264x32 [1] [0] [0] [1] [] []
  dot_S325x325_S325x64_S325x64_1_0_0_1_n_n_wf : DotDims.WF S325x325 S325x64 S325x64 [1] [0] [0] [1] [] []
  dot_S325x64_S64x32_S325x32_1_0_0_1_n_n_wf : DotDims.WF S325x64 S64x32 S325x32 [1] [0] [0] [1] [] []
  dot_S325x325_S325x32_S325x32_1_0_0_1_n_n_wf : DotDims.WF S325x325 S325x32 S325x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x116x116.size a ≤ S128x116x116.size a
  hwx0_0 : ∀ i : grid0.Coords, EltTy.bits .f32 = 32 ∨ (Rect.block (s := S128x116x116) S4x116x116.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x116x116.size a ≤ S128x116x116.size a
  hwx0_1 : ∀ i : grid0.Coords, EltTy.bits .f32 = 32 ∨ (Rect.block (s := S128x116x116) S4x116x116.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x116x116.size a ≤ S128x116x116.size a
  hwx0_2 : ∀ i : grid0.Coords, EltTy.bits .f32 = 32 ∨ (Rect.block (s := S128x116x116) S4x116x116.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x116x116.size a ≤ S128x116x116.size a
  hwx0_3 : ∀ i : grid0.Coords, EltTy.bits .f32 = 32 ∨ (Rect.block (s := S128x116x116) S4x116x116.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x200x200.size a ≤ S128x200x200.size a
  hwx0_4 : ∀ i : grid0.Coords, EltTy.bits .f32 = 32 ∨ (Rect.block (s := S128x200x200) S4x200x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x200x200.size a ≤ S128x200x200.size a
  hwx0_5 : ∀ i : grid0.Coords, EltTy.bits .f32 = 32 ∨ (Rect.block (s := S128x200x200) S4x200x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x200x200.size a ≤ S128x200x200.size a
  hwx0_6 : ∀ i : grid0.Coords, EltTy.bits .f32 = 32 ∨ (Rect.block (s := S128x200x200) S4x200x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x200x200.size a ≤ S128x200x200.size a
  hwx0_7 : ∀ i : grid0.Coords, EltTy.bits .f32 = 32 ∨ (Rect.block (s := S128x200x200) S4x200x200.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x264x264.size a ≤ S128x264x264.size a
  hwx0_8 : ∀ i : grid0.Coords, EltTy.bits .f32 = 32 ∨ (Rect.block (s := S128x264x264) S4x264x264.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x264x264.size a ≤ S128x264x264.size a
  hwx0_9 : ∀ i : grid0.Coords, EltTy.bits .f32 = 32 ∨ (Rect.block (s := S128x264x264) S4x264x264.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x264x264.size a ≤ S128x264x264.size a
  hwx0_10 : ∀ i : grid0.Coords, EltTy.bits .f32 = 32 ∨ (Rect.block (s := S128x264x264) S4x264x264.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x264x264.size a ≤ S128x264x264.size a
  hwx0_11 : ∀ i : grid0.Coords, EltTy.bits .f32 = 32 ∨ (Rect.block (s := S128x264x264) S4x264x264.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x325x325.size a ≤ S128x325x325.size a
  hwx0_12 : ∀ i : grid0.Coords, EltTy.bits .f32 = 32 ∨ (Rect.block (s := S128x325x325) S4x325x325.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x325x325.size a ≤ S128x325x325.size a
  hwx0_13 : ∀ i : grid0.Coords, EltTy.bits .f32 = 32 ∨ (Rect.block (s := S128x325x325) S4x325x325.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4x325x325.size a ≤ S128x325x325.size a
  hwx0_14 : ∀ i : grid0.Coords, EltTy.bits .f32 = 32 ∨ (Rect.block (s := S128x325x325) S4x325x325.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4x325x325.size a ≤ S128x325x325.size a
  hwx0_15 : ∀ i : grid0.Coords, EltTy.bits .f32 = 32 ∨ (Rect.block (s := S128x325x325) S4x325x325.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S116x64.size a ≤ S116x64.size a
  hwx0_16 : ∀ i : grid0.Coords, EltTy.bits .f32 = 32 ∨ (Rect.block (s := S116x64) S116x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x32.size a ≤ S64x32.size a
  hwx0_18 : ∀ i : grid0.Coords, EltTy.bits .f32 = 32 ∨ (Rect.block (s := S64x32) S64x32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x32.size a ≤ S1x32.size a
  hwx0_19 : ∀ i : grid0.Coords, EltTy.bits .f32 = 32 ∨ (Rect.block (s := S1x32) S1x32.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S200x64.size a ≤ S200x64.size a
  hwx0_20 : ∀ i : grid0.Coords, EltTy.bits .f32 = 32 ∨ (Rect.block (s := S200x64) S200x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x64.size a ≤ S1x64.size a
  hwx0_21 : ∀ i : grid0.Coords, EltTy.bits .f32 = 32 ∨ (Rect.block (s := S1x64) S1x64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x32.size a ≤ S64x32.size a
  hwx0_22 : ∀ i : grid0.Coords, EltTy.bits .f32 = 32 ∨ (Rect.block (s := S64x32) S64x32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x32.size a ≤ S1x32.size a
  hwx0_23 : ∀ i : grid0.Coords, EltTy.bits .f32 = 32 ∨ (Rect.block (s := S1x32) S1x32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S264x64.size a ≤ S264x64.size a
  hwx0_24 : ∀ i : grid0.Coords, EltTy.bits .f32 = 32 ∨ (Rect.block (s := S264x64) S264x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x64.size a ≤ S1x64.size a
  hwx0_25 : ∀ i : grid0.Coords, EltTy.bits .f32 = 32 ∨ (Rect.block (s := S1x64) S1x64.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S64x32.size a ≤ S64x32.size a
  hwx0_26 : ∀ i : grid0.Coords, EltTy.bits .f32 = 32 ∨ (Rect.block (s := S64x32) S64x32.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x32.size a ≤ S1x32.size a
  hwx0_27 : ∀ i : grid0.Coords, EltTy.bits .f32 = 32 ∨ (Rect.block (s := S1x32) S1x32.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S325x64.size a ≤ S325x64.size a
  hwx0_28 : ∀ i : grid0.Coords, EltTy.bits .f32 = 32 ∨ (Rect.block (s := S325x64) S325x64.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x64.size a ≤ S1x64.size a
  hwx0_29 : ∀ i : grid0.Coords, EltTy.bits .f32 = 32 ∨ (Rect.block (s := S1x64) S1x64.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S64x32.size a ≤ S64x32.size a
  hwx0_30 : ∀ i : grid0.Coords, EltTy.bits .f32 = 32 ∨ (Rect.block (s := S64x32) S64x32.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x32.size a ≤ S1x32.size a
  hwx0_31 : ∀ i : grid0.Coords, EltTy.bits .f32 = 32 ∨ (Rect.block (s := S1x32) S1x32.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S4x1x1.size a ≤ S128x1x1.size a
  hwx0_32 : ∀ i : grid0.Coords, EltTy.bits .f32 = 32 ∨ (Rect.block (s := S128x1x1) S4x1x1.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S4x1x1.size a ≤ S128x1x1.size a
  hwx0_33 : ∀ i : grid0.Coords, EltTy.bits .f32 = 32 ∨ (Rect.block (s := S128x1x1) S4x1x1.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S4x1x1.size a ≤ S128x1x1.size a
  hwx0_34 : ∀ i : grid0.Coords, EltTy.bits .f32 = 32 ∨ (Rect.block (s := S128x1x1) S4x1x1.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S4x1x1.size a ≤ S128x1x1.size a
  hwx0_35 : ∀ i : grid0.Coords, EltTy.bits .f32 = 32 ∨ (Rect.block (s := S128x1x1) S4x1x1.size (cc0_transform_35 i) (hinb0_35 i)).WholeWords (EltTy.packing .f32)

variable [Facts₀]

def dot_S116x116_S116x64_S116x64_1_0_0_1_n_n : DotDims S116x116 S116x64 S116x64 where
  lhsContracting := [1]
  rhsContracting := [0]
  lhsNonContracting := [0]
  rhsNonContracting := [1]
  lhsBatch := []
  rhsBatch := []
  wf := dot_S116x116_S116x64_S116x64_1_0_0_1_n_n_wf
def dot_S116x64_S64x32_S116x32_1_0_0_1_n_n : DotDims S116x64 S64x32 S116x32 where
  lhsContracting := [1]
  rhsContracting := [0]
  lhsNonContracting := [0]
  rhsNonContracting := [1]
  lhsBatch := []
  rhsBatch := []
  wf := dot_S116x64_S64x32_S116x32_1_0_0_1_n_n_wf
def dot_S116x116_S116x32_S116x32_1_0_0_1_n_n : DotDims S116x116 S116x32 S116x32 where
  lhsContracting := [1]
  rhsContracting := [0]
  lhsNonContracting := [0]
  rhsNonContracting := [1]
  lhsBatch := []
  rhsBatch := []
  wf := dot_S116x116_S116x32_S116x32_1_0_0_1_n_n_wf
def dot_S200x200_S200x64_S200x64_1_0_0_1_n_n : DotDims S200x200 S200x64 S200x64 where
  lhsContracting := [1]
  rhsContracting := [0]
  lhsNonContracting := [0]
  rhsNonContracting := [1]
  lhsBatch := []
  rhsBatch := []
  wf := dot_S200x200_S200x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S200x200_S200x32_S200x32_1_0_0_1_n_n : DotDims S200x200 S200x32 S200x32 where
  lhsContracting := [1]
  rhsContracting := [0]
  lhsNonContracting := [0]
  rhsNonContracting := [1]
  lhsBatch := []
  rhsBatch := []
  wf := dot_S200x200_S200x32_S200x32_1_0_0_1_n_n_wf
def dot_S264x264_S264x64_S264x64_1_0_0_1_n_n : DotDims S264x264 S264x64 S264x64 where
  lhsContracting := [1]
  rhsContracting := [0]
  lhsNonContracting := [0]
  rhsNonContracting := [1]
  lhsBatch := []
  rhsBatch := []
  wf := dot_S264x264_S264x64_S264x64_1_0_0_1_n_n_wf
def dot_S264x64_S64x32_S264x32_1_0_0_1_n_n : DotDims S264x64 S64x32 S264x32 where
  lhsContracting := [1]
  rhsContracting := [0]
  lhsNonContracting := [0]
  rhsNonContracting := [1]
  lhsBatch := []
  rhsBatch := []
  wf := dot_S264x64_S64x32_S264x32_1_0_0_1_n_n_wf
def dot_S264x264_S264x32_S264x32_1_0_0_1_n_n : DotDims S264x264 S264x32 S264x32 where
  lhsContracting := [1]
  rhsContracting := [0]
  lhsNonContracting := [0]
  rhsNonContracting := [1]
  lhsBatch := []
  rhsBatch := []
  wf := dot_S264x264_S264x32_S264x32_1_0_0_1_n_n_wf
def dot_S325x325_S325x64_S325x64_1_0_0_1_n_n : DotDims S325x325 S325x64 S325x64 where
  lhsContracting := [1]
  rhsContracting := [0]
  lhsNonContracting := [0]
  rhsNonContracting := [1]
  lhsBatch := []
  rhsBatch := []
  wf := dot_S325x325_S325x64_S325x64_1_0_0_1_n_n_wf
def dot_S325x64_S64x32_S325x32_1_0_0_1_n_n : DotDims S325x64 S64x32 S325x32 where
  lhsContracting := [1]
  rhsContracting := [0]
  lhsNonContracting := [0]
  rhsNonContracting := [1]
  lhsBatch := []
  rhsBatch := []
  wf := dot_S325x64_S64x32_S325x32_1_0_0_1_n_n_wf
def dot_S325x325_S325x32_S325x32_1_0_0_1_n_n : DotDims S325x325 S325x32 S325x32 where
  lhsContracting := [1]
  rhsContracting := [0]
  lhsNonContracting := [0]
  rhsNonContracting := [1]
  lhsBatch := []
  rhsBatch := []
  wf := dot_S325x325_S325x32_S325x32_1_0_0_1_n_n_wf

abbrev win0_0 : Pipeline.Window sig grid0 :=
  Pipeline.Window.ofSpec (Memref.whole main_arg0) S4x116x116.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x116x116.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x116x116.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x116x116.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S4x200x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S4x200x200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S4x200x200.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S4x200x200.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S4x264x264.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg18) S4x264x264.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S4x264x264.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S4x264x264.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg24) S4x325x325.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg26) S4x325x325.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg25) S4x325x325.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg27) S4x325x325.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg4) S116x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg6) S64x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v1) S1x32.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg12) S200x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v2) S1x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg14) S64x32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v3) S1x32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg20) S264x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v4) S1x64.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg22) S64x32.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v5) S1x32.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S325x64.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v6) S1x64.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg30) S64x32.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v7) S1x32.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v8_0) S4x1x1.size cc0_transform_32 reads0_32 true false 2 stage0_32 sem0_32
    hrank0 hreads0_32 hinb0_32 nbuf0_32 (Memref.isWhole_whole _) hwx0_32 hstage0_32

abbrev win0_33 : Pipeline.Window sig grid0 :=
  Pipeline.Window.ofSpec (Memref.whole main_v8_1) S4x1x1.size cc0_transform_33 reads0_33 true false 2 stage0_33 sem0_33
    hrank0 hreads0_33 hinb0_33 nbuf0_33 (Memref.isWhole_whole _) hwx0_33 hstage0_33

abbrev win0_34 : Pipeline.Window sig grid0 :=
  Pipeline.Window.ofSpec (Memref.whole main_v8_2) S4x1x1.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v8_3) S4x1x1.size cc0_transform_35 reads0_35 true false 2 stage0_35 sem0_35
    hrank0 hreads0_35 hinb0_35 nbuf0_35 (Memref.isWhole_whole _) hwx0_35 hstage0_35

abbrev win0 : Fin 36 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | ⟨_ + 36, h⟩ => absurd h (Nat.not_lt.2 (Nat.le_add_left _ _))
abbrev spec0 : Fin 36 → Pipeline.WinSpec sig grid0.rank := fun w => (win0 w).toWinSpec

class Facts : Prop extends Facts₀ where

variable [Facts]
-- ==== ReferenceIdeal.lean ====
abbrev S128x116x116 : Shape := ⟨3, ![128, 116, 116]⟩
abbrev S116x64 : Shape := ⟨2, ![116, 64]⟩
abbrev S64 : Shape := ⟨1, ![64]⟩
abbrev S64x32 : Shape := ⟨2, ![64, 32]⟩
abbrev S32 : Shape := ⟨1, ![32]⟩
abbrev S128x200x200 : Shape := ⟨3, ![128, 200, 200]⟩
abbrev S200x64 : Shape := ⟨2, ![200, 64]⟩
abbrev S128x264x264 : Shape := ⟨3, ![128, 264, 264]⟩
abbrev S264x64 : Shape := ⟨2, ![264, 64]⟩
abbrev S128x325x325 : Shape := ⟨3, ![128, 325, 325]⟩
abbrev S325x64 : Shape := ⟨2, ![325, 64]⟩
abbrev S128x116x64 : Shape := ⟨3, ![128, 116, 64]⟩
abbrev S1x1x64 : Shape := ⟨3, ![1, 1, 64]⟩
abbrev S_ : Shape := ⟨0, ![]⟩
abbrev S128x116x32 : Shape := ⟨3, ![128, 116, 32]⟩
abbrev S1x1x32 : Shape := ⟨3, ![1, 1, 32]⟩
abbrev S128x3712 : Shape := ⟨2, ![128, 3712]⟩
abbrev S128 : Shape := ⟨1, ![128]⟩
abbrev S128x200x64 : Shape := ⟨3, ![128, 200, 64]⟩
abbrev S128x200x32 : Shape := ⟨3, ![128, 200, 32]⟩
abbrev S128x6400 : Shape := ⟨2, ![128, 6400]⟩
abbrev S128x264x64 : Shape := ⟨3, ![128, 264, 64]⟩
abbrev S128x264x32 : Shape := ⟨3, ![128, 264, 32]⟩
abbrev S128x8448 : Shape := ⟨2, ![128, 8448]⟩
abbrev S128x325x64 : Shape := ⟨3, ![128, 325, 64]⟩
abbrev S128x325x32 : Shape := ⟨3, ![128, 325, 32]⟩
abbrev S128x10400 : Shape := ⟨2, ![128, 10400]⟩

abbrev nBuf : Space → Nat
  | .hbm => 200
  | .vmem => 0
  | .smem => 0
  | _ => 0

abbrev hbmTy0_0 (i : Nat) : BufTy := match i % 128 with
  | 0 => ⟨S128x116x116, .f32⟩
  | 1 => ⟨S128x116x116, .f32⟩
  | 2 => ⟨S128x116x116, .f32⟩
  | 3 => ⟨S128x116x116, .f32⟩
  | 4 => ⟨S116x64, .f32⟩
  | 5 => ⟨S64, .f32⟩
  | 6 => ⟨S64x32, .f32⟩
  | 7 => ⟨S32, .f32⟩
  | 8 => ⟨S128x200x200, .f32⟩
  | 9 => ⟨S128x200x200, .f32⟩
  | 10 => ⟨S128x200x200, .f32⟩
  | 11 => ⟨S128x200x200, .f32⟩
  | 12 => ⟨S200x64, .f32⟩
  | 13 => ⟨S64, .f32⟩
  | 14 => ⟨S64x32, .f32⟩
  | 15 => ⟨S32, .f32⟩
  | 16 => ⟨S128x264x264, .f32⟩
  | 17 => ⟨S128x264x264, .f32⟩
  | 18 => ⟨S128x264x264, .f32⟩
  | 19 => ⟨S128x264x264, .f32⟩
  | 20 => ⟨S264x64, .f32⟩
  | 21 => ⟨S64, .f32⟩
  | 22 => ⟨S64x32, .f32⟩
  | 23 => ⟨S32, .f32⟩
  | 24 => ⟨S128x325x325, .f32⟩
  | 25 => ⟨S128x325x325, .f32⟩
  | 26 => ⟨S128x325x325, .f32⟩
  | 27 => ⟨S128x325x325, .f32⟩
  | 28 => ⟨S325x64, .f32⟩
  | 29 => ⟨S64, .f32⟩
  | 30 => ⟨S64x32, .f32⟩
  | 31 => ⟨S32, .f32⟩
  | 32 => ⟨S128x116x64, .f32⟩
  | 33 => ⟨S128x116x64, .f32⟩
  | 34 => ⟨S1x1x64, .f32⟩
  | 35 => ⟨S128x116x64, .f32⟩
  | 36 => ⟨S128x116x64, .f32⟩
  | 37 => ⟨S_, .f32⟩
  | 38 => ⟨S128x116x64, .f32⟩
  | 39 => ⟨S128x116x64, .f32⟩
  | 40 => ⟨S128x116x32, .f32⟩
  | 41 => ⟨S128x116x32, .f32⟩
  | 42 => ⟨S1x1x32, .f32⟩
  | 43 => ⟨S128x116x32, .f32⟩
  | 44 => ⟨S128x116x32, .f32⟩
  | 45 => ⟨S_, .f32⟩
  | 46 => ⟨S128x116x32, .f32⟩
  | 47 => ⟨S128x116x32, .f32⟩
  | 48 => ⟨S128x3712, .f32⟩
  | 49 => ⟨S128x116x64, .f32⟩
  | 50 => ⟨S128x116x64, .f32⟩
  | 51 => ⟨S1x1x64, .f32⟩
  | 52 => ⟨S128x116x64, .f32⟩
  | 53 => ⟨S128x116x64, .f32⟩
  | 54 => ⟨S_, .f32⟩
  | 55 => ⟨S128x116x64, .f32⟩
  | 56 => ⟨S128x116x64, .f32⟩
  | 57 => ⟨S128x116x32, .f32⟩
  | 58 => ⟨S128x116x32, .f32⟩
  | 59 => ⟨S1x1x32, .f32⟩
  | 60 => ⟨S128x116x32, .f32⟩
  | 61 => ⟨S128x116x32, .f32⟩
  | 62 => ⟨S_, .f32⟩
  | 63 => ⟨S128x116x32, .f32⟩
  | 64 => ⟨S128x116x32, .f32⟩
  | 65 => ⟨S128x3712, .f32⟩
  | 66 => ⟨S128x3712, .f32⟩
  | 67 => ⟨S128x3712, .f32⟩
  | 68 => ⟨S_, .f32⟩
  | 69 => ⟨S128, .f32⟩
  | 70 => ⟨S_, .f32⟩
  | 71 => ⟨S128, .f32⟩
  | 72 => ⟨S128, .f32⟩
  | 73 => ⟨S128, .f32⟩
  | 74 => ⟨S128x200x64, .f32⟩
  | 75 => ⟨S128x200x64, .f32⟩
  | 76 => ⟨S1x1x64, .f32⟩
  | 77 => ⟨S128x200x64, .f32⟩
  | 78 => ⟨S128x200x64, .f32⟩
  | 79 => ⟨S_, .f32⟩
  | 80 => ⟨S128x200x64, .f32⟩
  | 81 => ⟨S128x200x64, .f32⟩
  | 82 => ⟨S128x200x32, .f32⟩
  | 83 => ⟨S128x200x32, .f32⟩
  | 84 => ⟨S1x1x32, .f32⟩
  | 85 => ⟨S128x200x32, .f32⟩
  | 86 => ⟨S128x200x32, .f32⟩
  | 87 => ⟨S_, .f32⟩
  | 88 => ⟨S128x200x32, .f32⟩
  | 89 => ⟨S128x200x32, .f32⟩
  | 90 => ⟨S128x6400, .f32⟩
  | 91 => ⟨S128x200x64, .f32⟩
  | 92 => ⟨S128x200x64, .f32⟩
  | 93 => ⟨S1x1x64, .f32⟩
  | 94 => ⟨S128x200x64, .f32⟩
  | 95 => ⟨S128x200x64, .f32⟩
  | 96 => ⟨S_, .f32⟩
  | 97 => ⟨S128x200x64, .f32⟩
  | 98 => ⟨S128x200x64, .f32⟩
  | 99 => ⟨S128x200x32, .f32⟩
  | 100 => ⟨S128x200x32, .f32⟩
  | 101 => ⟨S1x1x32, .f32⟩
  | 102 => ⟨S128x200x32, .f32⟩
  | 103 => ⟨S128x200x32, .f32⟩
  | 104 => ⟨S_, .f32⟩
  | 105 => ⟨S128x200x32, .f32⟩
  | 106 => ⟨S128x200x32, .f32⟩
  | 107 => ⟨S128x6400, .f32⟩
  | 108 => ⟨S128x6400, .f32⟩
  | 109 => ⟨S128x6400, .f32⟩
  | 110 => ⟨S_, .f32⟩
  | 111 => ⟨S128, .f32⟩
  | 112 => ⟨S_, .f32⟩
  | 113 => ⟨S128, .f32⟩
  | 114 => ⟨S128, .f32⟩
  | 115 => ⟨S128, .f32⟩
  | 116 => ⟨S128x264x64, .f32⟩
  | 117 => ⟨S128x264x64, .f32⟩
  | 118 => ⟨S1x1x64, .f32⟩
  | 119 => ⟨S128x264x64, .f32⟩
  | 120 => ⟨S128x264x64, .f32⟩
  | 121 => ⟨S_, .f32⟩
  | 122 => ⟨S128x264x64, .f32⟩
  | 123 => ⟨S128x264x64, .f32⟩
  | 124 => ⟨S128x264x32, .f32⟩
  | 125 => ⟨S128x264x32, .f32⟩
  | 126 => ⟨S1x1x32, .f32⟩
  | 127 => ⟨S128x264x32, .f32⟩
  | _ => ⟨S128x116x116, .f32⟩

abbrev hbmTy0_1 (i : Nat) : BufTy := match i % 128 with
  | 0 => ⟨S128x264x32, .f32⟩
  | 1 => ⟨S_, .f32⟩
  | 2 => ⟨S128x264x32, .f32⟩
  | 3 => ⟨S128x264x32, .f32⟩
  | 4 => ⟨S128x8448, .f32⟩
  | 5 => ⟨S128x264x64, .f32⟩
  | 6 => ⟨S128x264x64, .f32⟩
  | 7 => ⟨S1x1x64, .f32⟩
  | 8 => ⟨S128x264x64, .f32⟩
  | 9 => ⟨S128x264x64, .f32⟩
  | 10 => ⟨S_, .f32⟩
  | 11 => ⟨S128x264x64, .f32⟩
  | 12 => ⟨S128x264x64, .f32⟩
  | 13 => ⟨S128x264x32, .f32⟩
  | 14 => ⟨S128x264x32, .f32⟩
  | 15 => ⟨S1x1x32, .f32⟩
  | 16 => ⟨S128x264x32, .f32⟩
  | 17 => ⟨S128x264x32, .f32⟩
  | 18 => ⟨S_, .f32⟩
  | 19 => ⟨S128x264x32, .f32⟩
  | 20 => ⟨S128x264x32, .f32⟩
  | 21 => ⟨S128x8448, .f32⟩
  | 22 => ⟨S128x8448, .f32⟩
  | 23 => ⟨S128x8448, .f32⟩
  | 24 => ⟨S_, .f32⟩
  | 25 => ⟨S128, .f32⟩
  | 26 => ⟨S_, .f32⟩
  | 27 => ⟨S128, .f32⟩
  | 28 => ⟨S128, .f32⟩
  | 29 => ⟨S128, .f32⟩
  | 30 => ⟨S128x325x64, .f32⟩
  | 31 => ⟨S128x325x64, .f32⟩
  | 32 => ⟨S1x1x64, .f32⟩
  | 33 => ⟨S128x325x64, .f32⟩
  | 34 => ⟨S128x325x64, .f32⟩
  | 35 => ⟨S_, .f32⟩
  | 36 => ⟨S128x325x64, .f32⟩
  | 37 => ⟨S128x325x64, .f32⟩
  | 38 => ⟨S128x325x32, .f32⟩
  | 39 => ⟨S128x325x32, .f32⟩
  | 40 => ⟨S1x1x32, .f32⟩
  | 41 => ⟨S128x325x32, .f32⟩
  | 42 => ⟨S128x325x32, .f32⟩
  | 43 => ⟨S_, .f32⟩
  | 44 => ⟨S128x325x32, .f32⟩
  | 45 => ⟨S128x325x32, .f32⟩
  | 46 => ⟨S128x10400, .f32⟩
  | 47 => ⟨S128x325x64, .f32⟩
  | 48 => ⟨S128x325x64, .f32⟩
  | 49 => ⟨S1x1x64, .f32⟩
  | 50 => ⟨S128x325x64, .f32⟩
  | 51 => ⟨S128x325x64, .f32⟩
  | 52 => ⟨S_, .f32⟩
  | 53 => ⟨S128x325x64, .f32⟩
  | 54 => ⟨S128x325x64, .f32⟩
  | 55 => ⟨S128x325x32, .f32⟩
  | 56 => ⟨S128x325x32, .f32⟩
  | 57 => ⟨S1x1x32, .f32⟩
  | 58 => ⟨S128x325x32, .f32⟩
  | 59 => ⟨S128x325x32, .f32⟩
  | 60 => ⟨S_, .f32⟩
  | 61 => ⟨S128x325x32, .f32⟩
  | 62 => ⟨S128x325x32, .f32⟩
  | 63 => ⟨S128x10400, .f32⟩
  | 64 => ⟨S128x10400, .f32⟩
  | 65 => ⟨S128x10400, .f32⟩
  | 66 => ⟨S_, .f32⟩
  | 67 => ⟨S128, .f32⟩
  | 68 => ⟨S_, .f32⟩
  | 69 => ⟨S128, .f32⟩
  | 70 => ⟨S128, .f32⟩
  | 71 => ⟨S128, .f32⟩
  | _ => ⟨S128x116x116, .f32⟩

abbrev hbmTy (i : Nat) : BufTy := match i / 128 with
  | 0 => hbmTy0_0 i
  | 1 => hbmTy0_1 i
  | _ => ⟨S128x116x116, .f32⟩

abbrev bufTy : (tb : Table) → Fin (tcTables nBuf tb) → BufTy
  | .hbm, ⟨i, _⟩ => hbmTy i
  | _, _ => ⟨S128x116x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_call0_cst : Ref sig .tc := ⟨.hbm, 37, rfl⟩
abbrev main_call0_v0 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_call1_cst : Ref sig .tc := ⟨.hbm, 45, rfl⟩
abbrev main_call1_v0 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_call2_cst : Ref sig .tc := ⟨.hbm, 54, rfl⟩
abbrev main_call2_v0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call3_cst : Ref sig .tc := ⟨.hbm, 62, rfl⟩
abbrev main_call3_v0 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst : Ref sig .tc := ⟨.hbm, 68, rfl⟩
abbrev main_v28 : Ref sig .tc := ⟨.hbm, 69, rfl⟩
abbrev main_cst_0 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call4_cst : Ref sig .tc := ⟨.hbm, 79, rfl⟩
abbrev main_call4_v0 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call5_cst : Ref sig .tc := ⟨.hbm, 87, rfl⟩
abbrev main_call5_v0 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call6_cst : Ref sig .tc := ⟨.hbm, 96, rfl⟩
abbrev main_call6_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_call7_cst : Ref sig .tc := ⟨.hbm, 104, rfl⟩
abbrev main_call7_v0 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_1 : Ref sig .tc := ⟨.hbm, 110, rfl⟩
abbrev main_v60 : Ref sig .tc := ⟨.hbm, 111, rfl⟩
abbrev main_cst_2 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_call8_cst : Ref sig .tc := ⟨.hbm, 121, rfl⟩
abbrev main_call8_v0 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call9_cst : Ref sig .tc := ⟨.hbm, 129, rfl⟩
abbrev main_call9_v0 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call10_cst : Ref sig .tc := ⟨.hbm, 138, rfl⟩
abbrev main_call10_v0 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_call11_cst : Ref sig .tc := ⟨.hbm, 146, rfl⟩
abbrev main_call11_v0 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_3 : Ref sig .tc := ⟨.hbm, 152, rfl⟩
abbrev main_v92 : Ref sig .tc := ⟨.hbm, 153, rfl⟩
abbrev main_cst_4 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_call12_cst : Ref sig .tc := ⟨.hbm, 163, rfl⟩
abbrev main_call12_v0 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_call13_cst : Ref sig .tc := ⟨.hbm, 171, rfl⟩
abbrev main_call13_v0 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_call14_cst : Ref sig .tc := ⟨.hbm, 180, rfl⟩
abbrev main_call14_v0 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_call15_cst : Ref sig .tc := ⟨.hbm, 188, rfl⟩
abbrev main_call15_v0 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_5 : Ref sig .tc := ⟨.hbm, 194, rfl⟩
abbrev main_v124 : Ref sig .tc := ⟨.hbm, 195, rfl⟩
abbrev main_cst_6 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S128x116x64_0_1_2 : S1x1x64.BroadcastsInDim S128x116x64 (![0, 1, 2] : Fin 3 → Fin S128x116x64.rank)
  bcast_S_S128x116x64 : S_.BroadcastsInDim S128x116x64 (![] : Fin 0 → Fin S128x116x64.rank)
  bcast_S32_S1x1x32_2 : S32.BroadcastsInDim S1x1x32 (![2] : Fin 1 → Fin S1x1x32.rank)
  bcast_S1x1x32_S128x116x32_0_1_2 : S1x1x32.BroadcastsInDim S128x116x32 (![0, 1, 2] : Fin 3 → Fin S128x116x32.rank)
  bcast_S_S128x116x32 : S_.BroadcastsInDim S128x116x32 (![] : Fin 0 → Fin S128x116x32.rank)
  shapeCasts_S128x116x32_S128x3712 : S128x116x32.ShapeCasts S128x3712
  reducesTo_S128x3712_S128_d1 : S128x3712.ReducesTo [1] S128
  h_S_ : 0 < S_.numel
  bcast_S_S128 : S_.BroadcastsInDim S128 (![] : Fin 0 → Fin S128.rank)
  bcast_S1x1x64_S128x200x64_0_1_2 : S1x1x64.BroadcastsInDim S128x200x64 (![0, 1, 2] : Fin 3 → Fin S128x200x64.rank)
  bcast_S_S128x200x64 : S_.BroadcastsInDim S128x200x64 (![] : Fin 0 → Fin S128x200x64.rank)
  bcast_S1x1x32_S128x200x32_0_1_2 : S1x1x32.BroadcastsInDim S128x200x32 (![0, 1, 2] : Fin 3 → Fin S128x200x32.rank)
  bcast_S_S128x200x32 : S_.BroadcastsInDim S128x200x32 (![] : Fin 0 → Fin S128x200x32.rank)
  shapeCasts_S128x200x32_S128x6400 : S128x200x32.ShapeCasts S128x6400
  reducesTo_S128x6400_S128_d1 : S128x6400.ReducesTo [1] S128
  bcast_S1x1x64_S128x264x64_0_1_2 : S1x1x64.BroadcastsInDim S128x264x64 (![0, 1, 2] : Fin 3 → Fin S128x264x64.rank)
  bcast_S_S128x264x64 : S_.BroadcastsInDim S128x264x64 (![] : Fin 0 → Fin S128x264x64.rank)
  bcast_S1x1x32_S128x264x32_0_1_2 : S1x1x32.BroadcastsInDim S128x264x32 (![0, 1, 2] : Fin 3 → Fin S128x264x32.rank)
  bcast_S_S128x264x32 : S_.BroadcastsInDim S128x264x32 (![] : Fin 0 → Fin S128x264x32.rank)
  shapeCasts_S128x264x32_S128x8448 : S128x264x32.ShapeCasts S128x8448
  reducesTo_S128x8448_S128_d1 : S128x8448.ReducesTo [1] S128
  bcast_S1x1x64_S128x325x64_0_1_2 : S1x1x64.BroadcastsInDim S128x325x64 (![0, 1, 2] : Fin 3 → Fin S128x325x64.rank)
  bcast_S_S128x325x64 : S_.BroadcastsInDim S128x325x64 (![] : Fin 0 → Fin S128x325x64.rank)
  bcast_S1x1x32_S128x325x32_0_1_2 : S1x1x32.BroadcastsInDim S128x325x32 (![0, 1, 2] : Fin 3 → Fin S128x325x32.rank)
  bcast_S_S128x325x32 : S_.BroadcastsInDim S128x325x32 (![] : Fin 0 → Fin S128x325x32.rank)
  shapeCasts_S128x325x32_S128x10400 : S128x325x32.ShapeCasts S128x10400
  reducesTo_S128x10400_S128_d1 : S128x10400.ReducesTo [1] S128
  dot_S128x116x116_S116x64_S128x116x64_2_0_01_1_n_n_wf : DotDims.WF S128x116x116 S116x64 S128x116x64 [2] [0] [0, 1] [1] [] []
  dot_S128x116x116_S128x116x64_S128x116x64_2_1_1_2_0_0_wf : DotDims.WF S128x116x116 S128x116x64 S128x116x64 [2] [1] [1] [2] [0] [0]
  dot_S128x116x64_S64x32_S128x116x32_2_0_01_1_n_n_wf : DotDims.WF S128x116x64 S64x32 S128x116x32 [2] [0] [0, 1] [1] [] []
  dot_S128x116x116_S128x116x32_S128x116x32_2_1_1_2_0_0_wf : DotDims.WF S128x116x116 S128x116x32 S128x116x32 [2] [1] [1] [2] [0] [0]
  dot_S128x200x200_S200x64_S128x200x64_2_0_01_1_n_n_wf : DotDims.WF S128x200x200 S200x64 S128x200x64 [2] [0] [0, 1] [1] [] []
  dot_S128x200x200_S128x200x64_S128x200x64_2_1_1_2_0_0_wf : DotDims.WF S128x200x200 S128x200x64 S128x200x64 [2] [1] [1] [2] [0] [0]
  dot_S128x200x64_S64x32_S128x200x32_2_0_01_1_n_n_wf : DotDims.WF S128x200x64 S64x32 S128x200x32 [2] [0] [0, 1] [1] [] []
  dot_S128x200x200_S128x200x32_S128x200x32_2_1_1_2_0_0_wf : DotDims.WF S128x200x200 S128x200x32 S128x200x32 [2] [1] [1] [2] [0] [0]
  dot_S128x264x264_S264x64_S128x264x64_2_0_01_1_n_n_wf : DotDims.WF S128x264x264 S264x64 S128x264x64 [2] [0] [0, 1] [1] [] []
  dot_S128x264x264_S128x264x64_S128x264x64_2_1_1_2_0_0_wf : DotDims.WF S128x264x264 S128x264x64 S128x264x64 [2] [1] [1] [2] [0] [0]
  dot_S128x264x64_S64x32_S128x264x32_2_0_01_1_n_n_wf : DotDims.WF S128x264x64 S64x32 S128x264x32 [2] [0] [0, 1] [1] [] []
  dot_S128x264x264_S128x264x32_S128x264x32_2_1_1_2_0_0_wf : DotDims.WF S128x264x264 S128x264x32 S128x264x32 [2] [1] [1] [2] [0] [0]
  dot_S128x325x325_S325x64_S128x325x64_2_0_01_1_n_n_wf : DotDims.WF S128x325x325 S325x64 S128x325x64 [2] [0] [0, 1] [1] [] []
  dot_S128x325x325_S128x325x64_S128x325x64_2_1_1_2_0_0_wf : DotDims.WF S128x325x325 S128x325x64 S128x325x64 [2] [1] [1] [2] [0] [0]
  dot_S128x325x64_S64x32_S128x325x32_2_0_01_1_n_n_wf : DotDims.WF S128x325x64 S64x32 S128x325x32 [2] [0] [0, 1] [1] [] []
  dot_S128x325x325_S128x325x32_S128x325x32_2_1_1_2_0_0_wf : DotDims.WF S128x325x325 S128x325x32 S128x325x32 [2] [1] [1] [2] [0] [0]

variable [Facts₀]

def dot_S128x116x116_S116x64_S128x116x64_2_0_01_1_n_n : DotDims S128x116x116 S116x64 S128x116x64 where
  lhsContracting := [2]
  rhsContracting := [0]
  lhsNonContracting := [0, 1]
  rhsNonContracting := [1]
  lhsBatch := []
  rhsBatch := []
  wf := dot_S128x116x116_S116x64_S128x116x64_2_0_01_1_n_n_wf
def dot_S128x116x116_S128x116x64_S128x116x64_2_1_1_2_0_0 : DotDims S128x116x116 S128x116x64 S128x116x64 where
  lhsContracting := [2]
  rhsContracting := [1]
  lhsNonContracting := [1]
  rhsNonContracting := [2]
  lhsBatch := [0]
  rhsBatch := [0]
  wf := dot_S128x116x116_S128x116x64_S128x116x64_2_1_1_2_0_0_wf
def dot_S128x116x64_S64x32_S128x116x32_2_0_01_1_n_n : DotDims S128x116x64 S64x32 S128x116x32 where
  lhsContracting := [2]
  rhsContracting := [0]
  lhsNonContracting := [0, 1]
  rhsNonContracting := [1]
  lhsBatch := []
  rhsBatch := []
  wf := dot_S128x116x64_S64x32_S128x116x32_2_0_01_1_n_n_wf
def dot_S128x116x116_S128x116x32_S128x116x32_2_1_1_2_0_0 : DotDims S128x116x116 S128x116x32 S128x116x32 where
  lhsContracting := [2]
  rhsContracting := [1]
  lhsNonContracting := [1]
  rhsNonContracting := [2]
  lhsBatch := [0]
  rhsBatch := [0]
  wf := dot_S128x116x116_S128x116x32_S128x116x32_2_1_1_2_0_0_wf
def dot_S128x200x200_S200x64_S128x200x64_2_0_01_1_n_n : DotDims S128x200x200 S200x64 S128x200x64 where
  lhsContracting := [2]
  rhsContracting := [0]
  lhsNonContracting := [0, 1]
  rhsNonContracting := [1]
  lhsBatch := []
  rhsBatch := []
  wf := dot_S128x200x200_S200x64_S128x200x64_2_0_01_1_n_n_wf
def dot_S128x200x200_S128x200x64_S128x200x64_2_1_1_2_0_0 : DotDims S128x200x200 S128x200x64 S128x200x64 where
  lhsContracting := [2]
  rhsContracting := [1]
  lhsNonContracting := [1]
  rhsNonContracting := [2]
  lhsBatch := [0]
  rhsBatch := [0]
  wf := dot_S128x200x200_S128x200x64_S128x200x64_2_1_1_2_0_0_wf
def dot_S128x200x64_S64x32_S128x200x32_2_0_01_1_n_n : DotDims S128x200x64 S64x32 S128x200x32 where
  lhsContracting := [2]
  rhsContracting := [0]
  lhsNonContracting := [0, 1]
  rhsNonContracting := [1]
  lhsBatch := []
  rhsBatch := []
  wf := dot_S128x200x64_S64x32_S128x200x32_2_0_01_1_n_n_wf
def dot_S128x200x200_S128x200x32_S128x200x32_2_1_1_2_0_0 : DotDims S128x200x200 S128x200x32 S128x200x32 where
  lhsContracting := [2]
  rhsContracting := [1]
  lhsNonContracting := [1]
  rhsNonContracting := [2]
  lhsBatch := [0]
  rhsBatch := [0]
  wf := dot_S128x200x200_S128x200x32_S128x200x32_2_1_1_2_0_0_wf
def dot_S128x264x264_S264x64_S128x264x64_2_0_01_1_n_n : DotDims S128x264x264 S264x64 S128x264x64 where
  lhsContracting := [2]
  rhsContracting := [0]
  lhsNonContracting := [0, 1]
  rhsNonContracting := [1]
  lhsBatch := []
  rhsBatch := []
  wf := dot_S128x264x264_S264x64_S128x264x64_2_0_01_1_n_n_wf
def dot_S128x264x264_S128x264x64_S128x264x64_2_1_1_2_0_0 : DotDims S128x264x264 S128x264x64 S128x264x64 where
  lhsContracting := [2]
  rhsContracting := [1]
  lhsNonContracting := [1]
  rhsNonContracting := [2]
  lhsBatch := [0]
  rhsBatch := [0]
  wf := dot_S128x264x264_S128x264x64_S128x264x64_2_1_1_2_0_0_wf
def dot_S128x264x64_S64x32_S128x264x32_2_0_01_1_n_n : DotDims S128x264x64 S64x32 S128x264x32 where
  lhsContracting := [2]
  rhsContracting := [0]
  lhsNonContracting := [0, 1]
  rhsNonContracting := [1]
  lhsBatch := []
  rhsBatch := []
  wf := dot_S128x264x64_S64x32_S128x264x32_2_0_01_1_n_n_wf
def dot_S128x264x264_S128x264x32_S128x264x32_2_1_1_2_0_0 : DotDims S128x264x264 S128x264x32 S128x264x32 where
  lhsContracting := [2]
  rhsContracting := [1]
  lhsNonContracting := [1]
  rhsNonContracting := [2]
  lhsBatch := [0]
  rhsBatch := [0]
  wf := dot_S128x264x264_S128x264x32_S128x264x32_2_1_1_2_0_0_wf
def dot_S128x325x325_S325x64_S128x325x64_2_0_01_1_n_n : DotDims S128x325x325 S325x64 S128x325x64 where
  lhsContracting := [2]
  rhsContracting := [0]
  lhsNonContracting := [0, 1]
  rhsNonContracting := [1]
  lhsBatch := []
  rhsBatch := []
  wf := dot_S128x325x325_S325x64_S128x325x64_2_0_01_1_n_n_wf
def dot_S128x325x325_S128x325x64_S128x325x64_2_1_1_2_0_0 : DotDims S128x325x325 S128x325x64 S128x325x64 where
  lhsContracting := [2]
  rhsContracting := [1]
  lhsNonContracting := [1]
  rhsNonContracting := [2]
  lhsBatch := [0]
  rhsBatch := [0]
  wf := dot_S128x325x325_S128x325x64_S128x325x64_2_1_1_2_0_0_wf
def dot_S128x325x64_S64x32_S128x325x32_2_0_01_1_n_n : DotDims S128x325x64 S64x32 S128x325x32 where
  lhsContracting := [2]
  rhsContracting := [0]
  lhsNonContracting := [0, 1]
  rhsNonContracting := [1]
  lhsBatch := []
  rhsBatch := []
  wf := dot_S128x325x64_S64x32_S128x325x32_2_0_01_1_n_n_wf
def dot_S128x325x325_S128x325x32_S128x325x32_2_1_1_2_0_0 : DotDims S128x325x325 S128x325x32 S128x325x32 where
  lhsContracting := [2]
  rhsContracting := [1]
  lhsNonContracting := [1]
  rhsNonContracting := [2]
  lhsBatch := [0]
  rhsBatch := [0]
  wf := dot_S128x325x325_S128x325x32_S128x325x32_2_1_1_2_0_0_wf

class Facts : Prop extends Facts₀ where

variable [Facts]
-- ==== Proof.KernelBlocks.lean ====
/-
  Each window's block at a grid point, read off the array the region finds.

  The grid has 32 points. Point t of a data window (x or a of a scale, [128,n,n]) holds the four samples 4t … 4t+3
  whole; the weight and bias windows hold their whole array at every point; point t of an output window ([128,1,1])
  is rows 4t … 4t+3. The printed index maps are decided once over the 32 points, and each block entry is then the
  array's entry at the block's offset plus the entry's coordinates.
-/
import proofs.«125226_g50010599194667_cont_sun_m_1001_24_alg».proof.Proof.KernelIdealFrameP
import Idealize.ShloMosaic.Lib.ValueIdx

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-! ## Data windows: block t is samples 4t … 4t+3 -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block at point t, at sample j of the block and entry (p, q): main_arg0 at sample 4t + j. -/
theorem iblk0 (c : Dev nD) (t : Fin cfg0.N) (j : Fin 4) (p q : Fin 116) (b : Fin 128) (hb : b.val = 4 * t.val + j.val) :
    iblk m c 0 t (ix3 j p q) = V m c main_arg0 (ix3 b p q) := by
  obtain ⟨e0, e1, e2⟩ := idx0 t
  show V m c main_arg0 (((cfg0.win 0).blk t).view.emb (ix3 j p q)) = _
  refine congrArg _ (funext fun a => Fin.ext ?_)
  match a with
  | ⟨0, _⟩ => show win0_0.index t (0 : Fin 3) * 4 + 1 * j.val = b.val; omega
  | ⟨1, _⟩ => show win0_0.index t (1 : Fin 3) * 116 + 1 * p.val = p.val; omega
  | ⟨2, _⟩ => show win0_0.index t (2 : Fin 3) * 116 + 1 * q.val = q.val; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 1's block at point t, at sample j of the block and entry (p, q): main_arg2 at sample 4t + j. -/
theorem iblk1 (c : Dev nD) (t : Fin cfg0.N) (j : Fin 4) (p q : Fin 116) (b : Fin 128) (hb : b.val = 4 * t.val + j.val) :
    iblk m c 1 t (ix3 j p q) = V m c main_arg2 (ix3 b p q) := by
  obtain ⟨e0, e1, e2⟩ := idx1 t
  show V m c main_arg2 (((cfg0.win 1).blk t).view.emb (ix3 j p q)) = _
  refine congrArg _ (funext fun a => Fin.ext ?_)
  match a with
  | ⟨0, _⟩ => show win0_1.index t (0 : Fin 3) * 4 + 1 * j.val = b.val; omega
  | ⟨1, _⟩ => show win0_1.index t (1 : Fin 3) * 116 + 1 * p.val = p.val; omega
  | ⟨2, _⟩ => show win0_1.index t (2 : Fin 3) * 116 + 1 * q.val = q.val; omega

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Window 2's block at point t, at sample j of the block and entry (p, q): main_arg1 at sample 4t + j. -/
theorem iblk2 (c : Dev nD) (t : Fin cfg0.N) (j : Fin 4) (p q : Fin 116) (b : Fin 128) (hb : b.val = 4 * t.val + j.val) :
    iblk m c 2 t (ix3 j p q) = V m c main_arg1 (ix3 b p q) := by
  obtain ⟨e0, e1, e2⟩ := idx2 t
  show V m c main_arg1 (((cfg0.win 2).blk t).view.emb (ix3 j p q)) = _
  refine congrArg _ (funext fun a => Fin.ext ?_)
  match a with
  | ⟨0, _⟩ => show win0_2.index t (0 : Fin 3) * 4 + 1 * j.val = b.val; omega
  | ⟨1, _⟩ => show win0_2.index t (1 : Fin 3) * 116 + 1 * p.val = p.val; omega
  | ⟨2, _⟩ => show win0_2.index t (2 : Fin 3) * 116 + 1 * q.val = q.val; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Window 3's block at point t, at sample j of the block and entry (p, q): main_arg3 at sample 4t + j. -/
theorem iblk3 (c : Dev nD) (t : Fin cfg0.N) (j : Fin 4) (p q : Fin 116) (b : Fin 128) (hb : b.val = 4 * t.val + j.val) :
    iblk m c 3 t (ix3 j p q) = V m c main_arg3 (ix3 b p q) := by
  obtain ⟨e0, e1, e2⟩ := idx3 t
  show V m c main_arg3 (((cfg0.win 3).blk t).view.emb (ix3 j p q)) = _
  refine congrArg _ (funext fun a => Fin.ext ?_)
  match a with
  | ⟨0, _⟩ => show win0_3.index t (0 : Fin 3) * 4 + 1 * j.val = b.val; omega
  | ⟨1, _⟩ => show win0_3.index t (1 : Fin 3) * 116 + 1 * p.val = p.val; omega
  | ⟨2, _⟩ => show win0_3.index t (2 : Fin 3) * 116 + 1 * q.val = q.val; omega

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Window 4's block at point t, at sample j of the block and entry (p, q): main_arg8 at sample 4t + j. -/
theorem iblk4 (c : Dev nD) (t : Fin cfg0.N) (j : Fin 4) (p q : Fin 200) (b : Fin 128) (hb : b.val = 4 * t.val + j.val) :
    iblk m c 4 t (ix3 j p q) = V m c main_arg8 (ix3 b p q) := by
  obtain ⟨e0, e1, e2⟩ := idx4 t
  show V m c main_arg8 (((cfg0.win 4).blk t).view.emb (ix3 j p q)) = _
  refine congrArg _ (funext fun a => Fin.ext ?_)
  match a with
  | ⟨0, _⟩ => show win0_4.index t (0 : Fin 3) * 4 + 1 * j.val = b.val; omega
  | ⟨1, _⟩ => show win0_4.index t (1 : Fin 3) * 200 + 1 * p.val = p.val; omega
  | ⟨2, _⟩ => show win0_4.index t (2 : Fin 3) * 200 + 1 * q.val = q.val; omega

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Window 5's block at point t, at sample j of the block and entry (p, q): main_arg10 at sample 4t + j. -/
theorem iblk5 (c : Dev nD) (t : Fin cfg0.N) (j : Fin 4) (p q : Fin 200) (b : Fin 128) (hb : b.val = 4 * t.val + j.val) :
    iblk m c 5 t (ix3 j p q) = V m c main_arg10 (ix3 b p q) := by
  obtain ⟨e0, e1, e2⟩ := idx5 t
  show V m c main_arg10 (((cfg0.win 5).blk t).view.emb (ix3 j p q)) = _
  refine congrArg _ (funext fun a => Fin.ext ?_)
  match a with
  | ⟨0, _⟩ => show win0_5.index t (0 : Fin 3) * 4 + 1 * j.val = b.val; omega
  | ⟨1, _⟩ => show win0_5.index t (1 : Fin 3) * 200 + 1 * p.val = p.val; omega
  | ⟨2, _⟩ => show win0_5.index t (2 : Fin 3) * 200 + 1 * q.val = q.val; omega

theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Window 6's block at point t, at sample j of the block and entry (p, q): main_arg9 at sample 4t + j. -/
theorem iblk6 (c : Dev nD) (t : Fin cfg0.N) (j : Fin 4) (p q : Fin 200) (b : Fin 128) (hb : b.val = 4 * t.val + j.val) :
    iblk m c 6 t (ix3 j p q) = V m c main_arg9 (ix3 b p q) := by
  obtain ⟨e0, e1, e2⟩ := idx6 t
  show V m c main_arg9 (((cfg0.win 6).blk t).view.emb (ix3 j p q)) = _
  refine congrArg _ (funext fun a => Fin.ext ?_)
  match a with
  | ⟨0, _⟩ => show win0_6.index t (0 : Fin 3) * 4 + 1 * j.val = b.val; omega
  | ⟨1, _⟩ => show win0_6.index t (1 : Fin 3) * 200 + 1 * p.val = p.val; omega
  | ⟨2, _⟩ => show win0_6.index t (2 : Fin 3) * 200 + 1 * q.val = q.val; omega

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Window 7's block at point t, at sample j of the block and entry (p, q): main_arg11 at sample 4t + j. -/
theorem iblk7 (c : Dev nD) (t : Fin cfg0.N) (j : Fin 4) (p q : Fin 200) (b : Fin 128) (hb : b.val = 4 * t.val + j.val) :
    iblk m c 7 t (ix3 j p q) = V m c main_arg11 (ix3 b p q) := by
  obtain ⟨e0, e1, e2⟩ := idx7 t
  show V m c main_arg11 (((cfg0.win 7).blk t).view.emb (ix3 j p q)) = _
  refine congrArg _ (funext fun a => Fin.ext ?_)
  match a with
  | ⟨0, _⟩ => show win0_7.index t (0 : Fin 3) * 4 + 1 * j.val = b.val; omega
  | ⟨1, _⟩ => show win0_7.index t (1 : Fin 3) * 200 + 1 * p.val = p.val; omega
  | ⟨2, _⟩ => show win0_7.index t (2 : Fin 3) * 200 + 1 * q.val = q.val; omega

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Window 8's block at point t, at sample j of the block and entry (p, q): main_arg16 at sample 4t + j. -/
theorem iblk8 (c : Dev nD) (t : Fin cfg0.N) (j : Fin 4) (p q : Fin 264) (b : Fin 128) (hb : b.val = 4 * t.val + j.val) :
    iblk m c 8 t (ix3 j p q) = V m c main_arg16 (ix3 b p q) := by
  obtain ⟨e0, e1, e2⟩ := idx8 t
  show V m c main_arg16 (((cfg0.win 8).blk t).view.emb (ix3 j p q)) = _
  refine congrArg _ (funext fun a => Fin.ext ?_)
  match a with
  | ⟨0, _⟩ => show win0_8.index t (0 : Fin 3) * 4 + 1 * j.val = b.val; omega
  | ⟨1, _⟩ => show win0_8.index t (1 : Fin 3) * 264 + 1 * p.val = p.val; omega
  | ⟨2, _⟩ => show win0_8.index t (2 : Fin 3) * 264 + 1 * q.val = q.val; omega

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- Window 9's block at point t, at sample j of the block and entry (p, q): main_arg18 at sample 4t + j. -/
theorem iblk9 (c : Dev nD) (t : Fin cfg0.N) (j : Fin 4) (p q : Fin 264) (b : Fin 128) (hb : b.val = 4 * t.val + j.val) :
    iblk m c 9 t (ix3 j p q) = V m c main_arg18 (ix3 b p q) := by
  obtain ⟨e0, e1, e2⟩ := idx9 t
  show V m c main_arg18 (((cfg0.win 9).blk t).view.emb (ix3 j p q)) = _
  refine congrArg _ (funext fun a => Fin.ext ?_)
  match a with
  | ⟨0, _⟩ => show win0_9.index t (0 : Fin 3) * 4 + 1 * j.val = b.val; omega
  | ⟨1, _⟩ => show win0_9.index t (1 : Fin 3) * 264 + 1 * p.val = p.val; omega
  | ⟨2, _⟩ => show win0_9.index t (2 : Fin 3) * 264 + 1 * q.val = q.val; omega

theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- Window 10's block at point t, at sample j of the block and entry (p, q): main_arg17 at sample 4t + j. -/
theorem iblk10 (c : Dev nD) (t : Fin cfg0.N) (j : Fin 4) (p q : Fin 264) (b : Fin 128) (hb : b.val = 4 * t.val + j.val) :
    iblk m c 10 t (ix3 j p q) = V m c main_arg17 (ix3 b p q) := by
  obtain ⟨e0, e1, e2⟩ := idx10 t
  show V m c main_arg17 (((cfg0.win 10).blk t).view.emb (ix3 j p q)) = _
  refine congrArg _ (funext fun a => Fin.ext ?_)
  match a with
  | ⟨0, _⟩ => show win0_10.index t (0 : Fin 3) * 4 + 1 * j.val = b.val; omega
  | ⟨1, _⟩ => show win0_10.index t (1 : Fin 3) * 264 + 1 * p.val = p.val; omega
  | ⟨2, _⟩ => show win0_10.index t (2 : Fin 3) * 264 + 1 * q.val = q.val; omega

theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-- Window 11's block at point t, at sample j of the block and entry (p, q): main_arg19 at sample 4t + j. -/
theorem iblk11 (c : Dev nD) (t : Fin cfg0.N) (j : Fin 4) (p q : Fin 264) (b : Fin 128) (hb : b.val = 4 * t.val + j.val) :
    iblk m c 11 t (ix3 j p q) = V m c main_arg19 (ix3 b p q) := by
  obtain ⟨e0, e1, e2⟩ := idx11 t
  show V m c main_arg19 (((cfg0.win 11).blk t).view.emb (ix3 j p q)) = _
  refine congrArg _ (funext fun a => Fin.ext ?_)
  match a with
  | ⟨0, _⟩ => show win0_11.index t (0 : Fin 3) * 4 + 1 * j.val = b.val; omega
  | ⟨1, _⟩ => show win0_11.index t (1 : Fin 3) * 264 + 1 * p.val = p.val; omega
  | ⟨2, _⟩ => show win0_11.index t (2 : Fin 3) * 264 + 1 * q.val = q.val; omega

theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

/-- Window 12's block at point t, at sample j of the block and entry (p, q): main_arg24 at sample 4t + j. -/
theorem iblk12 (c : Dev nD) (t : Fin cfg0.N) (j : Fin 4) (p q : Fin 325) (b : Fin 128) (hb : b.val = 4 * t.val + j.val) :
    iblk m c 12 t (ix3 j p q) = V m c main_arg24 (ix3 b p q) := by
  obtain ⟨e0, e1, e2⟩ := idx12 t
  show V m c main_arg24 (((cfg0.win 12).blk t).view.emb (ix3 j p q)) = _
  refine congrArg _ (funext fun a => Fin.ext ?_)
  match a with
  | ⟨0, _⟩ => show win0_12.index t (0 : Fin 3) * 4 + 1 * j.val = b.val; omega
  | ⟨1, _⟩ => show win0_12.index t (1 : Fin 3) * 325 + 1 * p.val = p.val; omega
  | ⟨2, _⟩ => show win0_12.index t (2 : Fin 3) * 325 + 1 * q.val = q.val; omega

theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)

/-- Window 13's block at point t, at sample j of the block and entry (p, q): main_arg26 at sample 4t + j. -/
theorem iblk13 (c : Dev nD) (t : Fin cfg0.N) (j : Fin 4) (p q : Fin 325) (b : Fin 128) (hb : b.val = 4 * t.val + j.val) :
    iblk m c 13 t (ix3 j p q) = V m c main_arg26 (ix3 b p q) := by
  obtain ⟨e0, e1, e2⟩ := idx13 t
  show V m c main_arg26 (((cfg0.win 13).blk t).view.emb (ix3 j p q)) = _
  refine congrArg _ (funext fun a => Fin.ext ?_)
  match a with
  | ⟨0, _⟩ => show win0_13.index t (0 : Fin 3) * 4 + 1 * j.val = b.val; omega
  | ⟨1, _⟩ => show win0_13.index t (1 : Fin 3) * 325 + 1 * p.val = p.val; omega
  | ⟨2, _⟩ => show win0_13.index t (2 : Fin 3) * 325 + 1 * q.val = q.val; omega

theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)

/-- Window 14's block at point t, at sample j of the block and entry (p, q): main_arg25 at sample 4t + j. -/
theorem iblk14 (c : Dev nD) (t : Fin cfg0.N) (j : Fin 4) (p q : Fin 325) (b : Fin 128) (hb : b.val = 4 * t.val + j.val) :
    iblk m c 14 t (ix3 j p q) = V m c main_arg25 (ix3 b p q) := by
  obtain ⟨e0, e1, e2⟩ := idx14 t
  show V m c main_arg25 (((cfg0.win 14).blk t).view.emb (ix3 j p q)) = _
  refine congrArg _ (funext fun a => Fin.ext ?_)
  match a with
  | ⟨0, _⟩ => show win0_14.index t (0 : Fin 3) * 4 + 1 * j.val = b.val; omega
  | ⟨1, _⟩ => show win0_14.index t (1 : Fin 3) * 325 + 1 * p.val = p.val; omega
  | ⟨2, _⟩ => show win0_14.index t (2 : Fin 3) * 325 + 1 * q.val = q.val; omega

theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)

/-- Window 15's block at point t, at sample j of the block and entry (p, q): main_arg27 at sample 4t + j. -/
theorem iblk15 (c : Dev nD) (t : Fin cfg0.N) (j : Fin 4) (p q : Fin 325) (b : Fin 128) (hb : b.val = 4 * t.val + j.val) :
    iblk m c 15 t (ix3 j p q) = V m c main_arg27 (ix3 b p q) := by
  obtain ⟨e0, e1, e2⟩ := idx15 t
  show V m c main_arg27 (((cfg0.win 15).blk t).view.emb (ix3 j p q)) = _
  refine congrArg _ (funext fun a => Fin.ext ?_)
  match a with
  | ⟨0, _⟩ => show win0_15.index t (0 : Fin 3) * 4 + 1 * j.val = b.val; omega
  | ⟨1, _⟩ => show win0_15.index t (1 : Fin 3) * 325 + 1 * p.val = p.val; omega
  | ⟨2, _⟩ => show win0_15.index t (2 : Fin 3) * 325 + 1 * q.val = q.val; omega

/-! ## Weight and bias windows: the whole array at every point -/

theorem idx16 : ∀ t : Fin cfg0.N, win0_16.index t (0 : Fin 2) = 0 ∧ win0_16.index t (1 : Fin 2) = 0 :=
  (by decide +kernel : ∀ t : Fin grid0.N, _)

/-- Window 16's block at any point is main_arg4 whole. -/
theorem iblk16 (c : Dev nD) (t : Fin cfg0.N) (y : S116x64.Idx) : iblk m c 16 t y = V m c main_arg4 y := by
  obtain ⟨e0, e1⟩ := idx16 t
  show V m c main_arg4 (((cfg0.win 16).blk t).view.emb y) = _
  refine congrArg _ (funext fun a => Fin.ext ?_)
  match a with
  | ⟨0, _⟩ => show win0_16.index t (0 : Fin 2) * 116 + 1 * (y 0).val = (y 0).val; omega
  | ⟨1, _⟩ => show win0_16.index t (1 : Fin 2) * 64 + 1 * (y 1).val = (y 1).val; omega

theorem idx17 : ∀ t : Fin cfg0.N, win0_17.index t (0 : Fin 2) = 0 ∧ win0_17.index t (1 : Fin 2) = 0 :=
  (by decide +kernel : ∀ t : Fin grid0.N, _)

/-- Window 17's block at any point is main_v0 whole. -/
theorem iblk17 (c : Dev nD) (t : Fin cfg0.N) (y : S1x64.Idx) : iblk m c 17 t y = V m c main_v0 y := by
  obtain ⟨e0, e1⟩ := idx17 t
  show V m c main_v0 (((cfg0.win 17).blk t).view.emb y) = _
  refine congrArg _ (funext fun a => Fin.ext ?_)
  match a with
  | ⟨0, _⟩ => show win0_17.index t (0 : Fin 2) * 1 + 1 * (y 0).val = (y 0).val; omega
  | ⟨1, _⟩ => show win0_17.index t (1 : Fin 2) * 64 + 1 * (y 1).val = (y 1).val; omega

theorem idx18 : ∀ t : Fin cfg0.N, win0_18.index t (0 : Fin 2) = 0 ∧ win0_18.index t (1 : Fin 2) = 0 :=
  (by decide +kernel : ∀ t : Fin grid0.N, _)

/-- Window 18's block at any point is main_arg6 whole. -/
theorem iblk18 (c : Dev nD) (t : Fin cfg0.N) (y : S64x32.Idx) : iblk m c 18 t y = V m c main_arg6 y := by
  obtain ⟨e0, e1⟩ := idx18 t
  show V m c main_arg6 (((cfg0.win 18).blk t).view.emb y) = _
  refine congrArg _ (funext fun a => Fin.ext ?_)
  match a with
  | ⟨0, _⟩ => show win0_18.index t (0 : Fin 2) * 64 + 1 * (y 0).val = (y 0).val; omega
  | ⟨1, _⟩ => show win0_18.index t (1 : Fin 2) * 32 + 1 * (y 1).val = (y 1).val; omega

theorem idx19 : ∀ t : Fin cfg0.N, win0_19.index t (0 : Fin 2) = 0 ∧ win0_19.index t (1 : Fin 2) = 0 :=
  (by decide +kernel : ∀ t : Fin grid0.N, _)

/-- Window 19's block at any point is main_v1 whole. -/
theorem iblk19 (c : Dev nD) (t : Fin cfg0.N) (y : S1x32.Idx) : iblk m c 19 t y = V m c main_v1 y := by
  obtain ⟨e0, e1⟩ := idx19 t
  show V m c main_v1 (((cfg0.win 19).blk t).view.emb y) = _
  refine congrArg _ (funext fun a => Fin.ext ?_)
  match a with
  | ⟨0, _⟩ => show win0_19.index t (0 : Fin 2) * 1 + 1 * (y 0).val = (y 0).val; omega
  | ⟨1, _⟩ => show win0_19.index t (1 : Fin 2) * 32 + 1 * (y 1).val = (y 1).val; omega

theorem idx20 : ∀ t : Fin cfg0.N, win0_20.index t (0 : Fin 2) = 0 ∧ win0_20.index t (1 : Fin 2) = 0 :=
  (by decide +kernel : ∀ t : Fin grid0.N, _)

/-- Window 20's block at any point is main_arg12 whole. -/
theorem iblk20 (c : Dev nD) (t : Fin cfg0.N) (y : S200x64.Idx) : iblk m c 20 t y = V m c main_arg12 y := by
  obtain ⟨e0, e1⟩ := idx20 t
  show V m c main_arg12 (((cfg0.win 20).blk t).view.emb y) = _
  refine congrArg _ (funext fun a => Fin.ext ?_)
  match a with
  | ⟨0, _⟩ => show win0_20.index t (0 : Fin 2) * 200 + 1 * (y 0).val = (y 0).val; omega
  | ⟨1, _⟩ => show win0_20.index t (1 : Fin 2) * 64 + 1 * (y 1).val = (y 1).val; omega

theorem idx21 : ∀ t : Fin cfg0.N, win0_21.index t (0 : Fin 2) = 0 ∧ win0_21.index t (1 : Fin 2) = 0 :=
  (by decide +kernel : ∀ t : Fin grid0.N, _)

/-- Window 21's block at any point is main_v2 whole. -/
theorem iblk21 (c : Dev nD) (t : Fin cfg0.N) (y : S1x64.Idx) : iblk m c 21 t y = V m c main_v2 y := by
  obtain ⟨e0, e1⟩ := idx21 t
  show V m c main_v2 (((cfg0.win 21).blk t).view.emb y) = _
  refine congrArg _ (funext fun a => Fin.ext ?_)
  match a with
  | ⟨0, _⟩ => show win0_21.index t (0 : Fin 2) * 1 + 1 * (y 0).val = (y 0).val; omega
  | ⟨1, _⟩ => show win0_21.index t (1 : Fin 2) * 64 + 1 * (y 1).val = (y 1).val; omega

theorem idx22 : ∀ t : Fin cfg0.N, win0_22.index t (0 : Fin 2) = 0 ∧ win0_22.index t (1 : Fin 2) = 0 :=
  (by decide +kernel : ∀ t : Fin grid0.N, _)

/-- Window 22's block at any point is main_arg14 whole. -/
theorem iblk22 (c : Dev nD) (t : Fin cfg0.N) (y : S64x32.Idx) : iblk m c 22 t y = V m c main_arg14 y := by
  obtain ⟨e0, e1⟩ := idx22 t
  show V m c main_arg14 (((cfg0.win 22).blk t).view.emb y) = _
  refine congrArg _ (funext fun a => Fin.ext ?_)
  match a with
  | ⟨0, _⟩ => show win0_22.index t (0 : Fin 2) * 64 + 1 * (y 0).val = (y 0).val; omega
  | ⟨1, _⟩ => show win0_22.index t (1 : Fin 2) * 32 + 1 * (y 1).val = (y 1).val; omega

theorem idx23 : ∀ t : Fin cfg0.N, win0_23.index t (0 : Fin 2) = 0 ∧ win0_23.index t (1 : Fin 2) = 0 :=
  (by decide +kernel : ∀ t : Fin grid0.N, _)

/-- Window 23's block at any point is main_v3 whole. -/
theorem iblk23 (c : Dev nD) (t : Fin cfg0.N) (y : S1x32.Idx) : iblk m c 23 t y = V m c main_v3 y := by
  obtain ⟨e0, e1⟩ := idx23 t
  show V m c main_v3 (((cfg0.win 23).blk t).view.emb y) = _
  refine congrArg _ (funext fun a => Fin.ext ?_)
  match a with
  | ⟨0, _⟩ => show win0_23.index t (0 : Fin 2) * 1 + 1 * (y 0).val = (y 0).val; omega
  | ⟨1, _⟩ => show win0_23.index t (1 : Fin 2) * 32 + 1 * (y 1).val = (y 1).val; omega

theorem idx24 : ∀ t : Fin cfg0.N, win0_24.index t (0 : Fin 2) = 0 ∧ win0_24.index t (1 : Fin 2) = 0 :=
  (by decide +kernel : ∀ t : Fin grid0.N, _)

/-- Window 24's block at any point is main_arg20 whole. -/
theorem iblk24 (c : Dev nD) (t : Fin cfg0.N) (y : S264x64.Idx) : iblk m c 24 t y = V m c main_arg20 y := by
  obtain ⟨e0, e1⟩ := idx24 t
  show V m c main_arg20 (((cfg0.win 24).blk t).view.emb y) = _
  refine congrArg _ (funext fun a => Fin.ext ?_)
  match a with
  | ⟨0, _⟩ => show win0_24.index t (0 : Fin 2) * 264 + 1 * (y 0).val = (y 0).val; omega
  | ⟨1, _⟩ => show win0_24.index t (1 : Fin 2) * 64 + 1 * (y 1).val = (y 1).val; omega

theorem idx25 : ∀ t : Fin cfg0.N, win0_25.index t (0 : Fin 2) = 0 ∧ win0_25.index t (1 : Fin 2) = 0 :=
  (by decide +kernel : ∀ t : Fin grid0.N, _)

/-- Window 25's block at any point is main_v4 whole. -/
theorem iblk25 (c : Dev nD) (t : Fin cfg0.N) (y : S1x64.Idx) : iblk m c 25 t y = V m c main_v4 y := by
  obtain ⟨e0, e1⟩ := idx25 t
  show V m c main_v4 (((cfg0.win 25).blk t).view.emb y) = _
  refine congrArg _ (funext fun a => Fin.ext ?_)
  match a with
  | ⟨0, _⟩ => show win0_25.index t (0 : Fin 2) * 1 + 1 * (y 0).val = (y 0).val; omega
  | ⟨1, _⟩ => show win0_25.index t (1 : Fin 2) * 64 + 1 * (y 1).val = (y 1).val; omega

theorem idx26 : ∀ t : Fin cfg0.N, win0_26.index t (0 : Fin 2) = 0 ∧ win0_26.index t (1 : Fin 2) = 0 :=
  (by decide +kernel : ∀ t : Fin grid0.N, _)

/-- Window 26's block at any point is main_arg22 whole. -/
theorem iblk26 (c : Dev nD) (t : Fin cfg0.N) (y : S64x32.Idx) : iblk m c 26 t y = V m c main_arg22 y := by
  obtain ⟨e0, e1⟩ := idx26 t
  show V m c main_arg22 (((cfg0.win 26).blk t).view.emb y) = _
  refine congrArg _ (funext fun a => Fin.ext ?_)
  match a with
  | ⟨0, _⟩ => show win0_26.index t (0 : Fin 2) * 64 + 1 * (y 0).val = (y 0).val; omega
  | ⟨1, _⟩ => show win0_26.index t (1 : Fin 2) * 32 + 1 * (y 1).val = (y 1).val; omega

theorem idx27 : ∀ t : Fin cfg0.N, win0_27.index t (0 : Fin 2) = 0 ∧ win0_27.index t (1 : Fin 2) = 0 :=
  (by decide +kernel : ∀ t : Fin grid0.N, _)

/-- Window 27's block at any point is main_v5 whole. -/
theorem iblk27 (c : Dev nD) (t : Fin cfg0.N) (y : S1x32.Idx) : iblk m c 27 t y = V m c main_v5 y := by
  obtain ⟨e0, e1⟩ := idx27 t
  show V m c main_v5 (((cfg0.win 27).blk t).view.emb y) = _
  refine congrArg _ (funext fun a => Fin.ext ?_)
  match a with
  | ⟨0, _⟩ => show win0_27.index t (0 : Fin 2) * 1 + 1 * (y 0).val = (y 0).val; omega
  | ⟨1, _⟩ => show win0_27.index t (1 : Fin 2) * 32 + 1 * (y 1).val = (y 1).val; omega

theorem idx28 : ∀ t : Fin cfg0.N, win0_28.index t (0 : Fin 2) = 0 ∧ win0_28.index t (1 : Fin 2) = 0 :=
  (by decide +kernel : ∀ t : Fin grid0.N, _)

/-- Window 28's block at any point is main_arg28 whole. -/
theorem iblk28 (c : Dev nD) (t : Fin cfg0.N) (y : S325x64.Idx) : iblk m c 28 t y = V m c main_arg28 y := by
  obtain ⟨e0, e1⟩ := idx28 t
  show V m c main_arg28 (((cfg0.win 28).blk t).view.emb y) = _
  refine congrArg _ (funext fun a => Fin.ext ?_)
  match a with
  | ⟨0, _⟩ => show win0_28.index t (0 : Fin 2) * 325 + 1 * (y 0).val = (y 0).val; omega
  | ⟨1, _⟩ => show win0_28.index t (1 : Fin 2) * 64 + 1 * (y 1).val = (y 1).val; omega

theorem idx29 : ∀ t : Fin cfg0.N, win0_29.index t (0 : Fin 2) = 0 ∧ win0_29.index t (1 : Fin 2) = 0 :=
  (by decide +kernel : ∀ t : Fin grid0.N, _)

/-- Window 29's block at any point is main_v6 whole. -/
theorem iblk29 (c : Dev nD) (t : Fin cfg0.N) (y : S1x64.Idx) : iblk m c 29 t y = V m c main_v6 y := by
  obtain ⟨e0, e1⟩ := idx29 t
  show V m c main_v6 (((cfg0.win 29).blk t).view.emb y) = _
  refine congrArg _ (funext fun a => Fin.ext ?_)
  match a with
  | ⟨0, _⟩ => show win0_29.index t (0 : Fin 2) * 1 + 1 * (y 0).val = (y 0).val; omega
  | ⟨1, _⟩ => show win0_29.index t (1 : Fin 2) * 64 + 1 * (y 1).val = (y 1).val; omega

theorem idx30 : ∀ t : Fin cfg0.N, win0_30.index t (0 : Fin 2) = 0 ∧ win0_30.index t (1 : Fin 2) = 0 :=
  (by decide +kernel : ∀ t : Fin grid0.N, _)

/-- Window 30's block at any point is main_arg30 whole. -/
theorem iblk30 (c : Dev nD) (t : Fin cfg0.N) (y : S64x32.Idx) : iblk m c 30 t y = V m c main_arg30 y := by
  obtain ⟨e0, e1⟩ := idx30 t
  show V m c main_arg30 (((cfg0.win 30).blk t).view.emb y) = _
  refine congrArg _ (funext fun a => Fin.ext ?_)
  match a with
  | ⟨0, _⟩ => show win0_30.index t (0 : Fin 2) * 64 + 1 * (y 0).val = (y 0).val; omega
  | ⟨1, _⟩ => show win0_30.index t (1 : Fin 2) * 32 + 1 * (y 1).val = (y 1).val; omega

theorem idx31 : ∀ t : Fin cfg0.N, win0_31.index t (0 : Fin 2) = 0 ∧ win0_31.index t (1 : Fin 2) = 0 :=
  (by decide +kernel : ∀ t : Fin grid0.N, _)

/-- Window 31's block at any point is main_v7 whole. -/
theorem iblk31 (c : Dev nD) (t : Fin cfg0.N) (y : S1x32.Idx) : iblk m c 31 t y = V m c main_v7 y := by
  obtain ⟨e0, e1⟩ := idx31 t
  show V m c main_v7 (((cfg0.win 31).blk t).view.emb y) = _
  refine congrArg _ (funext fun a => Fin.ext ?_)
  match a with
  | ⟨0, _⟩ => show win0_31.index t (0 : Fin 2) * 1 + 1 * (y 0).val = (y 0).val; omega
  | ⟨1, _⟩ => show win0_31.index t (1 : Fin 2) * 32 + 1 * (y 1).val = (y 1).val; omega

/-! ## Output windows: block t is rows 4t … 4t+3 -/

theorem idx32 : ∀ t : Fin cfg0.N, win0_32.index t (0 : Fin 3) = t.val ∧ win0_32.index t (1 : Fin 3) = 0 ∧ win0_32.index t (2 : Fin 3) = 0 :=
  (by decide +kernel : ∀ t : Fin grid0.N, _)

theorem idx33 : ∀ t : Fin cfg0.N, win0_33.index t (0 : Fin 3) = t.val ∧ win0_33.index t (1 : Fin 3) = 0 ∧ win0_33.index t (2 : Fin 3) = 0 :=
  (by decide +kernel : ∀ t : Fin grid0.N, _)

theorem idx34 : ∀ t : Fin cfg0.N, win0_34.index t (0 : Fin 3) = t.val ∧ win0_34.index t (1 : Fin 3) = 0 ∧ win0_34.index t (2 : Fin 3) = 0 :=
  (by decide +kernel : ∀ t : Fin grid0.N, _)

theorem idx35 : ∀ t : Fin cfg0.N, win0_35.index t (0 : Fin 3) = t.val ∧ win0_35.index t (1 : Fin 3) = 0 ∧ win0_35.index t (2 : Fin 3) = 0 :=
  (by decide +kernel : ∀ t : Fin grid0.N, _)

end Cert.KernelIdeal.Bridge

end
-- ==== Proof.GcnSpec.lean ====
/-
  The siamese two-layer graph-convolution distance, on the extended reals.

  For one sample: a feature matrix x (n×n), a normalised adjacency a (n×n), weights W1 (n×h1), W2 (h1×h2) and biases
  b1, b2. One branch is
      hidden(r, e) = max(Σ_c a(r,c) · (Σ_d x(c,d) · W1(d,e)) + b1(e), 0)
      branch(p, q) = max(Σ_c a(p,c) · (Σ_e hidden(c,e) · W2(e,q)) + b2(q), 0)
  and the distance between the two branches of a sample is
      dist = sqrt(Σ_p Σ_q (branch₁(p,q) − branch₂(p,q))² + ε).
  Only sums, products, differences, max and the square root are applied, each once and in this order, so the
  definition is meaningful at infinite entries too and no law beyond re-indexing a sum is needed to compare two
  programs that both compute it.
-/
import Idealize.ShloMosaic.PureOps.Ideal

noncomputable section

open scoped BigOperators

namespace GcnSpec

variable {n h1 h2 : ℕ}

/-- The first layer after its clamp at zero, at row `r` and hidden unit `e`. -/
def hidden (x a : Fin n → Fin n → EReal) (W1 : Fin n → Fin h1 → EReal) (b1 : Fin h1 → EReal)
    (r : Fin n) (e : Fin h1) : EReal :=
  max (∑ c : Fin n, a r c * (∑ d : Fin n, x c d * W1 d e) + b1 e) 0

/-- The second layer after its clamp at zero, at row `p` and output unit `q`. -/
def branch (x a : Fin n → Fin n → EReal) (W1 : Fin n → Fin h1 → EReal) (b1 : Fin h1 → EReal)
    (W2 : Fin h1 → Fin h2 → EReal) (b2 : Fin h2 → EReal) (p : Fin n) (q : Fin h2) : EReal :=
  max (∑ c : Fin n, a p c * (∑ e : Fin h1, hidden x a W1 b1 c e * W2 e q) + b2 q) 0

/-- The distance of the two branches' outputs: the square root of the sum of squared differences plus `ε`. -/
def dist (ε : EReal) (x1 a1 x2 a2 : Fin n → Fin n → EReal) (W1 : Fin n → Fin h1 → EReal) (b1 : Fin h1 → EReal)
    (W2 : Fin h1 → Fin h2 → EReal) (b2 : Fin h2 → EReal) : EReal :=
  Idealize.ShloMosaic.Ideal.sqrt
    ((∑ p : Fin n, ∑ q : Fin h2,
        (branch x1 a1 W1 b1 W2 b2 p q - branch x2 a2 W1 b1 W2 b2 p q)
          * (branch x1 a1 W1 b1 W2 b2 p q - branch x2 a2 W1 b1 W2 b2 p q)) + ε)

end GcnSpec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibSumIdx3.lean ====
/-
  A sum over a rank-3 index set, in any commutative monoid, is the iterated sum over its three coordinates
  (the rank-3 companion of the library's rank-2 `sum_idx2`), and with a middle axis of extent one the middle
  sum disappears.
-/
import Idealize.ShloMosaic.Lib.ValueIdx

noncomputable section

open scoped BigOperators

namespace Cert.SumIdx3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of extent one (a kept, "keepdims" axis) the sum runs over the outer and inner coordinates only. -/
theorem sum_idx3_unit {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  rw [Fin.sum_univ_one]

end Cert.SumIdx3

end
-- ==== Proof.GcnBlock.lean ====
/-
  One sample's distance as a kernel block computes it, and its value on the extended reals.

  `blockBranch` is one branch in the vector vocabulary of a block: the [1,n,n] slabs of x and a re-laid to [n,n], four
  plain matrix products into a zero accumulator (their operands narrowed to bf16, which is the identity on exact
  values), the two bias rows broadcast down the block, and the two clamps at zero. `blockDist` is the tail: the
  difference of two branches squared, summed over every entry, plus ε, square root, laid out as a [1,1,1] block.
  `blockPayload` composes them over the raw loads. At exact values its one entry is `GcnSpec.dist` of the slabs.
-/
import Idealize.ShloMosaic.PureOps.Ideal.Laws
import Idealize.ShloMosaic.Lib.ValueIdx
import Idealize.ShloMosaic.Lib.ValueLayout
import Idealize.ShloMosaic.Lib.Pipeline.Value
import proofs.«125226_g50010599194667_cont_sun_m_1001_24_alg».proof.Proof.GcnSpec
import proofs.«125226_g50010599194667_cont_sun_m_1001_24_alg».proof.Proof.LibPlainMatmul
import proofs.«125226_g50010599194667_cont_sun_m_1001_24_alg».proof.Proof.LibSumIdx3

noncomputable section

open scoped BigOperators
open Idealize.ShloMosaic Idealize.ShloMosaic.ValueIdx

namespace GcnBlock

abbrev T1 : Shape := ⟨1, ![1]⟩
abbrev T11 : Shape := ⟨2, ![1, 1]⟩
abbrev T111 : Shape := ⟨3, ![1, 1, 1]⟩

section Def
variable {F : FTy → Type} [FloatOps F]
variable (n h1 h2 : ℕ)
variable (hb : FTy.bits .bf16 < FTy.bits .f32)
variable (sc : (⟨3, ![1, n, n]⟩ : Shape).ShapeCasts ⟨2, ![n, n]⟩)
variable (d1 : DotDims ⟨2, ![n, n]⟩ ⟨2, ![n, h1]⟩ ⟨2, ![n, h1]⟩)
variable (d2 : DotDims ⟨2, ![n, h1]⟩ ⟨2, ![h1, h2]⟩ ⟨2, ![n, h2]⟩)
variable (d3 : DotDims ⟨2, ![n, n]⟩ ⟨2, ![n, h2]⟩ ⟨2, ![n, h2]⟩)
variable (bc1 : (⟨2, ![1, h1]⟩ : Shape).Broadcasts ⟨2, ![n, h1]⟩)
variable (bc2 : (⟨2, ![1, h2]⟩ : Shape).Broadcasts ⟨2, ![n, h2]⟩)

/-- One branch over a block: `max(a·bf16(max(a·bf16(x·w1) + b1, 0)·w2) + b2, 0)` as the block's vector operations. -/
def blockBranch (w1 : FVec F ⟨2, ![n, h1]⟩ .bf16) (b1 : FVec F ⟨2, ![1, h1]⟩ .f32)
    (w2 : FVec F ⟨2, ![h1, h2]⟩ .bf16) (b2 : FVec F ⟨2, ![1, h2]⟩ .f32)
    (xv av : Vec F ⟨3, ![1, n, n]⟩ .f32) : FVec F ⟨2, ![n, h2]⟩ .f32 :=
  maximumf
    (addf
      (matmul d3 none (truncf .bf16 (shapeCast ⟨2, ![n, n]⟩ av sc) hb)
        (truncf .bf16
          (matmul d2 none
            (truncf .bf16
              (maximumf
                (addf
                  (matmul d1 none (truncf .bf16 (shapeCast ⟨2, ![n, n]⟩ av sc) hb)
                    (truncf .bf16
                      (matmul d1 none (truncf .bf16 (shapeCast ⟨2, ![n, n]⟩ xv sc) hb) w1
                        (constant ⟨2, ![n, h1]⟩ .f32 0x00000000#32)) hb)
                    (constant ⟨2, ![n, h1]⟩ .f32 0x00000000#32))
                  (broadcastTo ⟨2, ![n, h1]⟩ b1 bc1))
                (broadcast ⟨2, ![n, h1]⟩ (Scalar.ofBits .f32 0x00000000#32))) hb)
            w2 (constant ⟨2, ![n, h2]⟩ .f32 0x00000000#32)) hb)
        (constant ⟨2, ![n, h2]⟩ .f32 0x00000000#32))
      (broadcastTo ⟨2, ![n, h2]⟩ b2 bc2))
    (broadcast ⟨2, ![n, h2]⟩ (Scalar.ofBits .f32 0x00000000#32))

variable (sc3 : (⟨2, ![n, h2]⟩ : Shape).ShapeCasts ⟨3, ![1, n, h2]⟩)
variable (red : (⟨3, ![1, n, h2]⟩ : Shape).Reduces [1, 2] T1)
variable (sc4 : T1.ShapeCasts T111)
variable (inpos : ∀ a, (![0, 0, 0] : Fin 3 → Nat) a < T111.size a)
variable (sc5 : T11.ShapeCasts T111)

/-- The tail over two branch outputs: `sqrt(Σ (o1 − o2)² + ε)` as a [1,1,1] block. -/
def blockDist (ε : BitVec 32) (o1 o2 : FVec F ⟨2, ![n, h2]⟩ .f32) : FVec F T111 .f32 :=
  shapeCast T111
    (sqrt
      (addf
        (broadcast T11
          (extractAt ![0, 0, 0]
            (shapeCast T111
              (multiReduction .add [1, 2] T1
                (shapeCast ⟨3, ![1, n, h2]⟩ (mulf (subf o1 o2) (subf o1 o2)) sc3)
                0x00000000#32 red (.inl rfl) rfl) sc4) inpos))
        (broadcast T11 (Scalar.ofBits .f32 ε)))) sc5

variable (scb1 : (⟨2, ![1, h1]⟩ : Shape).ShapeCasts ⟨2, ![1, h1]⟩)
variable (scb2 : (⟨2, ![1, h2]⟩ : Shape).ShapeCasts ⟨2, ![1, h2]⟩)

/-- The whole per-sample computation over the raw loads: the weights narrowed once, the bias rows re-laid onto
    themselves, two branches and the tail. -/
def blockPayload (ε : BitVec 32) (W1 : Vec F ⟨2, ![n, h1]⟩ .f32) (b1 : Vec F ⟨2, ![1, h1]⟩ .f32)
    (W2 : Vec F ⟨2, ![h1, h2]⟩ .f32) (b2 : Vec F ⟨2, ![1, h2]⟩ .f32)
    (x1 a1 x2 a2 : Vec F ⟨3, ![1, n, n]⟩ .f32) : FVec F T111 .f32 :=
  blockDist n h2 sc3 red sc4 inpos sc5 ε
    (blockBranch n h1 h2 hb sc d1 d2 d3 bc1 bc2 (truncf .bf16 W1 hb) (shapeCast ⟨2, ![1, h1]⟩ b1 scb1)
      (truncf .bf16 W2 hb) (shapeCast ⟨2, ![1, h2]⟩ b2 scb2) x1 a1)
    (blockBranch n h1 h2 hb sc d1 d2 d3 bc1 bc2 (truncf .bf16 W1 hb) (shapeCast ⟨2, ![1, h1]⟩ b1 scb1)
      (truncf .bf16 W2 hb) (shapeCast ⟨2, ![1, h2]⟩ b2 scb2) x2 a2)

end Def

/-! ## The values at exact arithmetic -/

section Value
variable {n h1 h2 : ℕ}
variable (hb : FTy.bits .bf16 < FTy.bits .f32)
variable (sc : (⟨3, ![1, n, n]⟩ : Shape).ShapeCasts ⟨2, ![n, n]⟩)
variable (bc1 : (⟨2, ![1, h1]⟩ : Shape).Broadcasts ⟨2, ![n, h1]⟩)
variable (bc2 : (⟨2, ![1, h2]⟩ : Shape).Broadcasts ⟨2, ![n, h2]⟩)

/-- A block's branch at entry (p, q) is the specification's branch of the slabs' entries. -/
theorem blockBranch_apply (w1 : FVec Ideal ⟨2, ![n, h1]⟩ .bf16) (b1 : FVec Ideal ⟨2, ![1, h1]⟩ .f32)
    (w2 : FVec Ideal ⟨2, ![h1, h2]⟩ .bf16) (b2 : FVec Ideal ⟨2, ![1, h2]⟩ .f32)
    (xv av : Vec Ideal ⟨3, ![1, n, n]⟩ .f32) (p : Fin n) (q : Fin h2) :
    blockBranch (F := Ideal) n h1 h2 hb sc (DotDims.plain n n h1) (DotDims.plain n h1 h2) (DotDims.plain n n h2) bc1 bc2
        w1 b1 w2 b2 xv av (ix2 p q)
      = GcnSpec.branch (fun i j => xv (ix3 (0 : Fin 1) i j)) (fun i j => av (ix3 (0 : Fin 1) i j))
          (fun d e => w1 (ix2 d e)) (fun e => b1 (ix2 (0 : Fin 1) e)) (fun e q => w2 (ix2 e q))
          (fun q => b2 (ix2 (0 : Fin 1) q)) p q := by
  unfold blockBranch GcnSpec.branch GcnSpec.hidden
  simp only [maximumf_apply, addf_apply, matmul_plain_zero_apply, truncf_apply, shapeCast_1ab_ab_apply,
    broadcastTo_1b_ab_apply, broadcast_apply]
  have hz : (FloatOps.ofBits (F := Ideal) .f32 0x00000000#32 : EReal) = 0 := Ideal.ofBits_zero_f32
  rw [hz]

variable (sc3 : (⟨2, ![n, h2]⟩ : Shape).ShapeCasts ⟨3, ![1, n, h2]⟩)
variable (red : (⟨3, ![1, n, h2]⟩ : Shape).Reduces [1, 2] T1)
variable (sc4 : T1.ShapeCasts T111)
variable (inpos : ∀ a, (![0, 0, 0] : Fin 3 → Nat) a < T111.size a)
variable (sc5 : T11.ShapeCasts T111)
variable (scb1 : (⟨2, ![1, h1]⟩ : Shape).ShapeCasts ⟨2, ![1, h1]⟩)
variable (scb2 : (⟨2, ![1, h2]⟩ : Shape).ShapeCasts ⟨2, ![1, h2]⟩)

/-- The tail's one entry: the total of the squared differences over the n×h2 entries, plus ε, under the root. -/
theorem blockDist_apply (ε : BitVec 32) (o1 o2 : FVec Ideal ⟨2, ![n, h2]⟩ .f32) (y : T111.Idx) :
    blockDist (F := Ideal) n h2 sc3 red sc4 inpos sc5 ε o1 o2 y
      = Ideal.sqrt ((∑ p : Fin n, ∑ q : Fin h2,
          (o1 (ix2 p q) - o2 (ix2 p q)) * (o1 (ix2 p q) - o2 (ix2 p q))) + Ideal.ofBits .f32 ε) := by
  have ht : ∀ b, T1.size b = 1 := fun b => by match b with | ⟨0, _⟩ => rfl
  show Ideal.sqrt (multiReduction .add [1, 2] T1
      (shapeCast ⟨3, ![1, n, h2]⟩ (mulf (subf o1 o2) (subf o1 o2)) sc3) 0x00000000#32 red (.inl rfl) rfl _
        + Ideal.ofBits .f32 ε) = _
  refine congrArg Ideal.sqrt (congrArg (fun z => z + Ideal.ofBits .f32 ε) ?_)
  refine (Ideal.multiReduction_add_total _ _ red ht _ _ _).trans ?_
  rw [Cert.SumIdx3.sum_idx3, Fin.sum_univ_one]
  simp only [shapeCast_ab_1ab_apply, mulf_apply, subf_apply]

/-- The per-sample block computation at its one entry is the specification's distance of the loaded slabs. -/
theorem blockPayload_apply (ε : BitVec 32) (W1 : Vec Ideal ⟨2, ![n, h1]⟩ .f32) (b1 : Vec Ideal ⟨2, ![1, h1]⟩ .f32)
    (W2 : Vec Ideal ⟨2, ![h1, h2]⟩ .f32) (b2 : Vec Ideal ⟨2, ![1, h2]⟩ .f32)
    (x1 a1 x2 a2 : Vec Ideal ⟨3, ![1, n, n]⟩ .f32) (y : T111.Idx) :
    blockPayload (F := Ideal) n h1 h2 hb sc (DotDims.plain n n h1) (DotDims.plain n h1 h2) (DotDims.plain n n h2)
        bc1 bc2 sc3 red sc4 inpos sc5 scb1 scb2 ε W1 b1 W2 b2 x1 a1 x2 a2 y
      = GcnSpec.dist (Ideal.ofBits .f32 ε)
          (fun i j => x1 (ix3 (0 : Fin 1) i j)) (fun i j => a1 (ix3 (0 : Fin 1) i j))
          (fun i j => x2 (ix3 (0 : Fin 1) i j)) (fun i j => a2 (ix3 (0 : Fin 1) i j))
          (fun d e => W1 (ix2 d e)) (fun e => b1 (ix2 (0 : Fin 1) e)) (fun e q => W2 (ix2 e q))
          (fun q => b2 (ix2 (0 : Fin 1) q)) := by
  unfold blockPayload GcnSpec.dist
  rw [blockDist_apply]
  simp only [blockBranch_apply, truncf_apply, shapeCast_self]

end Value

end GcnBlock

end
-- ==== Proof.GcnPieces.lean ====
/-
  What the body leaves in each output block, in the vocabulary of one sample's distance.

  The body handles the four samples of a grid point and the four scales one after the other; the value it stores for
  sample j of a scale is the same composition of vector operations of that sample's slabs every time. Here each
  output block's stores are rewritten as that one composition (`GcnBlock.blockPayload`), by unfolding.
-/
import proofs.«125226_g50010599194667_cont_sun_m_1001_24_alg».proof.Proof.KernelIdealFrameP
import proofs.«125226_g50010599194667_cont_sun_m_1001_24_alg».proof.Proof.GcnBlock

set_option maxRecDepth 16384

noncomputable section

namespace Cert.KernelIdeal.Bridge

open Idealize.ShloMosaic Idealize.ShloMosaic.TcCoe Idealize.SL.Sem
open Cert.KernelIdeal Cert.KernelIdeal.Gen Cert.KernelIdeal.GenP

variable {F : FTy → Type} [FloatOps F]

/-- One sample's distance over blocks of extent 116, with the printed program's own shape records. -/
def pay116 (W1 : Vec F S116x64 .f32) (b1 : Vec F S1x64 .f32) (W2 : Vec F S64x32 .f32) (b2 : Vec F S1x32 .f32)
    (x1 a1 x2 a2 : Vec F S1x116x116 .f32) : FVec F S1x1x1 .f32 :=
  GcnBlock.blockPayload 116 64 32 bitsLt_bf16_f32 shapeCasts_S1x116x116_S116x116
    dot_S116x116_S116x64_S116x64_1_0_0_1_n_n dot_S116x64_S64x32_S116x32_1_0_0_1_n_n dot_S116x116_S116x32_S116x32_1_0_0_1_n_n
    broadcasts_S1x64_S116x64 broadcasts_S1x32_S116x32 shapeCasts_S116x32_S1x116x32 reduces_S1x116x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2

/-- One sample's distance over blocks of extent 200, with the printed program's own shape records. -/
def pay200 (W1 : Vec F S200x64 .f32) (b1 : Vec F S1x64 .f32) (W2 : Vec F S64x32 .f32) (b2 : Vec F S1x32 .f32)
    (x1 a1 x2 a2 : Vec F S1x200x200 .f32) : FVec F S1x1x1 .f32 :=
  GcnBlock.blockPayload 200 64 32 bitsLt_bf16_f32 shapeCasts_S1x200x200_S200x200
    dot_S200x200_S200x64_S200x64_1_0_0_1_n_n dot_S200x64_S64x32_S200x32_1_0_0_1_n_n dot_S200x200_S200x32_S200x32_1_0_0_1_n_n
    broadcasts_S1x64_S200x64 broadcasts_S1x32_S200x32 shapeCasts_S200x32_S1x200x32 reduces_S1x200x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2

/-- One sample's distance over blocks of extent 264, with the printed program's own shape records. -/
def pay264 (W1 : Vec F S264x64 .f32) (b1 : Vec F S1x64 .f32) (W2 : Vec F S64x32 .f32) (b2 : Vec F S1x32 .f32)
    (x1 a1 x2 a2 : Vec F S1x264x264 .f32) : FVec F S1x1x1 .f32 :=
  GcnBlock.blockPayload 264 64 32 bitsLt_bf16_f32 shapeCasts_S1x264x264_S264x264
    dot_S264x264_S264x64_S264x64_1_0_0_1_n_n dot_S264x64_S64x32_S264x32_1_0_0_1_n_n dot_S264x264_S264x32_S264x32_1_0_0_1_n_n
    broadcasts_S1x64_S264x64 broadcasts_S1x32_S264x32 shapeCasts_S264x32_S1x264x32 reduces_S1x264x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2

/-- One sample's distance over blocks of extent 325, with the printed program's own shape records. -/
def pay325 (W1 : Vec F S325x64 .f32) (b1 : Vec F S1x64 .f32) (W2 : Vec F S64x32 .f32) (b2 : Vec F S1x32 .f32)
    (x1 a1 x2 a2 : Vec F S1x325x325 .f32) : FVec F S1x1x1 .f32 :=
  GcnBlock.blockPayload 325 64 32 bitsLt_bf16_f32 shapeCasts_S1x325x325_S325x325
    dot_S325x325_S325x64_S325x64_1_0_0_1_n_n dot_S325x64_S64x32_S325x32_1_0_0_1_n_n dot_S325x325_S325x32_S325x32_1_0_0_1_n_n
    broadcasts_S1x64_S325x64 broadcasts_S1x32_S325x32 shapeCasts_S325x32_S1x325x32 reduces_S1x325x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2

/-- Output window 32's staging buffer after the body: its four [1,1,1] pieces are the four samples' distances, each of
    the sample's own slabs of the four data blocks and of the shared weights. -/
theorem out0_32_eq (x0 : Vec F S4x116x116 .f32) (x1 : Vec F S4x116x116 .f32) (x2 : Vec F S4x116x116 .f32) (x3 : Vec F S4x116x116 .f32) (x4 : Vec F S4x200x200 .f32) (x5 : Vec F S4x200x200 .f32) (x6 : Vec F S4x200x200 .f32) (x7 : Vec F S4x200x200 .f32) (x8 : Vec F S4x264x264 .f32) (x9 : Vec F S4x264x264 .f32) (x10 : Vec F S4x264x264 .f32) (x11 : Vec F S4x264x264 .f32) (x12 : Vec F S4x325x325 .f32) (x13 : Vec F S4x325x325 .f32) (x14 : Vec F S4x325x325 .f32) (x15 : Vec F S4x325x325 .f32) (x16 : Vec F S116x64 .f32) (x17 : Vec F S1x64 .f32) (x18 : Vec F S64x32 .f32) (x19 : Vec F S1x32 .f32) (x20 : Vec F S200x64 .f32) (x21 : Vec F S1x64 .f32) (x22 : Vec F S64x32 .f32) (x23 : Vec F S1x32 .f32) (x24 : Vec F S264x64 .f32) (x25 : Vec F S1x64 .f32) (x26 : Vec F S64x32 .f32) (x27 : Vec F S1x32 .f32) (x28 : Vec F S325x64 .f32) (x29 : Vec F S1x64 .f32) (x30 : Vec F S64x32 .f32) (x31 : Vec F S1x32 .f32) :
    out0_32 x0 x1 x2 x3 x4 x5 x6 x7 x8 x9 x10 x11 x12 x13 x14 x15 x16 x17 x18 x19 x20 x21 x22 x23 x24 x25 x26 x27 x28 x29 x30 x31
      = View.canon [⟨r0_11, pay116 (View.ld x16 r0_0) (View.ld x17 r0_1) (View.ld x18 r0_2) (View.ld x19 r0_3) (View.ld x0 r0_10) (View.ld x1 r0_10) (View.ld x2 r0_10) (View.ld x3 r0_10)⟩,
          ⟨r0_9, pay116 (View.ld x16 r0_0) (View.ld x17 r0_1) (View.ld x18 r0_2) (View.ld x19 r0_3) (View.ld x0 r0_8) (View.ld x1 r0_8) (View.ld x2 r0_8) (View.ld x3 r0_8)⟩,
          ⟨r0_7, pay116 (View.ld x16 r0_0) (View.ld x17 r0_1) (View.ld x18 r0_2) (View.ld x19 r0_3) (View.ld x0 r0_6) (View.ld x1 r0_6) (View.ld x2 r0_6) (View.ld x3 r0_6)⟩,
          ⟨r0_5, pay116 (View.ld x16 r0_0) (View.ld x17 r0_1) (View.ld x18 r0_2) (View.ld x19 r0_3) (View.ld x0 r0_4) (View.ld x1 r0_4) (View.ld x2 r0_4) (View.ld x3 r0_4)⟩] := rfl

/-- Output window 33's staging buffer after the body: its four [1,1,1] pieces are the four samples' distances, each of
    the sample's own slabs of the four data blocks and of the shared weights. -/
theorem out0_33_eq (x0 : Vec F S4x116x116 .f32) (x1 : Vec F S4x116x116 .f32) (x2 : Vec F S4x116x116 .f32) (x3 : Vec F S4x116x116 .f32) (x4 : Vec F S4x200x200 .f32) (x5 : Vec F S4x200x200 .f32) (x6 : Vec F S4x200x200 .f32) (x7 : Vec F S4x200x200 .f32) (x8 : Vec F S4x264x264 .f32) (x9 : Vec F S4x264x264 .f32) (x10 : Vec F S4x264x264 .f32) (x11 : Vec F S4x264x264 .f32) (x12 : Vec F S4x325x325 .f32) (x13 : Vec F S4x325x325 .f32) (x14 : Vec F S4x325x325 .f32) (x15 : Vec F S4x325x325 .f32) (x16 : Vec F S116x64 .f32) (x17 : Vec F S1x64 .f32) (x18 : Vec F S64x32 .f32) (x19 : Vec F S1x32 .f32) (x20 : Vec F S200x64 .f32) (x21 : Vec F S1x64 .f32) (x22 : Vec F S64x32 .f32) (x23 : Vec F S1x32 .f32) (x24 : Vec F S264x64 .f32) (x25 : Vec F S1x64 .f32) (x26 : Vec F S64x32 .f32) (x27 : Vec F S1x32 .f32) (x28 : Vec F S325x64 .f32) (x29 : Vec F S1x64 .f32) (x30 : Vec F S64x32 .f32) (x31 : Vec F S1x32 .f32) :
    out0_33 x0 x1 x2 x3 x4 x5 x6 x7 x8 x9 x10 x11 x12 x13 x14 x15 x16 x17 x18 x19 x20 x21 x22 x23 x24 x25 x26 x27 x28 x29 x30 x31
      = View.canon [⟨r0_11, pay200 (View.ld x20 r0_12) (View.ld x21 r0_1) (View.ld x22 r0_2) (View.ld x23 r0_3) (View.ld x4 r0_16) (View.ld x5 r0_16) (View.ld x6 r0_16) (View.ld x7 r0_16)⟩,
          ⟨r0_9, pay200 (View.ld x20 r0_12) (View.ld x21 r0_1) (View.ld x22 r0_2) (View.ld x23 r0_3) (View.ld x4 r0_15) (View.ld x5 r0_15) (View.ld x6 r0_15) (View.ld x7 r0_15)⟩,
          ⟨r0_7, pay200 (View.ld x20 r0_12) (View.ld x21 r0_1) (View.ld x22 r0_2) (View.ld x23 r0_3) (View.ld x4 r0_14) (View.ld x5 r0_14) (View.ld x6 r0_14) (View.ld x7 r0_14)⟩,
          ⟨r0_5, pay200 (View.ld x20 r0_12) (View.ld x21 r0_1) (View.ld x22 r0_2) (View.ld x23 r0_3) (View.ld x4 r0_13) (View.ld x5 r0_13) (View.ld x6 r0_13) (View.ld x7 r0_13)⟩] := rfl

/-- Output window 34's staging buffer after the body: its four [1,1,1] pieces are the four samples' distances, each of
    the sample's own slabs of the four data blocks and of the shared weights. -/
theorem out0_34_eq (x0 : Vec F S4x116x116 .f32) (x1 : Vec F S4x116x116 .f32) (x2 : Vec F S4x116x116 .f32) (x3 : Vec F S4x116x116 .f32) (x4 : Vec F S4x200x200 .f32) (x5 : Vec F S4x200x200 .f32) (x6 : Vec F S4x200x200 .f32) (x7 : Vec F S4x200x200 .f32) (x8 : Vec F S4x264x264 .f32) (x9 : Vec F S4x264x264 .f32) (x10 : Vec F S4x264x264 .f32) (x11 : Vec F S4x264x264 .f32) (x12 : Vec F S4x325x325 .f32) (x13 : Vec F S4x325x325 .f32) (x14 : Vec F S4x325x325 .f32) (x15 : Vec F S4x325x325 .f32) (x16 : Vec F S116x64 .f32) (x17 : Vec F S1x64 .f32) (x18 : Vec F S64x32 .f32) (x19 : Vec F S1x32 .f32) (x20 : Vec F S200x64 .f32) (x21 : Vec F S1x64 .f32) (x22 : Vec F S64x32 .f32) (x23 : Vec F S1x32 .f32) (x24 : Vec F S264x64 .f32) (x25 : Vec F S1x64 .f32) (x26 : Vec F S64x32 .f32) (x27 : Vec F S1x32 .f32) (x28 : Vec F S325x64 .f32) (x29 : Vec F S1x64 .f32) (x30 : Vec F S64x32 .f32) (x31 : Vec F S1x32 .f32) :
    out0_34 x0 x1 x2 x3 x4 x5 x6 x7 x8 x9 x10 x11 x12 x13 x14 x15 x16 x17 x18 x19 x20 x21 x22 x23 x24 x25 x26 x27 x28 x29 x30 x31
      = View.canon [⟨r0_11, pay264 (View.ld x24 r0_17) (View.ld x25 r0_1) (View.ld x26 r0_2) (View.ld x27 r0_3) (View.ld x8 r0_21) (View.ld x9 r0_21) (View.ld x10 r0_21) (View.ld x11 r0_21)⟩,
          ⟨r0_9, pay264 (View.ld x24 r0_17) (View.ld x25 r0_1) (View.ld x26 r0_2) (View.ld x27 r0_3) (View.ld x8 r0_20) (View.ld x9 r0_20) (View.ld x10 r0_20) (View.ld x11 r0_20)⟩,
          ⟨r0_7, pay264 (View.ld x24 r0_17) (View.ld x25 r0_1) (View.ld x26 r0_2) (View.ld x27 r0_3) (View.ld x8 r0_19) (View.ld x9 r0_19) (View.ld x10 r0_19) (View.ld x11 r0_19)⟩,
          ⟨r0_5, pay264 (View.ld x24 r0_17) (View.ld x25 r0_1) (View.ld x26 r0_2) (View.ld x27 r0_3) (View.ld x8 r0_18) (View.ld x9 r0_18) (View.ld x10 r0_18) (View.ld x11 r0_18)⟩] := rfl

/-- Output window 35's staging buffer after the body: its four [1,1,1] pieces are the four samples' distances, each of
    the sample's own slabs of the four data blocks and of the shared weights. -/
theorem out0_35_eq (x0 : Vec F S4x116x116 .f32) (x1 : Vec F S4x116x116 .f32) (x2 : Vec F S4x116x116 .f32) (x3 : Vec F S4x116x116 .f32) (x4 : Vec F S4x200x200 .f32) (x5 : Vec F S4x200x200 .f32) (x6 : Vec F S4x200x200 .f32) (x7 : Vec F S4x200x200 .f32) (x8 : Vec F S4x264x264 .f32) (x9 : Vec F S4x264x264 .f32) (x10 : Vec F S4x264x264 .f32) (x11 : Vec F S4x264x264 .f32) (x12 : Vec F S4x325x325 .f32) (x13 : Vec F S4x325x325 .f32) (x14 : Vec F S4x325x325 .f32) (x15 : Vec F S4x325x325 .f32) (x16 : Vec F S116x64 .f32) (x17 : Vec F S1x64 .f32) (x18 : Vec F S64x32 .f32) (x19 : Vec F S1x32 .f32) (x20 : Vec F S200x64 .f32) (x21 : Vec F S1x64 .f32) (x22 : Vec F S64x32 .f32) (x23 : Vec F S1x32 .f32) (x24 : Vec F S264x64 .f32) (x25 : Vec F S1x64 .f32) (x26 : Vec F S64x32 .f32) (x27 : Vec F S1x32 .f32) (x28 : Vec F S325x64 .f32) (x29 : Vec F S1x64 .f32) (x30 : Vec F S64x32 .f32) (x31 : Vec F S1x32 .f32) :
    out0_35 x0 x1 x2 x3 x4 x5 x6 x7 x8 x9 x10 x11 x12 x13 x14 x15 x16 x17 x18 x19 x20 x21 x22 x23 x24 x25 x26 x27 x28 x29 x30 x31
      = View.canon [⟨r0_11, pay325 (View.ld x28 r0_22) (View.ld x29 r0_1) (View.ld x30 r0_2) (View.ld x31 r0_3) (View.ld x12 r0_26) (View.ld x13 r0_26) (View.ld x14 r0_26) (View.ld x15 r0_26)⟩,
          ⟨r0_9, pay325 (View.ld x28 r0_22) (View.ld x29 r0_1) (View.ld x30 r0_2) (View.ld x31 r0_3) (View.ld x12 r0_25) (View.ld x13 r0_25) (View.ld x14 r0_25) (View.ld x15 r0_25)⟩,
          ⟨r0_7, pay325 (View.ld x28 r0_22) (View.ld x29 r0_1) (View.ld x30 r0_2) (View.ld x31 r0_3) (View.ld x12 r0_24) (View.ld x13 r0_24) (View.ld x14 r0_24) (View.ld x15 r0_24)⟩,
          ⟨r0_5, pay325 (View.ld x28 r0_22) (View.ld x29 r0_1) (View.ld x30 r0_2) (View.ld x31 r0_3) (View.ld x12 r0_23) (View.ld x13 r0_23) (View.ld x14 r0_23) (View.ld x15 r0_23)⟩] := rfl

end Cert.KernelIdeal.Bridge

end
-- ==== Proof.KernelOut.lean ====
/-
  What one grid point leaves in each output block, at exact values.

  An output block has four [1,1,1] pieces, one per sample of the grid point. Piece j is the per-sample computation of
  slab j of the four data blocks and of the whole weight and bias blocks, so at exact values it is the specification's
  distance of those slabs: the block at (j, 0, 0) is `GcnSpec.dist` of the data blocks' sample j.
-/
import proofs.«125226_g50010599194667_cont_sun_m_1001_24_alg».proof.Proof.GcnPieces

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.GenP

theorem zeros2 : (![0, 0] : Fin 2 → Nat) = fun _ => 0 := funext fun a => by fin_cases a <;> rfl

/-- The slab of sample j of a block of four, loaded through the unit rectangle at offset (j, 0, 0), reads at (0, p, q)
    the block at (j, p, q). -/
theorem ld_slab {N : ℕ} (X : Vec Ideal ⟨3, ![4, N, N]⟩ .f32) (j : Fin 4) (o : ℕ) (ho : j.val = o)
    (inb : ∀ a, (![o, 0, 0] : Fin 3 → ℕ) a + (⟨3, ![1, N, N]⟩ : Shape).size a ≤ (⟨3, ![4, N, N]⟩ : Shape).size a)
    (p q : Fin N) :
    View.ld (Val := Elt Ideal) (e' := .f32) X (Rect.unit (s := ⟨3, ![4, N, N]⟩) ![o, 0, 0] (⟨3, ![1, N, N]⟩ : Shape).size inb)
        (ix3 (0 : Fin 1) p q)
      = X (ix3 j p q) := by
  show X _ = X _
  refine congrArg X (funext fun a => Fin.ext ?_)
  match a with
  | ⟨0, _⟩ => show o + 1 * 0 = j.val; omega
  | ⟨1, _⟩ => show 0 + 1 * p.val = p.val; omega
  | ⟨2, _⟩ => show 0 + 1 * q.val = q.val; omega

/-- The [1,1,1] output piece of sample j sits at row j of the [4,1,1] block. -/
theorem out_row (j : Fin 4) (o : ℕ) (ho : j.val = o)
    (inb : ∀ a, (![o, 0, 0] : Fin 3 → ℕ) a + S1x1x1.size a ≤ S4x1x1.size a) (x : S1x1x1.Idx) :
    (Rect.unit (s := S4x1x1) ![o, 0, 0] S1x1x1.size inb).emb x 0 = j := by
  refine Fin.ext ?_
  show o + 1 * (x 0).val = j.val
  have h : (x 0).val < 1 := (x 0).isLt
  omega

/-! ## Extent 116 -/

/-- The per-sample computation over blocks of extent 116, at its one entry, is the distance of the loaded slabs. -/
theorem pay116_apply (W1 : Vec Ideal S116x64 .f32) (b1 : Vec Ideal S1x64 .f32) (W2 : Vec Ideal S64x32 .f32)
    (b2 : Vec Ideal S1x32 .f32) (x1 a1 x2 a2 : Vec Ideal S1x116x116 .f32) (y : S1x1x1.Idx) :
    pay116 (F := Ideal) W1 b1 W2 b2 x1 a1 x2 a2 y
      = GcnSpec.dist (Ideal.ofBits .f32 0x2B8CBCCC#32)
          (fun i j => x1 (ix3 (0 : Fin 1) i j)) (fun i j => a1 (ix3 (0 : Fin 1) i j))
          (fun i j => x2 (ix3 (0 : Fin 1) i j)) (fun i j => a2 (ix3 (0 : Fin 1) i j))
          (fun d e => W1 (ix2 d e)) (fun e => b1 (ix2 (0 : Fin 1) e)) (fun e q => W2 (ix2 e q))
          (fun q => b2 (ix2 (0 : Fin 1) q)) :=
  GcnBlock.blockPayload_apply (n := 116) (h1 := 64) (h2 := 32) bitsLt_bf16_f32 shapeCasts_S1x116x116_S116x116
    broadcasts_S1x64_S116x64 broadcasts_S1x32_S116x32 shapeCasts_S116x32_S1x116x32 reduces_S1x116x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2 y

/-- The piece of sample j: the distance of slab j of the four data blocks. -/
theorem sample116 (x0 x1 x2 x3 : Vec Ideal S4x116x116 .f32) (W1 : Vec Ideal S116x64 .f32) (b1 : Vec Ideal S1x64 .f32)
    (W2 : Vec Ideal S64x32 .f32) (b2 : Vec Ideal S1x32 .f32) (j : Fin 4) (o : ℕ) (ho : j.val = o)
    (inbX : ∀ a, (![o, 0, 0] : Fin 3 → ℕ) a + S1x116x116.size a ≤ S4x116x116.size a)
    (inbO : ∀ a, (![o, 0, 0] : Fin 3 → ℕ) a + S1x1x1.size a ≤ S4x1x1.size a) (x : S1x1x1.Idx) :
    pay116 (F := Ideal) (View.ld W1 r0_0) (View.ld b1 r0_1) (View.ld W2 r0_2) (View.ld b2 r0_3)
        (View.ld x0 (Rect.unit (s := S4x116x116) ![o, 0, 0] S1x116x116.size inbX))
        (View.ld x1 (Rect.unit (s := S4x116x116) ![o, 0, 0] S1x116x116.size inbX))
        (View.ld x2 (Rect.unit (s := S4x116x116) ![o, 0, 0] S1x116x116.size inbX))
        (View.ld x3 (Rect.unit (s := S4x116x116) ![o, 0, 0] S1x116x116.size inbX)) x
      = GcnSpec.dist (Ideal.ofBits .f32 0x2B8CBCCC#32)
          (fun p q => x0 (ix3 ((Rect.unit (s := S4x1x1) ![o, 0, 0] S1x1x1.size inbO).emb x 0) p q))
          (fun p q => x1 (ix3 ((Rect.unit (s := S4x1x1) ![o, 0, 0] S1x1x1.size inbO).emb x 0) p q))
          (fun p q => x2 (ix3 ((Rect.unit (s := S4x1x1) ![o, 0, 0] S1x1x1.size inbO).emb x 0) p q))
          (fun p q => x3 (ix3 ((Rect.unit (s := S4x1x1) ![o, 0, 0] S1x1x1.size inbO).emb x 0) p q))
          (fun d e => W1 (ix2 d e)) (fun e => b1 (ix2 (0 : Fin 1) e)) (fun e q => W2 (ix2 e q))
          (fun q => b2 (ix2 (0 : Fin 1) q)) := by
  rw [out_row j o ho inbO x, pay116_apply]
  have hx : ∀ X : Vec Ideal S4x116x116 .f32,
      (fun i j' => View.ld X (Rect.unit (s := S4x116x116) ![o, 0, 0] S1x116x116.size inbX) (ix3 (0 : Fin 1) i j'))
        = fun p q => X (ix3 j p q) :=
    fun X => funext fun p => funext fun q => ld_slab (N := 116) X j o ho inbX p q
  rw [hx x0, hx x1, hx x2, hx x3, View.ld_unit_zero (S := S116x64) zeros2, View.ld_unit_zero (S := S1x64) zeros2,
    View.ld_unit_zero (S := S64x32) zeros2, View.ld_unit_zero (S := S1x32) zeros2]

/-- Output window 32's block after the body at (j, 0, 0): the distance of sample j of the grid point's data blocks. -/
theorem out32_apply (x0 : Vec Ideal S4x116x116 .f32) (x1 : Vec Ideal S4x116x116 .f32) (x2 : Vec Ideal S4x116x116 .f32) (x3 : Vec Ideal S4x116x116 .f32) (x4 : Vec Ideal S4x200x200 .f32) (x5 : Vec Ideal S4x200x200 .f32) (x6 : Vec Ideal S4x200x200 .f32) (x7 : Vec Ideal S4x200x200 .f32) (x8 : Vec Ideal S4x264x264 .f32) (x9 : Vec Ideal S4x264x264 .f32) (x10 : Vec Ideal S4x264x264 .f32) (x11 : Vec Ideal S4x264x264 .f32) (x12 : Vec Ideal S4x325x325 .f32) (x13 : Vec Ideal S4x325x325 .f32) (x14 : Vec Ideal S4x325x325 .f32) (x15 : Vec Ideal S4x325x325 .f32) (x16 : Vec Ideal S116x64 .f32) (x17 : Vec Ideal S1x64 .f32) (x18 : Vec Ideal S64x32 .f32) (x19 : Vec Ideal S1x32 .f32) (x20 : Vec Ideal S200x64 .f32) (x21 : Vec Ideal S1x64 .f32) (x22 : Vec Ideal S64x32 .f32) (x23 : Vec Ideal S1x32 .f32) (x24 : Vec Ideal S264x64 .f32) (x25 : Vec Ideal S1x64 .f32) (x26 : Vec Ideal S64x32 .f32) (x27 : Vec Ideal S1x32 .f32) (x28 : Vec Ideal S325x64 .f32) (x29 : Vec Ideal S1x64 .f32) (x30 : Vec Ideal S64x32 .f32) (x31 : Vec Ideal S1x32 .f32) (y : S4x1x1.Idx) :
    out0_32 (F := Ideal) x0 x1 x2 x3 x4 x5 x6 x7 x8 x9 x10 x11 x12 x13 x14 x15 x16 x17 x18 x19 x20 x21 x22 x23 x24 x25 x26 x27 x28 x29 x30 x31 y
      = GcnSpec.dist (Ideal.ofBits .f32 0x2B8CBCCC#32)
          (fun p q => x0 (ix3 (y 0) p q)) (fun p q => x1 (ix3 (y 0) p q))
          (fun p q => x2 (ix3 (y 0) p q)) (fun p q => x3 (ix3 (y 0) p q))
          (fun d e => x16 (ix2 d e)) (fun e => x17 (ix2 (0 : Fin 1) e)) (fun e q => x18 (ix2 e q))
          (fun q => x19 (ix2 (0 : Fin 1) q)) := by
  rw [out0_32_eq]
  refine View.canon_apply_of_pieces (Val := Elt Ideal) (e := .f32)
    (fun y : S4x1x1.Idx => (GcnSpec.dist (Ideal.ofBits .f32 0x2B8CBCCC#32)
          (fun p q => x0 (ix3 (y 0) p q)) (fun p q => x1 (ix3 (y 0) p q))
          (fun p q => x2 (ix3 (y 0) p q)) (fun p q => x3 (ix3 (y 0) p q))
          (fun d e => x16 (ix2 d e)) (fun e => x17 (ix2 (0 : Fin 1) e)) (fun e q => x18 (ix2 e q))
          (fun q => x19 (ix2 (0 : Fin 1) q)) : Elt Ideal .f32)) _ ?_ y (cover0_32 _ _ _ _ y)
  intro pc hpc x
  rcases List.mem_cons.mp hpc with rfl | hpc
  · exact sample116 x0 x1 x2 x3 x16 x17 x18 x19 (3 : Fin 4) 3 rfl
      inb_S4x116x116_S1x116x116_3_0_0 inb_S4x1x1_S1x1x1_3_0_0 x
  rcases List.mem_cons.mp hpc with rfl | hpc
  · exact sample116 x0 x1 x2 x3 x16 x17 x18 x19 (2 : Fin 4) 2 rfl
      inb_S4x116x116_S1x116x116_2_0_0 inb_S4x1x1_S1x1x1_2_0_0 x
  rcases List.mem_cons.mp hpc with rfl | hpc
  · exact sample116 x0 x1 x2 x3 x16 x17 x18 x19 (1 : Fin 4) 1 rfl
      inb_S4x116x116_S1x116x116_1_0_0 inb_S4x1x1_S1x1x1_1_0_0 x
  rcases List.mem_cons.mp hpc with rfl | hpc
  · exact sample116 x0 x1 x2 x3 x16 x17 x18 x19 (0 : Fin 4) 0 rfl
      inb_S4x116x116_S1x116x116_0_0_0 inb_S4x1x1_S1x1x1_0_0_0 x
  exact absurd hpc List.not_mem_nil

/-! ## Extent 200 -/

/-- The per-sample computation over blocks of extent 200, at its one entry, is the distance of the loaded slabs. -/
theorem pay200_apply (W1 : Vec Ideal S200x64 .f32) (b1 : Vec Ideal S1x64 .f32) (W2 : Vec Ideal S64x32 .f32)
    (b2 : Vec Ideal S1x32 .f32) (x1 a1 x2 a2 : Vec Ideal S1x200x200 .f32) (y : S1x1x1.Idx) :
    pay200 (F := Ideal) W1 b1 W2 b2 x1 a1 x2 a2 y
      = GcnSpec.dist (Ideal.ofBits .f32 0x2B8CBCCC#32)
          (fun i j => x1 (ix3 (0 : Fin 1) i j)) (fun i j => a1 (ix3 (0 : Fin 1) i j))
          (fun i j => x2 (ix3 (0 : Fin 1) i j)) (fun i j => a2 (ix3 (0 : Fin 1) i j))
          (fun d e => W1 (ix2 d e)) (fun e => b1 (ix2 (0 : Fin 1) e)) (fun e q => W2 (ix2 e q))
          (fun q => b2 (ix2 (0 : Fin 1) q)) :=
  GcnBlock.blockPayload_apply (n := 200) (h1 := 64) (h2 := 32) bitsLt_bf16_f32 shapeCasts_S1x200x200_S200x200
    broadcasts_S1x64_S200x64 broadcasts_S1x32_S200x32 shapeCasts_S200x32_S1x200x32 reduces_S1x200x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2 y

/-- The piece of sample j: the distance of slab j of the four data blocks. -/
theorem sample200 (x0 x1 x2 x3 : Vec Ideal S4x200x200 .f32) (W1 : Vec Ideal S200x64 .f32) (b1 : Vec Ideal S1x64 .f32)
    (W2 : Vec Ideal S64x32 .f32) (b2 : Vec Ideal S1x32 .f32) (j : Fin 4) (o : ℕ) (ho : j.val = o)
    (inbX : ∀ a, (![o, 0, 0] : Fin 3 → ℕ) a + S1x200x200.size a ≤ S4x200x200.size a)
    (inbO : ∀ a, (![o, 0, 0] : Fin 3 → ℕ) a + S1x1x1.size a ≤ S4x1x1.size a) (x : S1x1x1.Idx) :
    pay200 (F := Ideal) (View.ld W1 r0_12) (View.ld b1 r0_1) (View.ld W2 r0_2) (View.ld b2 r0_3)
        (View.ld x0 (Rect.unit (s := S4x200x200) ![o, 0, 0] S1x200x200.size inbX))
        (View.ld x1 (Rect.unit (s := S4x200x200) ![o, 0, 0] S1x200x200.size inbX))
        (View.ld x2 (Rect.unit (s := S4x200x200) ![o, 0, 0] S1x200x200.size inbX))
        (View.ld x3 (Rect.unit (s := S4x200x200) ![o, 0, 0] S1x200x200.size inbX)) x
      = GcnSpec.dist (Ideal.ofBits .f32 0x2B8CBCCC#32)
          (fun p q => x0 (ix3 ((Rect.unit (s := S4x1x1) ![o, 0, 0] S1x1x1.size inbO).emb x 0) p q))
          (fun p q => x1 (ix3 ((Rect.unit (s := S4x1x1) ![o, 0, 0] S1x1x1.size inbO).emb x 0) p q))
          (fun p q => x2 (ix3 ((Rect.unit (s := S4x1x1) ![o, 0, 0] S1x1x1.size inbO).emb x 0) p q))
          (fun p q => x3 (ix3 ((Rect.unit (s := S4x1x1) ![o, 0, 0] S1x1x1.size inbO).emb x 0) p q))
          (fun d e => W1 (ix2 d e)) (fun e => b1 (ix2 (0 : Fin 1) e)) (fun e q => W2 (ix2 e q))
          (fun q => b2 (ix2 (0 : Fin 1) q)) := by
  rw [out_row j o ho inbO x, pay200_apply]
  have hx : ∀ X : Vec Ideal S4x200x200 .f32,
      (fun i j' => View.ld X (Rect.unit (s := S4x200x200) ![o, 0, 0] S1x200x200.size inbX) (ix3 (0 : Fin 1) i j'))
        = fun p q => X (ix3 j p q) :=
    fun X => funext fun p => funext fun q => ld_slab (N := 200) X j o ho inbX p q
  rw [hx x0, hx x1, hx x2, hx x3, View.ld_unit_zero (S := S200x64) zeros2, View.ld_unit_zero (S := S1x64) zeros2,
    View.ld_unit_zero (S := S64x32) zeros2, View.ld_unit_zero (S := S1x32) zeros2]

/-- Output window 33's block after the body at (j, 0, 0): the distance of sample j of the grid point's data blocks. -/
theorem out33_apply (x0 : Vec Ideal S4x116x116 .f32) (x1 : Vec Ideal S4x116x116 .f32) (x2 : Vec Ideal S4x116x116 .f32) (x3 : Vec Ideal S4x116x116 .f32) (x4 : Vec Ideal S4x200x200 .f32) (x5 : Vec Ideal S4x200x200 .f32) (x6 : Vec Ideal S4x200x200 .f32) (x7 : Vec Ideal S4x200x200 .f32) (x8 : Vec Ideal S4x264x264 .f32) (x9 : Vec Ideal S4x264x264 .f32) (x10 : Vec Ideal S4x264x264 .f32) (x11 : Vec Ideal S4x264x264 .f32) (x12 : Vec Ideal S4x325x325 .f32) (x13 : Vec Ideal S4x325x325 .f32) (x14 : Vec Ideal S4x325x325 .f32) (x15 : Vec Ideal S4x325x325 .f32) (x16 : Vec Ideal S116x64 .f32) (x17 : Vec Ideal S1x64 .f32) (x18 : Vec Ideal S64x32 .f32) (x19 : Vec Ideal S1x32 .f32) (x20 : Vec Ideal S200x64 .f32) (x21 : Vec Ideal S1x64 .f32) (x22 : Vec Ideal S64x32 .f32) (x23 : Vec Ideal S1x32 .f32) (x24 : Vec Ideal S264x64 .f32) (x25 : Vec Ideal S1x64 .f32) (x26 : Vec Ideal S64x32 .f32) (x27 : Vec Ideal S1x32 .f32) (x28 : Vec Ideal S325x64 .f32) (x29 : Vec Ideal S1x64 .f32) (x30 : Vec Ideal S64x32 .f32) (x31 : Vec Ideal S1x32 .f32) (y : S4x1x1.Idx) :
    out0_33 (F := Ideal) x0 x1 x2 x3 x4 x5 x6 x7 x8 x9 x10 x11 x12 x13 x14 x15 x16 x17 x18 x19 x20 x21 x22 x23 x24 x25 x26 x27 x28 x29 x30 x31 y
      = GcnSpec.dist (Ideal.ofBits .f32 0x2B8CBCCC#32)
          (fun p q => x4 (ix3 (y 0) p q)) (fun p q => x5 (ix3 (y 0) p q))
          (fun p q => x6 (ix3 (y 0) p q)) (fun p q => x7 (ix3 (y 0) p q))
          (fun d e => x20 (ix2 d e)) (fun e => x21 (ix2 (0 : Fin 1) e)) (fun e q => x22 (ix2 e q))
          (fun q => x23 (ix2 (0 : Fin 1) q)) := by
  rw [out0_33_eq]
  refine View.canon_apply_of_pieces (Val := Elt Ideal) (e := .f32)
    (fun y : S4x1x1.Idx => (GcnSpec.dist (Ideal.ofBits .f32 0x2B8CBCCC#32)
          (fun p q => x4 (ix3 (y 0) p q)) (fun p q => x5 (ix3 (y 0) p q))
          (fun p q => x6 (ix3 (y 0) p q)) (fun p q => x7 (ix3 (y 0) p q))
          (fun d e => x20 (ix2 d e)) (fun e => x21 (ix2 (0 : Fin 1) e)) (fun e q => x22 (ix2 e q))
          (fun q => x23 (ix2 (0 : Fin 1) q)) : Elt Ideal .f32)) _ ?_ y (cover0_33 _ _ _ _ y)
  intro pc hpc x
  rcases List.mem_cons.mp hpc with rfl | hpc
  · exact sample200 x4 x5 x6 x7 x20 x21 x22 x23 (3 : Fin 4) 3 rfl
      inb_S4x200x200_S1x200x200_3_0_0 inb_S4x1x1_S1x1x1_3_0_0 x
  rcases List.mem_cons.mp hpc with rfl | hpc
  · exact sample200 x4 x5 x6 x7 x20 x21 x22 x23 (2 : Fin 4) 2 rfl
      inb_S4x200x200_S1x200x200_2_0_0 inb_S4x1x1_S1x1x1_2_0_0 x
  rcases List.mem_cons.mp hpc with rfl | hpc
  · exact sample200 x4 x5 x6 x7 x20 x21 x22 x23 (1 : Fin 4) 1 rfl
      inb_S4x200x200_S1x200x200_1_0_0 inb_S4x1x1_S1x1x1_1_0_0 x
  rcases List.mem_cons.mp hpc with rfl | hpc
  · exact sample200 x4 x5 x6 x7 x20 x21 x22 x23 (0 : Fin 4) 0 rfl
      inb_S4x200x200_S1x200x200_0_0_0 inb_S4x1x1_S1x1x1_0_0_0 x
  exact absurd hpc List.not_mem_nil

/-! ## Extent 264 -/

/-- The per-sample computation over blocks of extent 264, at its one entry, is the distance of the loaded slabs. -/
theorem pay264_apply (W1 : Vec Ideal S264x64 .f32) (b1 : Vec Ideal S1x64 .f32) (W2 : Vec Ideal S64x32 .f32)
    (b2 : Vec Ideal S1x32 .f32) (x1 a1 x2 a2 : Vec Ideal S1x264x264 .f32) (y : S1x1x1.Idx) :
    pay264 (F := Ideal) W1 b1 W2 b2 x1 a1 x2 a2 y
      = GcnSpec.dist (Ideal.ofBits .f32 0x2B8CBCCC#32)
          (fun i j => x1 (ix3 (0 : Fin 1) i j)) (fun i j => a1 (ix3 (0 : Fin 1) i j))
          (fun i j => x2 (ix3 (0 : Fin 1) i j)) (fun i j => a2 (ix3 (0 : Fin 1) i j))
          (fun d e => W1 (ix2 d e)) (fun e => b1 (ix2 (0 : Fin 1) e)) (fun e q => W2 (ix2 e q))
          (fun q => b2 (ix2 (0 : Fin 1) q)) :=
  GcnBlock.blockPayload_apply (n := 264) (h1 := 64) (h2 := 32) bitsLt_bf16_f32 shapeCasts_S1x264x264_S264x264
    broadcasts_S1x64_S264x64 broadcasts_S1x32_S264x32 shapeCasts_S264x32_S1x264x32 reduces_S1x264x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2 y

/-- The piece of sample j: the distance of slab j of the four data blocks. -/
theorem sample264 (x0 x1 x2 x3 : Vec Ideal S4x264x264 .f32) (W1 : Vec Ideal S264x64 .f32) (b1 : Vec Ideal S1x64 .f32)
    (W2 : Vec Ideal S64x32 .f32) (b2 : Vec Ideal S1x32 .f32) (j : Fin 4) (o : ℕ) (ho : j.val = o)
    (inbX : ∀ a, (![o, 0, 0] : Fin 3 → ℕ) a + S1x264x264.size a ≤ S4x264x264.size a)
    (inbO : ∀ a, (![o, 0, 0] : Fin 3 → ℕ) a + S1x1x1.size a ≤ S4x1x1.size a) (x : S1x1x1.Idx) :
    pay264 (F := Ideal) (View.ld W1 r0_17) (View.ld b1 r0_1) (View.ld W2 r0_2) (View.ld b2 r0_3)
        (View.ld x0 (Rect.unit (s := S4x264x264) ![o, 0, 0] S1x264x264.size inbX))
        (View.ld x1 (Rect.unit (s := S4x264x264) ![o, 0, 0] S1x264x264.size inbX))
        (View.ld x2 (Rect.unit (s := S4x264x264) ![o, 0, 0] S1x264x264.size inbX))
        (View.ld x3 (Rect.unit (s := S4x264x264) ![o, 0, 0] S1x264x264.size inbX)) x
      = GcnSpec.dist (Ideal.ofBits .f32 0x2B8CBCCC#32)
          (fun p q => x0 (ix3 ((Rect.unit (s := S4x1x1) ![o, 0, 0] S1x1x1.size inbO).emb x 0) p q))
          (fun p q => x1 (ix3 ((Rect.unit (s := S4x1x1) ![o, 0, 0] S1x1x1.size inbO).emb x 0) p q))
          (fun p q => x2 (ix3 ((Rect.unit (s := S4x1x1) ![o, 0, 0] S1x1x1.size inbO).emb x 0) p q))
          (fun p q => x3 (ix3 ((Rect.unit (s := S4x1x1) ![o, 0, 0] S1x1x1.size inbO).emb x 0) p q))
          (fun d e => W1 (ix2 d e)) (fun e => b1 (ix2 (0 : Fin 1) e)) (fun e q => W2 (ix2 e q))
          (fun q => b2 (ix2 (0 : Fin 1) q)) := by
  rw [out_row j o ho inbO x, pay264_apply]
  have hx : ∀ X : Vec Ideal S4x264x264 .f32,
      (fun i j' => View.ld X (Rect.unit (s := S4x264x264) ![o, 0, 0] S1x264x264.size inbX) (ix3 (0 : Fin 1) i j'))
        = fun p q => X (ix3 j p q) :=
    fun X => funext fun p => funext fun q => ld_slab (N := 264) X j o ho inbX p q
  rw [hx x0, hx x1, hx x2, hx x3, View.ld_unit_zero (S := S264x64) zeros2, View.ld_unit_zero (S := S1x64) zeros2,
    View.ld_unit_zero (S := S64x32) zeros2, View.ld_unit_zero (S := S1x32) zeros2]

/-- Output window 34's block after the body at (j, 0, 0): the distance of sample j of the grid point's data blocks. -/
theorem out34_apply (x0 : Vec Ideal S4x116x116 .f32) (x1 : Vec Ideal S4x116x116 .f32) (x2 : Vec Ideal S4x116x116 .f32) (x3 : Vec Ideal S4x116x116 .f32) (x4 : Vec Ideal S4x200x200 .f32) (x5 : Vec Ideal S4x200x200 .f32) (x6 : Vec Ideal S4x200x200 .f32) (x7 : Vec Ideal S4x200x200 .f32) (x8 : Vec Ideal S4x264x264 .f32) (x9 : Vec Ideal S4x264x264 .f32) (x10 : Vec Ideal S4x264x264 .f32) (x11 : Vec Ideal S4x264x264 .f32) (x12 : Vec Ideal S4x325x325 .f32) (x13 : Vec Ideal S4x325x325 .f32) (x14 : Vec Ideal S4x325x325 .f32) (x15 : Vec Ideal S4x325x325 .f32) (x16 : Vec Ideal S116x64 .f32) (x17 : Vec Ideal S1x64 .f32) (x18 : Vec Ideal S64x32 .f32) (x19 : Vec Ideal S1x32 .f32) (x20 : Vec Ideal S200x64 .f32) (x21 : Vec Ideal S1x64 .f32) (x22 : Vec Ideal S64x32 .f32) (x23 : Vec Ideal S1x32 .f32) (x24 : Vec Ideal S264x64 .f32) (x25 : Vec Ideal S1x64 .f32) (x26 : Vec Ideal S64x32 .f32) (x27 : Vec Ideal S1x32 .f32) (x28 : Vec Ideal S325x64 .f32) (x29 : Vec Ideal S1x64 .f32) (x30 : Vec Ideal S64x32 .f32) (x31 : Vec Ideal S1x32 .f32) (y : S4x1x1.Idx) :
    out0_34 (F := Ideal) x0 x1 x2 x3 x4 x5 x6 x7 x8 x9 x10 x11 x12 x13 x14 x15 x16 x17 x18 x19 x20 x21 x22 x23 x24 x25 x26 x27 x28 x29 x30 x31 y
      = GcnSpec.dist (Ideal.ofBits .f32 0x2B8CBCCC#32)
          (fun p q => x8 (ix3 (y 0) p q)) (fun p q => x9 (ix3 (y 0) p q))
          (fun p q => x10 (ix3 (y 0) p q)) (fun p q => x11 (ix3 (y 0) p q))
          (fun d e => x24 (ix2 d e)) (fun e => x25 (ix2 (0 : Fin 1) e)) (fun e q => x26 (ix2 e q))
          (fun q => x27 (ix2 (0 : Fin 1) q)) := by
  rw [out0_34_eq]
  refine View.canon_apply_of_pieces (Val := Elt Ideal) (e := .f32)
    (fun y : S4x1x1.Idx => (GcnSpec.dist (Ideal.ofBits .f32 0x2B8CBCCC#32)
          (fun p q => x8 (ix3 (y 0) p q)) (fun p q => x9 (ix3 (y 0) p q))
          (fun p q => x10 (ix3 (y 0) p q)) (fun p q => x11 (ix3 (y 0) p q))
          (fun d e => x24 (ix2 d e)) (fun e => x25 (ix2 (0 : Fin 1) e)) (fun e q => x26 (ix2 e q))
          (fun q => x27 (ix2 (0 : Fin 1) q)) : Elt Ideal .f32)) _ ?_ y (cover0_34 _ _ _ _ y)
  intro pc hpc x
  rcases List.mem_cons.mp hpc with rfl | hpc
  · exact sample264 x8 x9 x10 x11 x24 x25 x26 x27 (3 : Fin 4) 3 rfl
      inb_S4x264x264_S1x264x264_3_0_0 inb_S4x1x1_S1x1x1_3_0_0 x
  rcases List.mem_cons.mp hpc with rfl | hpc
  · exact sample264 x8 x9 x10 x11 x24 x25 x26 x27 (2 : Fin 4) 2 rfl
      inb_S4x264x264_S1x264x264_2_0_0 inb_S4x1x1_S1x1x1_2_0_0 x
  rcases List.mem_cons.mp hpc with rfl | hpc
  · exact sample264 x8 x9 x10 x11 x24 x25 x26 x27 (1 : Fin 4) 1 rfl
      inb_S4x264x264_S1x264x264_1_0_0 inb_S4x1x1_S1x1x1_1_0_0 x
  rcases List.mem_cons.mp hpc with rfl | hpc
  · exact sample264 x8 x9 x10 x11 x24 x25 x26 x27 (0 : Fin 4) 0 rfl
      inb_S4x264x264_S1x264x264_0_0_0 inb_S4x1x1_S1x1x1_0_0_0 x
  exact absurd hpc List.not_mem_nil

/-! ## Extent 325 -/

/-- The per-sample computation over blocks of extent 325, at its one entry, is the distance of the loaded slabs. -/
theorem pay325_apply (W1 : Vec Ideal S325x64 .f32) (b1 : Vec Ideal S1x64 .f32) (W2 : Vec Ideal S64x32 .f32)
    (b2 : Vec Ideal S1x32 .f32) (x1 a1 x2 a2 : Vec Ideal S1x325x325 .f32) (y : S1x1x1.Idx) :
    pay325 (F := Ideal) W1 b1 W2 b2 x1 a1 x2 a2 y
      = GcnSpec.dist (Ideal.ofBits .f32 0x2B8CBCCC#32)
          (fun i j => x1 (ix3 (0 : Fin 1) i j)) (fun i j => a1 (ix3 (0 : Fin 1) i j))
          (fun i j => x2 (ix3 (0 : Fin 1) i j)) (fun i j => a2 (ix3 (0 : Fin 1) i j))
          (fun d e => W1 (ix2 d e)) (fun e => b1 (ix2 (0 : Fin 1) e)) (fun e q => W2 (ix2 e q))
          (fun q => b2 (ix2 (0 : Fin 1) q)) :=
  GcnBlock.blockPayload_apply (n := 325) (h1 := 64) (h2 := 32) bitsLt_bf16_f32 shapeCasts_S1x325x325_S325x325
    broadcasts_S1x64_S325x64 broadcasts_S1x32_S325x32 shapeCasts_S325x32_S1x325x32 reduces_S1x325x32_S1
    shapeCasts_S1_S1x1x1 inpos_S1x1x1_p0_0_0 shapeCasts_S1x1_S1x1x1 shapeCasts_S1x64_S1x64 shapeCasts_S1x32_S1x32
    0x2B8CBCCC#32 W1 b1 W2 b2 x1 a1 x2 a2 y

/-- The piece of sample j: the distance of slab j of the four data blocks. -/
theorem sample325 (x0 x1 x2 x3 : Vec Ideal S4x325x325 .f32) (W1 : Vec Ideal S325x64 .f32) (b1 : Vec Ideal S1x64 .f32)
    (W2 : Vec Ideal S64x32 .f32) (b2 : Vec Ideal S1x32 .f32) (j : Fin 4) (o : ℕ) (ho : j.val = o)
    (inbX : ∀ a, (![o, 0, 0] : Fin 3 → ℕ) a + S1x325x325.size a ≤ S4x325x325.size a)
    (inbO : ∀ a, (![o, 0, 0] : Fin 3 → ℕ) a + S1x1x1.size a ≤ S4x1x1.size a) (x : S1x1x1.Idx) :
    pay325 (F := Ideal) (View.ld W1 r0_22) (View.ld b1 r0_1) (View.ld W2 r0_2) (View.ld b2 r0_3)
        (View.ld x0 (Rect.unit (s := S4x325x325) ![o, 0, 0] S1x325x325.size inbX))
        (View.ld x1 (Rect.unit (s := S4x325x325) ![o, 0, 0] S1x325x325.size inbX))
        (View.ld x2 (Rect.unit (s := S4x325x325) ![o, 0, 0] S1x325x325.size inbX))
        (View.ld x3 (Rect.unit (s := S4x325x325) ![o, 0, 0] S1x325x325.size inbX)) x
      = GcnSpec.dist (Ideal.ofBits .f32 0x2B8CBCCC#32)
          (fun p q => x0 (ix3 ((Rect.unit (s := S4x1x1) ![o, 0, 0] S1x1x1.size inbO).emb x 0) p q))
          (fun p q => x1 (ix3 ((Rect.unit (s := S4x1x1) ![o, 0, 0] S1x1x1.size inbO).emb x 0) p q))
          (fun p q => x2 (ix3 ((Rect.unit (s := S4x1x1) ![o, 0, 0] S1x1x1.size inbO).emb x 0) p q))
          (fun p q => x3 (ix3 ((Rect.unit (s := S4x1x1) ![o, 0, 0] S1x1x1.size inbO).emb x 0) p q))
          (fun d e => W1 (ix2 d e)) (fun e => b1 (ix2 (0 : Fin 1) e)) (fun e q => W2 (ix2 e q))
          (fun q => b2 (ix2 (0 : Fin 1) q)) := by
  rw [out_row j o ho inbO x, pay325_apply]
  have hx : ∀ X : Vec Ideal S4x325x325 .f32,
      (fun i j' => View.ld X (Rect.unit (s := S4x325x325) ![o, 0, 0] S1x325x325.size inbX) (ix3 (0 : Fin 1) i j'))
        = fun p q => X (ix3 j p q) :=
    fun X => funext fun p => funext fun q => ld_slab (N := 325) X j o ho inbX p q
  rw [hx x0, hx x1, hx x2, hx x3, View.ld_unit_zero (S := S325x64) zeros2, View.ld_unit_zero (S := S1x64) zeros2,
    View.ld_unit_zero (S := S64x32) zeros2, View.ld_unit_zero (S := S1x32) zeros2]

/-- Output window 35's block after the body at (j, 0, 0): the distance of sample j of the grid point's data blocks. -/
theorem out35_apply (x0 : Vec Ideal S4x116x116 .f32) (x1 : Vec Ideal S4x116x116 .f32) (x2 : Vec Ideal S4x116x116 .f32) (x3 : Vec Ideal S4x116x116 .f32) (x4 : Vec Ideal S4x200x200 .f32) (x5 : Vec Ideal S4x200x200 .f32) (x6 : Vec Ideal S4x200x200 .f32) (x7 : Vec Ideal S4x200x200 .f32) (x8 : Vec Ideal S4x264x264 .f32) (x9 : Vec Ideal S4x264x264 .f32) (x10 : Vec Ideal S4x264x264 .f32) (x11 : Vec Ideal S4x264x264 .f32) (x12 : Vec Ideal S4x325x325 .f32) (x13 : Vec Ideal S4x325x325 .f32) (x14 : Vec Ideal S4x325x325 .f32) (x15 : Vec Ideal S4x325x325 .f32) (x16 : Vec Ideal S116x64 .f32) (x17 : Vec Ideal S1x64 .f32) (x18 : Vec Ideal S64x32 .f32) (x19 : Vec Ideal S1x32 .f32) (x20 : Vec Ideal S200x64 .f32) (x21 : Vec Ideal S1x64 .f32) (x22 : Vec Ideal S64x32 .f32) (x23 : Vec Ideal S1x32 .f32) (x24 : Vec Ideal S264x64 .f32) (x25 : Vec Ideal S1x64 .f32) (x26 : Vec Ideal S64x32 .f32) (x27 : Vec Ideal S1x32 .f32) (x28 : Vec Ideal S325x64 .f32) (x29 : Vec Ideal S1x64 .f32) (x30 : Vec Ideal S64x32 .f32) (x31 : Vec Ideal S1x32 .f32) (y : S4x1x1.Idx) :
    out0_35 (F := Ideal) x0 x1 x2 x3 x4 x5 x6 x7 x8 x9 x10 x11 x12 x13 x14 x15 x16 x17 x18 x19 x20 x21 x22 x23 x24 x25 x26 x27 x28 x29 x30 x31 y
      = GcnSpec.dist (Ideal.ofBits .f32 0x2B8CBCCC#32)
          (fun p q => x12 (ix3 (y 0) p q)) (fun p q => x13 (ix3 (y 0) p q))
          (fun p q => x14 (ix3 (y 0) p q)) (fun p q => x15 (ix3 (y 0) p q))
          (fun d e => x28 (ix2 d e)) (fun e => x29 (ix2 (0 : Fin 1) e)) (fun e q => x30 (ix2 e q))
          (fun q => x31 (ix2 (0 : Fin 1) q)) := by
  rw [out0_35_eq]
  refine View.canon_apply_of_pieces (Val := Elt Ideal) (e := .f32)
    (fun y : S4x1x1.Idx => (GcnSpec.dist (Ideal.ofBits .f32 0x2B8CBCCC#32)
          (fun p q => x12 (ix3 (y 0) p q)) (fun p q => x13 (ix3 (y 0) p q))
          (fun p q => x14 (ix3 (y 0) p q)) (fun p q => x15 (ix3 (y 0) p q))
          (fun d e => x28 (ix2 d e)) (fun e => x29 (ix2 (0 : Fin 1) e)) (fun e q => x30 (ix2 e q))
          (fun q => x31 (ix2 (0 : Fin 1) q)) : Elt Ideal .f32)) _ ?_ y (cover0_35 _ _ _ _ y)
  intro pc hpc x
  rcases List.mem_cons.mp hpc with rfl | hpc
  · exact sample325 x12 x13 x14 x15 x28 x29 x30 x31 (3 : Fin 4) 3 rfl
      inb_S4x325x325_S1x325x325_3_0_0 inb_S4x1x1_S1x1x1_3_0_0 x
  rcases List.mem_cons.mp hpc with rfl | hpc
  · exact sample325 x12 x13 x14 x15 x28 x29 x30 x31 (2 : Fin 4) 2 rfl
      inb_S4x325x325_S1x325x325_2_0_0 inb_S4x1x1_S1x1x1_2_0_0 x
  rcases List.mem_cons.mp hpc with rfl | hpc
  · exact sample325 x12 x13 x14 x15 x28 x29 x30 x31 (1 : Fin 4) 1 rfl
      inb_S4x325x325_S1x325x325_1_0_0 inb_S4x1x1_S1x1x1_1_0_0 x
  rcases List.mem_cons.mp hpc with rfl | hpc
  · exact sample325 x12 x13 x14 x15 x28 x29 x30 x31 (0 : Fin 4) 0 rfl
      inb_S4x325x325_S1x325x325_0_0_0 inb_S4x1x1_S1x1x1_0_0_0 x
  exact absurd hpc List.not_mem_nil

end Cert.KernelIdeal.Bridge

end
-- ==== Proof.KernelArrays.lean ====
/-
  Each output array after the region, as one function of the arrays the region finds.

  Row b of a scale's [128,1,1] output array is written by grid point b / 4 as sample b % 4 of its block, and is the
  specification's distance of sample b of the scale's four data arrays with the scale's weights and biases. The
  blocks of the 32 points tile the 128 rows, so the array ends holding exactly that.
-/
import proofs.«125226_g50010599194667_cont_sun_m_1001_24_alg».proof.Proof.KernelBlocks
import proofs.«125226_g50010599194667_cont_sun_m_1001_24_alg».proof.Proof.KernelOut

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (m : (ℓ : Loc nD τ sig) → Buf (Elt Ideal) ℓ)

/-! ## Extent 116: output window 32 -/

/-- The distance of every sample, as a [128,1,1] array, from the scale's arrays. -/
def distArr116 (X1 A1 X2 A2 : S128x116x116.Idx → Elt Ideal .f32) (W1 : S116x64.Idx → Elt Ideal .f32)
    (b1 : S1x64.Idx → Elt Ideal .f32) (W2 : S64x32.Idx → Elt Ideal .f32) (b2 : S1x32.Idx → Elt Ideal .f32) :
    S128x1x1.Idx → Elt Ideal .f32 := fun i =>
  GcnSpec.dist (Ideal.ofBits .f32 0x2B8CBCCC#32)
    (fun p q => X1 (ix3 (i 0) p q)) (fun p q => A1 (ix3 (i 0) p q))
    (fun p q => X2 (ix3 (i 0) p q)) (fun p q => A2 (ix3 (i 0) p q))
    (fun d e => W1 (ix2 d e)) (fun e => b1 (ix2 (0 : Fin 1) e)) (fun e q => W2 (ix2 e q))
    (fun q => b2 (ix2 (0 : Fin 1) q))

/-- WHAT POINT t WRITES BACK is block t of that array. -/
theorem flushed32_eq (c : Dev nD) (t : Fin cfg0.N) :
    (dats m 0 c).flushed 32 t = ((cfg0.win 32).blk t).view.read (Elt Ideal)
      (distArr116 (V m c main_arg0) (V m c main_arg2) (V m c main_arg1) (V m c main_arg3)
        (V m c main_arg4) (V m c main_v0) (V m c main_arg6) (V m c main_v1)) := by
  show (cfg0.win 32).cut (grid0.coords t) ((dats m 0 c).after 32 t) = _
  rw [after0_32]
  obtain ⟨e0, e1, e2⟩ := idx32 t
  funext y
  show out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) y
    = distArr116 (V m c main_arg0) (V m c main_arg2) (V m c main_arg1) (V m c main_arg3)
        (V m c main_arg4) (V m c main_v0) (V m c main_arg6) (V m c main_v1) (((cfg0.win 32).blk t).view.emb y)
  refine (out32_apply _ _ _ _ _ _ _ _ _ _ _ _ _ _ _ _ _ _ _ _ _ _ _ _ _ _ _ _ _ _ _ _ y).trans ?_
  unfold distArr116
  have hb : (((cfg0.win 32).blk t).view.emb y 0).val = 4 * t.val + (y 0).val := by
    show win0_32.index t (0 : Fin 3) * 4 + 1 * (y 0).val = _
    omega
  have h0 : (fun p q => iblk m c 0 t (ix3 (y 0) p q)) = fun p q => V m c main_arg0 (ix3 (((cfg0.win 32).blk t).view.emb y 0) p q) :=
    funext fun p => funext fun q => iblk0 m c t (y 0) p q _ hb
  have h1 : (fun p q => iblk m c 1 t (ix3 (y 0) p q)) = fun p q => V m c main_arg2 (ix3 (((cfg0.win 32).blk t).view.emb y 0) p q) :=
    funext fun p => funext fun q => iblk1 m c t (y 0) p q _ hb
  have h2 : (fun p q => iblk m c 2 t (ix3 (y 0) p q)) = fun p q => V m c main_arg1 (ix3 (((cfg0.win 32).blk t).view.emb y 0) p q) :=
    funext fun p => funext fun q => iblk2 m c t (y 0) p q _ hb
  have h3 : (fun p q => iblk m c 3 t (ix3 (y 0) p q)) = fun p q => V m c main_arg3 (ix3 (((cfg0.win 32).blk t).view.emb y 0) p q) :=
    funext fun p => funext fun q => iblk3 m c t (y 0) p q _ hb
  have h4 : (fun d e => iblk m c 16 t (ix2 d e)) = fun d e => V m c main_arg4 (ix2 d e) :=
    funext fun d => funext fun e => iblk16 m c t _
  have h5 : (fun e => iblk m c 17 t (ix2 (0 : Fin 1) e)) = fun e => V m c main_v0 (ix2 (0 : Fin 1) e) :=
    funext fun e => iblk17 m c t _
  have h6 : (fun e q => iblk m c 18 t (ix2 e q)) = fun e q => V m c main_arg6 (ix2 e q) :=
    funext fun e => funext fun q => iblk18 m c t _
  have h7 : (fun q => iblk m c 19 t (ix2 (0 : Fin 1) q)) = fun q => V m c main_v1 (ix2 (0 : Fin 1) q) :=
    funext fun q => iblk19 m c t _
  rw [h0, h1, h2, h3, h4, h5, h6, h7]

/-- An index of the array is in point t's block iff each coordinate is in the block's range on its axis. -/
theorem mem_blk32 (t : Fin cfg0.N) (i : S128x1x1.Idx) :
    i ∈ ((cfg0.win 32).blk t).view.set ↔ ∀ a : Fin 3, win0_32.index t a * S4x1x1.size a ≤ (i a).val ∧ (i a).val < win0_32.index t a * S4x1x1.size a + S4x1x1.size a := by
  show i ∈ ((View.whole main_v8_0).slice (win0_32.rect t)).set ↔ _
  rw [View.set_slice_whole, Rect.mem_set_unit]
  exact Iff.rfl

/-- Every row is in the block of the point that handles its group of four. -/
theorem cover32 (i : S128x1x1.Idx) :
    ∃ t : Fin cfg0.N, (cfg0.win 32).flush t = true ∧ i ∈ ((cfg0.win 32).blk t).view.set := by
  have hi0 : (i 0).val < 128 := (i 0).isLt
  have hi1 : (i 1).val < 1 := (i 1).isLt
  have hi2 : (i 2).val < 1 := (i 2).isLt
  have hN : cfg0.N = 32 := N_0
  have ht : (i 0).val / 4 < cfg0.N := by omega
  obtain ⟨e0, e1, e2⟩ := idx32 ⟨(i 0).val / 4, ht⟩
  have e0' : win0_32.index ⟨(i 0).val / 4, ht⟩ (0 : Fin 3) = (i 0).val / 4 := e0
  refine ⟨⟨(i 0).val / 4, ht⟩, flush0_32 _, ?_⟩
  rw [mem_blk32]
  intro a
  match a with
  | ⟨0, _⟩ =>
    show win0_32.index ⟨(i 0).val / 4, ht⟩ (0 : Fin 3) * 4 ≤ (i 0).val ∧ (i 0).val < win0_32.index ⟨(i 0).val / 4, ht⟩ (0 : Fin 3) * 4 + 4
    omega
  | ⟨1, _⟩ =>
    show win0_32.index ⟨(i 0).val / 4, ht⟩ (1 : Fin 3) * 1 ≤ (i 1).val ∧ (i 1).val < win0_32.index ⟨(i 0).val / 4, ht⟩ (1 : Fin 3) * 1 + 1
    omega
  | ⟨2, _⟩ =>
    show win0_32.index ⟨(i 0).val / 4, ht⟩ (2 : Fin 3) * 1 ≤ (i 2).val ∧ (i 2).val < win0_32.index ⟨(i 0).val / 4, ht⟩ (2 : Fin 3) * 1 + 1
    omega

/-- THE ARRAY after the region. -/
theorem final32 (c : Dev nD) :
    (dats m 0 c).arrAt 32 cfg0.N
      = distArr116 (V m c main_arg0) (V m c main_arg2) (V m c main_arg1) (V m c main_arg3)
          (V m c main_arg4) (V m c main_v0) (V m c main_arg6) (V m c main_v1) :=
  (dats m 0 c).arrAt_eq_of_cover 32 _ (fun t _ => flushed32_eq m c t) cover32

/-! ## Extent 200: output window 33 -/

/-- The distance of every sample, as a [128,1,1] array, from the scale's arrays. -/
def distArr200 (X1 A1 X2 A2 : S128x200x200.Idx → Elt Ideal .f32) (W1 : S200x64.Idx → Elt Ideal .f32)
    (b1 : S1x64.Idx → Elt Ideal .f32) (W2 : S64x32.Idx → Elt Ideal .f32) (b2 : S1x32.Idx → Elt Ideal .f32) :
    S128x1x1.Idx → Elt Ideal .f32 := fun i =>
  GcnSpec.dist (Ideal.ofBits .f32 0x2B8CBCCC#32)
    (fun p q => X1 (ix3 (i 0) p q)) (fun p q => A1 (ix3 (i 0) p q))
    (fun p q => X2 (ix3 (i 0) p q)) (fun p q => A2 (ix3 (i 0) p q))
    (fun d e => W1 (ix2 d e)) (fun e => b1 (ix2 (0 : Fin 1) e)) (fun e q => W2 (ix2 e q))
    (fun q => b2 (ix2 (0 : Fin 1) q))

/-- WHAT POINT t WRITES BACK is block t of that array. -/
theorem flushed33_eq (c : Dev nD) (t : Fin cfg0.N) :
    (dats m 0 c).flushed 33 t = ((cfg0.win 33).blk t).view.read (Elt Ideal)
      (distArr200 (V m c main_arg8) (V m c main_arg10) (V m c main_arg9) (V m c main_arg11)
        (V m c main_arg12) (V m c main_v2) (V m c main_arg14) (V m c main_v3)) := by
  show (cfg0.win 33).cut (grid0.coords t) ((dats m 0 c).after 33 t) = _
  rw [after0_33]
  obtain ⟨e0, e1, e2⟩ := idx33 t
  funext y
  show out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) y
    = distArr200 (V m c main_arg8) (V m c main_arg10) (V m c main_arg9) (V m c main_arg11)
        (V m c main_arg12) (V m c main_v2) (V m c main_arg14) (V m c main_v3) (((cfg0.win 33).blk t).view.emb y)
  refine (out33_apply _ _ _ _ _ _ _ _ _ _ _ _ _ _ _ _ _ _ _ _ _ _ _ _ _ _ _ _ _ _ _ _ y).trans ?_
  unfold distArr200
  have hb : (((cfg0.win 33).blk t).view.emb y 0).val = 4 * t.val + (y 0).val := by
    show win0_33.index t (0 : Fin 3) * 4 + 1 * (y 0).val = _
    omega
  have h0 : (fun p q => iblk m c 4 t (ix3 (y 0) p q)) = fun p q => V m c main_arg8 (ix3 (((cfg0.win 33).blk t).view.emb y 0) p q) :=
    funext fun p => funext fun q => iblk4 m c t (y 0) p q _ hb
  have h1 : (fun p q => iblk m c 5 t (ix3 (y 0) p q)) = fun p q => V m c main_arg10 (ix3 (((cfg0.win 33).blk t).view.emb y 0) p q) :=
    funext fun p => funext fun q => iblk5 m c t (y 0) p q _ hb
  have h2 : (fun p q => iblk m c 6 t (ix3 (y 0) p q)) = fun p q => V m c main_arg9 (ix3 (((cfg0.win 33).blk t).view.emb y 0) p q) :=
    funext fun p => funext fun q => iblk6 m c t (y 0) p q _ hb
  have h3 : (fun p q => iblk m c 7 t (ix3 (y 0) p q)) = fun p q => V m c main_arg11 (ix3 (((cfg0.win 33).blk t).view.emb y 0) p q) :=
    funext fun p => funext fun q => iblk7 m c t (y 0) p q _ hb
  have h4 : (fun d e => iblk m c 20 t (ix2 d e)) = fun d e => V m c main_arg12 (ix2 d e) :=
    funext fun d => funext fun e => iblk20 m c t _
  have h5 : (fun e => iblk m c 21 t (ix2 (0 : Fin 1) e)) = fun e => V m c main_v2 (ix2 (0 : Fin 1) e) :=
    funext fun e => iblk21 m c t _
  have h6 : (fun e q => iblk m c 22 t (ix2 e q)) = fun e q => V m c main_arg14 (ix2 e q) :=
    funext fun e => funext fun q => iblk22 m c t _
  have h7 : (fun q => iblk m c 23 t (ix2 (0 : Fin 1) q)) = fun q => V m c main_v3 (ix2 (0 : Fin 1) q) :=
    funext fun q => iblk23 m c t _
  rw [h0, h1, h2, h3, h4, h5, h6, h7]

/-- An index of the array is in point t's block iff each coordinate is in the block's range on its axis. -/
theorem mem_blk33 (t : Fin cfg0.N) (i : S128x1x1.Idx) :
    i ∈ ((cfg0.win 33).blk t).view.set ↔ ∀ a : Fin 3, win0_33.index t a * S4x1x1.size a ≤ (i a).val ∧ (i a).val < win0_33.index t a * S4x1x1.size a + S4x1x1.size a := by
  show i ∈ ((View.whole main_v8_1).slice (win0_33.rect t)).set ↔ _
  rw [View.set_slice_whole, Rect.mem_set_unit]
  exact Iff.rfl

/-- Every row is in the block of the point that handles its group of four. -/
theorem cover33 (i : S128x1x1.Idx) :
    ∃ t : Fin cfg0.N, (cfg0.win 33).flush t = true ∧ i ∈ ((cfg0.win 33).blk t).view.set := by
  have hi0 : (i 0).val < 128 := (i 0).isLt
  have hi1 : (i 1).val < 1 := (i 1).isLt
  have hi2 : (i 2).val < 1 := (i 2).isLt
  have hN : cfg0.N = 32 := N_0
  have ht : (i 0).val / 4 < cfg0.N := by omega
  obtain ⟨e0, e1, e2⟩ := idx33 ⟨(i 0).val / 4, ht⟩
  have e0' : win0_33.index ⟨(i 0).val / 4, ht⟩ (0 : Fin 3) = (i 0).val / 4 := e0
  refine ⟨⟨(i 0).val / 4, ht⟩, flush0_33 _, ?_⟩
  rw [mem_blk33]
  intro a
  match a with
  | ⟨0, _⟩ =>
    show win0_33.index ⟨(i 0).val / 4, ht⟩ (0 : Fin 3) * 4 ≤ (i 0).val ∧ (i 0).val < win0_33.index ⟨(i 0).val / 4, ht⟩ (0 : Fin 3) * 4 + 4
    omega
  | ⟨1, _⟩ =>
    show win0_33.index ⟨(i 0).val / 4, ht⟩ (1 : Fin 3) * 1 ≤ (i 1).val ∧ (i 1).val < win0_33.index ⟨(i 0).val / 4, ht⟩ (1 : Fin 3) * 1 + 1
    omega
  | ⟨2, _⟩ =>
    show win0_33.index ⟨(i 0).val / 4, ht⟩ (2 : Fin 3) * 1 ≤ (i 2).val ∧ (i 2).val < win0_33.index ⟨(i 0).val / 4, ht⟩ (2 : Fin 3) * 1 + 1
    omega

/-- THE ARRAY after the region. -/
theorem final33 (c : Dev nD) :
    (dats m 0 c).arrAt 33 cfg0.N
      = distArr200 (V m c main_arg8) (V m c main_arg10) (V m c main_arg9) (V m c main_arg11)
          (V m c main_arg12) (V m c main_v2) (V m c main_arg14) (V m c main_v3) :=
  (dats m 0 c).arrAt_eq_of_cover 33 _ (fun t _ => flushed33_eq m c t) cover33

/-! ## Extent 264: output window 34 -/

/-- The distance of every sample, as a [128,1,1] array, from the scale's arrays. -/
def distArr264 (X1 A1 X2 A2 : S128x264x264.Idx → Elt Ideal .f32) (W1 : S264x64.Idx → Elt Ideal .f32)
    (b1 : S1x64.Idx → Elt Ideal .f32) (W2 : S64x32.Idx → Elt Ideal .f32) (b2 : S1x32.Idx → Elt Ideal .f32) :
    S128x1x1.Idx → Elt Ideal .f32 := fun i =>
  GcnSpec.dist (Ideal.ofBits .f32 0x2B8CBCCC#32)
    (fun p q => X1 (ix3 (i 0) p q)) (fun p q => A1 (ix3 (i 0) p q))
    (fun p q => X2 (ix3 (i 0) p q)) (fun p q => A2 (ix3 (i 0) p q))
    (fun d e => W1 (ix2 d e)) (fun e => b1 (ix2 (0 : Fin 1) e)) (fun e q => W2 (ix2 e q))
    (fun q => b2 (ix2 (0 : Fin 1) q))

/-- WHAT POINT t WRITES BACK is block t of that array. -/
theorem flushed34_eq (c : Dev nD) (t : Fin cfg0.N) :
    (dats m 0 c).flushed 34 t = ((cfg0.win 34).blk t).view.read (Elt Ideal)
      (distArr264 (V m c main_arg16) (V m c main_arg18) (V m c main_arg17) (V m c main_arg19)
        (V m c main_arg20) (V m c main_v4) (V m c main_arg22) (V m c main_v5)) := by
  show (cfg0.win 34).cut (grid0.coords t) ((dats m 0 c).after 34 t) = _
  rw [after0_34]
  obtain ⟨e0, e1, e2⟩ := idx34 t
  funext y
  show out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) y
    = distArr264 (V m c main_arg16) (V m c main_arg18) (V m c main_arg17) (V m c main_arg19)
        (V m c main_arg20) (V m c main_v4) (V m c main_arg22) (V m c main_v5) (((cfg0.win 34).blk t).view.emb y)
  refine (out34_apply _ _ _ _ _ _ _ _ _ _ _ _ _ _ _ _ _ _ _ _ _ _ _ _ _ _ _ _ _ _ _ _ y).trans ?_
  unfold distArr264
  have hb : (((cfg0.win 34).blk t).view.emb y 0).val = 4 * t.val + (y 0).val := by
    show win0_34.index t (0 : Fin 3) * 4 + 1 * (y 0).val = _
    omega
  have h0 : (fun p q => iblk m c 8 t (ix3 (y 0) p q)) = fun p q => V m c main_arg16 (ix3 (((cfg0.win 34).blk t).view.emb y 0) p q) :=
    funext fun p => funext fun q => iblk8 m c t (y 0) p q _ hb
  have h1 : (fun p q => iblk m c 9 t (ix3 (y 0) p q)) = fun p q => V m c main_arg18 (ix3 (((cfg0.win 34).blk t).view.emb y 0) p q) :=
    funext fun p => funext fun q => iblk9 m c t (y 0) p q _ hb
  have h2 : (fun p q => iblk m c 10 t (ix3 (y 0) p q)) = fun p q => V m c main_arg17 (ix3 (((cfg0.win 34).blk t).view.emb y 0) p q) :=
    funext fun p => funext fun q => iblk10 m c t (y 0) p q _ hb
  have h3 : (fun p q => iblk m c 11 t (ix3 (y 0) p q)) = fun p q => V m c main_arg19 (ix3 (((cfg0.win 34).blk t).view.emb y 0) p q) :=
    funext fun p => funext fun q => iblk11 m c t (y 0) p q _ hb
  have h4 : (fun d e => iblk m c 24 t (ix2 d e)) = fun d e => V m c main_arg20 (ix2 d e) :=
    funext fun d => funext fun e => iblk24 m c t _
  have h5 : (fun e => iblk m c 25 t (ix2 (0 : Fin 1) e)) = fun e => V m c main_v4 (ix2 (0 : Fin 1) e) :=
    funext fun e => iblk25 m c t _
  have h6 : (fun e q => iblk m c 26 t (ix2 e q)) = fun e q => V m c main_arg22 (ix2 e q) :=
    funext fun e => funext fun q => iblk26 m c t _
  have h7 : (fun q => iblk m c 27 t (ix2 (0 : Fin 1) q)) = fun q => V m c main_v5 (ix2 (0 : Fin 1) q) :=
    funext fun q => iblk27 m c t _
  rw [h0, h1, h2, h3, h4, h5, h6, h7]

/-- An index of the array is in point t's block iff each coordinate is in the block's range on its axis. -/
theorem mem_blk34 (t : Fin cfg0.N) (i : S128x1x1.Idx) :
    i ∈ ((cfg0.win 34).blk t).view.set ↔ ∀ a : Fin 3, win0_34.index t a * S4x1x1.size a ≤ (i a).val ∧ (i a).val < win0_34.index t a * S4x1x1.size a + S4x1x1.size a := by
  show i ∈ ((View.whole main_v8_2).slice (win0_34.rect t)).set ↔ _
  rw [View.set_slice_whole, Rect.mem_set_unit]
  exact Iff.rfl

/-- Every row is in the block of the point that handles its group of four. -/
theorem cover34 (i : S128x1x1.Idx) :
    ∃ t : Fin cfg0.N, (cfg0.win 34).flush t = true ∧ i ∈ ((cfg0.win 34).blk t).view.set := by
  have hi0 : (i 0).val < 128 := (i 0).isLt
  have hi1 : (i 1).val < 1 := (i 1).isLt
  have hi2 : (i 2).val < 1 := (i 2).isLt
  have hN : cfg0.N = 32 := N_0
  have ht : (i 0).val / 4 < cfg0.N := by omega
  obtain ⟨e0, e1, e2⟩ := idx34 ⟨(i 0).val / 4, ht⟩
  have e0' : win0_34.index ⟨(i 0).val / 4, ht⟩ (0 : Fin 3) = (i 0).val / 4 := e0
  refine ⟨⟨(i 0).val / 4, ht⟩, flush0_34 _, ?_⟩
  rw [mem_blk34]
  intro a
  match a with
  | ⟨0, _⟩ =>
    show win0_34.index ⟨(i 0).val / 4, ht⟩ (0 : Fin 3) * 4 ≤ (i 0).val ∧ (i 0).val < win0_34.index ⟨(i 0).val / 4, ht⟩ (0 : Fin 3) * 4 + 4
    omega
  | ⟨1, _⟩ =>
    show win0_34.index ⟨(i 0).val / 4, ht⟩ (1 : Fin 3) * 1 ≤ (i 1).val ∧ (i 1).val < win0_34.index ⟨(i 0).val / 4, ht⟩ (1 : Fin 3) * 1 + 1
    omega
  | ⟨2, _⟩ =>
    show win0_34.index ⟨(i 0).val / 4, ht⟩ (2 : Fin 3) * 1 ≤ (i 2).val ∧ (i 2).val < win0_34.index ⟨(i 0).val / 4, ht⟩ (2 : Fin 3) * 1 + 1
    omega

/-- THE ARRAY after the region. -/
theorem final34 (c : Dev nD) :
    (dats m 0 c).arrAt 34 cfg0.N
      = distArr264 (V m c main_arg16) (V m c main_arg18) (V m c main_arg17) (V m c main_arg19)
          (V m c main_arg20) (V m c main_v4) (V m c main_arg22) (V m c main_v5) :=
  (dats m 0 c).arrAt_eq_of_cover 34 _ (fun t _ => flushed34_eq m c t) cover34

/-! ## Extent 325: output window 35 -/

/-- The distance of every sample, as a [128,1,1] array, from the scale's arrays. -/
def distArr325 (X1 A1 X2 A2 : S128x325x325.Idx → Elt Ideal .f32) (W1 : S325x64.Idx → Elt Ideal .f32)
    (b1 : S1x64.Idx → Elt Ideal .f32) (W2 : S64x32.Idx → Elt Ideal .f32) (b2 : S1x32.Idx → Elt Ideal .f32) :
    S128x1x1.Idx → Elt Ideal .f32 := fun i =>
  GcnSpec.dist (Ideal.ofBits .f32 0x2B8CBCCC#32)
    (fun p q => X1 (ix3 (i 0) p q)) (fun p q => A1 (ix3 (i 0) p q))
    (fun p q => X2 (ix3 (i 0) p q)) (fun p q => A2 (ix3 (i 0) p q))
    (fun d e => W1 (ix2 d e)) (fun e => b1 (ix2 (0 : Fin 1) e)) (fun e q => W2 (ix2 e q))
    (fun q => b2 (ix2 (0 : Fin 1) q))

/-- WHAT POINT t WRITES BACK is block t of that array. -/
theorem flushed35_eq (c : Dev nD) (t : Fin cfg0.N) :
    (dats m 0 c).flushed 35 t = ((cfg0.win 35).blk t).view.read (Elt Ideal)
      (distArr325 (V m c main_arg24) (V m c main_arg26) (V m c main_arg25) (V m c main_arg27)
        (V m c main_arg28) (V m c main_v6) (V m c main_arg30) (V m c main_v7)) := by
  show (cfg0.win 35).cut (grid0.coords t) ((dats m 0 c).after 35 t) = _
  rw [after0_35]
  obtain ⟨e0, e1, e2⟩ := idx35 t
  funext y
  show out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) y
    = distArr325 (V m c main_arg24) (V m c main_arg26) (V m c main_arg25) (V m c main_arg27)
        (V m c main_arg28) (V m c main_v6) (V m c main_arg30) (V m c main_v7) (((cfg0.win 35).blk t).view.emb y)
  refine (out35_apply _ _ _ _ _ _ _ _ _ _ _ _ _ _ _ _ _ _ _ _ _ _ _ _ _ _ _ _ _ _ _ _ y).trans ?_
  unfold distArr325
  have hb : (((cfg0.win 35).blk t).view.emb y 0).val = 4 * t.val + (y 0).val := by
    show win0_35.index t (0 : Fin 3) * 4 + 1 * (y 0).val = _
    omega
  have h0 : (fun p q => iblk m c 12 t (ix3 (y 0) p q)) = fun p q => V m c main_arg24 (ix3 (((cfg0.win 35).blk t).view.emb y 0) p q) :=
    funext fun p => funext fun q => iblk12 m c t (y 0) p q _ hb
  have h1 : (fun p q => iblk m c 13 t (ix3 (y 0) p q)) = fun p q => V m c main_arg26 (ix3 (((cfg0.win 35).blk t).view.emb y 0) p q) :=
    funext fun p => funext fun q => iblk13 m c t (y 0) p q _ hb
  have h2 : (fun p q => iblk m c 14 t (ix3 (y 0) p q)) = fun p q => V m c main_arg25 (ix3 (((cfg0.win 35).blk t).view.emb y 0) p q) :=
    funext fun p => funext fun q => iblk14 m c t (y 0) p q _ hb
  have h3 : (fun p q => iblk m c 15 t (ix3 (y 0) p q)) = fun p q => V m c main_arg27 (ix3 (((cfg0.win 35).blk t).view.emb y 0) p q) :=
    funext fun p => funext fun q => iblk15 m c t (y 0) p q _ hb
  have h4 : (fun d e => iblk m c 28 t (ix2 d e)) = fun d e => V m c main_arg28 (ix2 d e) :=
    funext fun d => funext fun e => iblk28 m c t _
  have h5 : (fun e => iblk m c 29 t (ix2 (0 : Fin 1) e)) = fun e => V m c main_v6 (ix2 (0 : Fin 1) e) :=
    funext fun e => iblk29 m c t _
  have h6 : (fun e q => iblk m c 30 t (ix2 e q)) = fun e q => V m c main_arg30 (ix2 e q) :=
    funext fun e => funext fun q => iblk30 m c t _
  have h7 : (fun q => iblk m c 31 t (ix2 (0 : Fin 1) q)) = fun q => V m c main_v7 (ix2 (0 : Fin 1) q) :=
    funext fun q => iblk31 m c t _
  rw [h0, h1, h2, h3, h4, h5, h6, h7]

/-- An index of the array is in point t's block iff each coordinate is in the block's range on its axis. -/
theorem mem_blk35 (t : Fin cfg0.N) (i : S128x1x1.Idx) :
    i ∈ ((cfg0.win 35).blk t).view.set ↔ ∀ a : Fin 3, win0_35.index t a * S4x1x1.size a ≤ (i a).val ∧ (i a).val < win0_35.index t a * S4x1x1.size a + S4x1x1.size a := by
  show i ∈ ((View.whole main_v8_3).slice (win0_35.rect t)).set ↔ _
  rw [View.set_slice_whole, Rect.mem_set_unit]
  exact Iff.rfl

/-- Every row is in the block of the point that handles its group of four. -/
theorem cover35 (i : S128x1x1.Idx) :
    ∃ t : Fin cfg0.N, (cfg0.win 35).flush t = true ∧ i ∈ ((cfg0.win 35).blk t).view.set := by
  have hi0 : (i 0).val < 128 := (i 0).isLt
  have hi1 : (i 1).val < 1 := (i 1).isLt
  have hi2 : (i 2).val < 1 := (i 2).isLt
  have hN : cfg0.N = 32 := N_0
  have ht : (i 0).val / 4 < cfg0.N := by omega
  obtain ⟨e0, e1, e2⟩ := idx35 ⟨(i 0).val / 4, ht⟩
  have e0' : win0_35.index ⟨(i 0).val / 4, ht⟩ (0 : Fin 3) = (i 0).val / 4 := e0
  refine ⟨⟨(i 0).val / 4, ht⟩, flush0_35 _, ?_⟩
  rw [mem_blk35]
  intro a
  match a with
  | ⟨0, _⟩ =>
    show win0_35.index ⟨(i 0).val / 4, ht⟩ (0 : Fin 3) * 4 ≤ (i 0).val ∧ (i 0).val < win0_35.index ⟨(i 0).val / 4, ht⟩ (0 : Fin 3) * 4 + 4
    omega
  | ⟨1, _⟩ =>
    show win0_35.index ⟨(i 0).val / 4, ht⟩ (1 : Fin 3) * 1 ≤ (i 1).val ∧ (i 1).val < win0_35.index ⟨(i 0).val / 4, ht⟩ (1 : Fin 3) * 1 + 1
    omega
  | ⟨2, _⟩ =>
    show win0_35.index ⟨(i 0).val / 4, ht⟩ (2 : Fin 3) * 1 ≤ (i 2).val ∧ (i 2).val < win0_35.index ⟨(i 0).val / 4, ht⟩ (2 : Fin 3) * 1 + 1
    omega

/-- THE ARRAY after the region. -/
theorem final35 (c : Dev nD) :
    (dats m 0 c).arrAt 35 cfg0.N
      = distArr325 (V m c main_arg24) (V m c main_arg26) (V m c main_arg25) (V m c main_arg27)
          (V m c main_arg28) (V m c main_v6) (V m c main_arg30) (V m c main_v7) :=
  (dats m 0 c).arrAt_eq_of_cover 35 _ (fun t _ => flushed35_eq m c t) cover35

end Cert.KernelIdeal.Bridge

end
-- ==== Proof.GcnResult.lean ====
/-
  A scale's result: the distance of every sample, as a length-128 vector of the eight argument arrays.

  For the scale of extent n the arguments are the two feature arrays x1, x2 and the two adjacency arrays a1, a2
  ([128,n,n]), the weights W1 ([n,h1]) and W2 ([h1,h2]) and the biases b1 ([h1]) and b2 ([h2]), in the argument order
  x1, x2, a1, a2, W1, b1, W2, b2. Entry b of the result is `GcnSpec.dist` of sample b's four slabs.
-/
import Idealize.ShloMosaic.Lib.ValueIdx
import proofs.«125226_g50010599194667_cont_sun_m_1001_24_alg».proof.Proof.GcnSpec

noncomputable section

open Idealize.ShloMosaic Idealize.ShloMosaic.ValueIdx

namespace GcnSpec

/-- The result vector of one scale. -/
def resultArr {B n h1 h2 : ℕ} (ε : EReal) (x1 x2 a1 a2 : (⟨3, ![B, n, n]⟩ : Shape).Idx → EReal)
    (W1 : (⟨2, ![n, h1]⟩ : Shape).Idx → EReal) (b1 : (⟨1, ![h1]⟩ : Shape).Idx → EReal)
    (W2 : (⟨2, ![h1, h2]⟩ : Shape).Idx → EReal) (b2 : (⟨1, ![h2]⟩ : Shape).Idx → EReal) :
    (⟨1, ![B]⟩ : Shape).Idx → EReal := fun i =>
  dist ε (fun p q => x1 (ix3 (i 0) p q)) (fun p q => a1 (ix3 (i 0) p q))
    (fun p q => x2 (ix3 (i 0) p q)) (fun p q => a2 (ix3 (i 0) p q))
    (fun d e => W1 (ix2 d e)) (fun e => b1 (ix1 e)) (fun e q => W2 (ix2 e q)) (fun q => b2 (ix1 q))

end GcnSpec

end
-- ==== Proof.KernelRun.lean ====
/-
  The idealized kernel's run, read: each result vector as one function of the argument arrays.

  Before the region the host re-lays each bias vector [h] as a row [1,h]; after it, it squeezes each [128,1,1] output
  array to [128]. Through both, result s of the program is the scale's result vector of its eight argument arrays,
  and the argument arrays end unchanged.
-/
import proofs.«125226_g50010599194667_cont_sun_m_1001_24_alg».proof.Proof.KernelArrays
import proofs.«125226_g50010599194667_cont_sun_m_1001_24_alg».proof.Proof.GcnResult
import Idealize.ShloMosaic.Lib.StableHlo.Run
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- An [a,1,1] array squeezed to [a] reads, at i, the operand at (i, 0, 0). -/
theorem shapeCast_a11_a_apply {α : Type} {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-! ## The bias rows the host lays out before the region -/

theorem V_v0 (c : Dev nD) :
    (V m c main_v0 : S1x64.Idx → Elt Ideal .f32)
      = shapeCast S1x64 (m ((c : Thread nD τ).loc main_arg5)) shapeCasts_S64_S1x64 := by
  show StableHlo.after hostOps0 (fun b => m (c, b)) (Proc.devRef .tc main_v0) = _
  after_results
  rfl

theorem V_v1 (c : Dev nD) :
    (V m c main_v1 : S1x32.Idx → Elt Ideal .f32)
      = shapeCast S1x32 (m ((c : Thread nD τ).loc main_arg7)) shapeCasts_S32_S1x32 := by
  show StableHlo.after hostOps0 (fun b => m (c, b)) (Proc.devRef .tc main_v1) = _
  after_results
  rfl

theorem V_v2 (c : Dev nD) :
    (V m c main_v2 : S1x64.Idx → Elt Ideal .f32)
      = shapeCast S1x64 (m ((c : Thread nD τ).loc main_arg13)) shapeCasts_S64_S1x64 := by
  show StableHlo.after hostOps0 (fun b => m (c, b)) (Proc.devRef .tc main_v2) = _
  after_results
  rfl

theorem V_v3 (c : Dev nD) :
    (V m c main_v3 : S1x32.Idx → Elt Ideal .f32)
      = shapeCast S1x32 (m ((c : Thread nD τ).loc main_arg15)) shapeCasts_S32_S1x32 := by
  show StableHlo.after hostOps0 (fun b => m (c, b)) (Proc.devRef .tc main_v3) = _
  after_results
  rfl

theorem V_v4 (c : Dev nD) :
    (V m c main_v4 : S1x64.Idx → Elt Ideal .f32)
      = shapeCast S1x64 (m ((c : Thread nD τ).loc main_arg21)) shapeCasts_S64_S1x64 := by
  show StableHlo.after hostOps0 (fun b => m (c, b)) (Proc.devRef .tc main_v4) = _
  after_results
  rfl

theorem V_v5 (c : Dev nD) :
    (V m c main_v5 : S1x32.Idx → Elt Ideal .f32)
      = shapeCast S1x32 (m ((c : Thread nD τ).loc main_arg23)) shapeCasts_S32_S1x32 := by
  show StableHlo.after hostOps0 (fun b => m (c, b)) (Proc.devRef .tc main_v5) = _
  after_results
  rfl

theorem V_v6 (c : Dev nD) :
    (V m c main_v6 : S1x64.Idx → Elt Ideal .f32)
      = shapeCast S1x64 (m ((c : Thread nD τ).loc main_arg29)) shapeCasts_S64_S1x64 := by
  show StableHlo.after hostOps0 (fun b => m (c, b)) (Proc.devRef .tc main_v6) = _
  after_results
  rfl

theorem V_v7 (c : Dev nD) :
    (V m c main_v7 : S1x32.Idx → Elt Ideal .f32)
      = shapeCast S1x32 (m ((c : Thread nD τ).loc main_arg31)) shapeCasts_S32_S1x32 := by
  show StableHlo.after hostOps0 (fun b => m (c, b)) (Proc.devRef .tc main_v7) = _
  after_results
  rfl

/-! ## The results after the host's squeeze -/

/-- The scale's [128,1,1] distance array of the bias rows, squeezed, is the scale's result vector of the bias vectors. -/
theorem squeeze116 (X1 X2 A1 A2 : S128x116x116.Idx → Elt Ideal .f32) (W1 : S116x64.Idx → Elt Ideal .f32)
    (b1 : S64.Idx → Elt Ideal .f32) (W2 : S64x32.Idx → Elt Ideal .f32) (b2 : S32.Idx → Elt Ideal .f32) :
    shapeCast S128 (distArr116 X1 A1 X2 A2 W1 (shapeCast S1x64 b1 shapeCasts_S64_S1x64) W2
        (shapeCast S1x32 b2 shapeCasts_S32_S1x32)) shapeCasts_S128x1x1_S128
      = GcnSpec.resultArr (Ideal.ofBits .f32 0x2B8CBCCC#32) X1 X2 A1 A2 W1 b1 W2 b2 := by
  funext i
  obtain ⟨b, rfl⟩ : ∃ b : Fin 128, i = ix1 b := ⟨i 0, eq_ix1 i⟩
  refine (shapeCast_a11_a_apply _ _ b).trans ?_
  have hb1 : (fun e : Fin 64 => shapeCast S1x64 b1 shapeCasts_S64_S1x64 (ix2 (0 : Fin 1) e)) = fun e => b1 (ix1 e) :=
    funext fun e => shapeCast_a_1a_apply _ _ 0 e
  have hb2 : (fun q : Fin 32 => shapeCast S1x32 b2 shapeCasts_S32_S1x32 (ix2 (0 : Fin 1) q)) = fun q => b2 (ix1 q) :=
    funext fun q => shapeCast_a_1a_apply _ _ 0 q
  show GcnSpec.dist _ _ _ _ _ _ (fun e : Fin 64 => shapeCast S1x64 b1 shapeCasts_S64_S1x64 (ix2 (0 : Fin 1) e)) _
    (fun q : Fin 32 => shapeCast S1x32 b2 shapeCasts_S32_S1x32 (ix2 (0 : Fin 1) q)) = _
  rw [hb1, hb2]
  rfl

/-- Result 0: the scale of extent 116. -/
theorem result0 (c : Dev nD) :
    Pipeline.afterTail₀ cfgs (dats m) 0 (V0 m) [hostOps1] c main_v9
      = GcnSpec.resultArr (Ideal.ofBits .f32 0x2B8CBCCC#32) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v9) = _
  after_results
  rw [Pipeline.withArrays_arr spec0 launch0.win.arr_inj c _ _ 32, final32, V_main_arg0, V_main_arg1, V_main_arg2,
    V_main_arg3, V_main_arg4, V_main_arg6, V_v0, V_v1]
  exact squeeze116 _ _ _ _ _ _ _ _

/-- The scale's [128,1,1] distance array of the bias rows, squeezed, is the scale's result vector of the bias vectors. -/
theorem squeeze200 (X1 X2 A1 A2 : S128x200x200.Idx → Elt Ideal .f32) (W1 : S200x64.Idx → Elt Ideal .f32)
    (b1 : S64.Idx → Elt Ideal .f32) (W2 : S64x32.Idx → Elt Ideal .f32) (b2 : S32.Idx → Elt Ideal .f32) :
    shapeCast S128 (distArr200 X1 A1 X2 A2 W1 (shapeCast S1x64 b1 shapeCasts_S64_S1x64) W2
        (shapeCast S1x32 b2 shapeCasts_S32_S1x32)) shapeCasts_S128x1x1_S128
      = GcnSpec.resultArr (Ideal.ofBits .f32 0x2B8CBCCC#32) X1 X2 A1 A2 W1 b1 W2 b2 := by
  funext i
  obtain ⟨b, rfl⟩ : ∃ b : Fin 128, i = ix1 b := ⟨i 0, eq_ix1 i⟩
  refine (shapeCast_a11_a_apply _ _ b).trans ?_
  have hb1 : (fun e : Fin 64 => shapeCast S1x64 b1 shapeCasts_S64_S1x64 (ix2 (0 : Fin 1) e)) = fun e => b1 (ix1 e) :=
    funext fun e => shapeCast_a_1a_apply _ _ 0 e
  have hb2 : (fun q : Fin 32 => shapeCast S1x32 b2 shapeCasts_S32_S1x32 (ix2 (0 : Fin 1) q)) = fun q => b2 (ix1 q) :=
    funext fun q => shapeCast_a_1a_apply _ _ 0 q
  show GcnSpec.dist _ _ _ _ _ _ (fun e : Fin 64 => shapeCast S1x64 b1 shapeCasts_S64_S1x64 (ix2 (0 : Fin 1) e)) _
    (fun q : Fin 32 => shapeCast S1x32 b2 shapeCasts_S32_S1x32 (ix2 (0 : Fin 1) q)) = _
  rw [hb1, hb2]
  rfl

/-- Result 1: the scale of extent 200. -/
theorem result1 (c : Dev nD) :
    Pipeline.afterTail₀ cfgs (dats m) 0 (V0 m) [hostOps1] c main_v10
      = GcnSpec.resultArr (Ideal.ofBits .f32 0x2B8CBCCC#32) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after hostOps1 _ (Proc.devRef .tc main_v10) = _
  after_results
  rw [Pipeline.withArrays_arr spec0 launch0.win.arr_inj c _ _ 33, final33, V_main_arg8, V_main_arg9, V_main_arg10,
    V_main_arg11, V_main_arg12, V_main_arg14, V_v2, V_v3]
  exact squeeze200 _ _ _ _ _ _ _ _

/-- The scale's [128,1,1] distance array of the bias rows, squeezed, is the scale's result vector of the bias vectors. -/
theorem squeeze264 (X1 X2 A1 A2 : S128x264x264.Idx → Elt Ideal .f32) (W1 : S264x64.Idx → Elt Ideal .f32)
    (b1 : S64.Idx → Elt Ideal .f32) (W2 : S64x32.Idx → Elt Ideal .f32) (b2 : S32.Idx → Elt Ideal .f32) :
    shapeCast S128 (distArr264 X1 A1 X2 A2 W1 (shapeCast S1x64 b1 shapeCasts_S64_S1x64) W2
        (shapeCast S1x32 b2 shapeCasts_S32_S1x32)) shapeCasts_S128x1x1_S128
      = GcnSpec.resultArr (Ideal.ofBits .f32 0x2B8CBCCC#32) X1 X2 A1 A2 W1 b1 W2 b2 := by
  funext i
  obtain ⟨b, rfl⟩ : ∃ b : Fin 128, i = ix1 b := ⟨i 0, eq_ix1 i⟩
  refine (shapeCast_a11_a_apply _ _ b).trans ?_
  have hb1 : (fun e : Fin 64 => shapeCast S1x64 b1 shapeCasts_S64_S1x64 (ix2 (0 : Fin 1) e)) = fun e => b1 (ix1 e) :=
    funext fun e => shapeCast_a_1a_apply _ _ 0 e
  have hb2 : (fun q : Fin 32 => shapeCast S1x32 b2 shapeCasts_S32_S1x32 (ix2 (0 : Fin 1) q)) = fun q => b2 (ix1 q) :=
    funext fun q => shapeCast_a_1a_apply _ _ 0 q
  show GcnSpec.dist _ _ _ _ _ _ (fun e : Fin 64 => shapeCast S1x64 b1 shapeCasts_S64_S1x64 (ix2 (0 : Fin 1) e)) _
    (fun q : Fin 32 => shapeCast S1x32 b2 shapeCasts_S32_S1x32 (ix2 (0 : Fin 1) q)) = _
  rw [hb1, hb2]
  rfl

/-- Result 2: the scale of extent 264. -/
theorem result2 (c : Dev nD) :
    Pipeline.afterTail₀ cfgs (dats m) 0 (V0 m) [hostOps1] c main_v11
      = GcnSpec.resultArr (Ideal.ofBits .f32 0x2B8CBCCC#32) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold Pipeline.afterTail₀
  show StableHlo.after hostOps1 _ (Proc.devRef .tc main_v11) = _
  after_results
  rw [Pipeline.withArrays_arr spec0 launch0.win.arr_inj c _ _ 34, final34, V_main_arg16, V_main_arg17, V_main_arg18,
    V_main_arg19, V_main_arg20, V_main_arg22, V_v4, V_v5]
  exact squeeze264 _ _ _ _ _ _ _ _

/-- The scale's [128,1,1] distance array of the bias rows, squeezed, is the scale's result vector of the bias vectors. -/
theorem squeeze325 (X1 X2 A1 A2 : S128x325x325.Idx → Elt Ideal .f32) (W1 : S325x64.Idx → Elt Ideal .f32)
    (b1 : S64.Idx → Elt Ideal .f32) (W2 : S64x32.Idx → Elt Ideal .f32) (b2 : S32.Idx → Elt Ideal .f32) :
    shapeCast S128 (distArr325 X1 A1 X2 A2 W1 (shapeCast S1x64 b1 shapeCasts_S64_S1x64) W2
        (shapeCast S1x32 b2 shapeCasts_S32_S1x32)) shapeCasts_S128x1x1_S128
      = GcnSpec.resultArr (Ideal.ofBits .f32 0x2B8CBCCC#32) X1 X2 A1 A2 W1 b1 W2 b2 := by
  funext i
  obtain ⟨b, rfl⟩ : ∃ b : Fin 128, i = ix1 b := ⟨i 0, eq_ix1 i⟩
  refine (shapeCast_a11_a_apply _ _ b).trans ?_
  have hb1 : (fun e : Fin 64 => shapeCast S1x64 b1 shapeCasts_S64_S1x64 (ix2 (0 : Fin 1) e)) = fun e => b1 (ix1 e) :=
    funext fun e => shapeCast_a_1a_apply _ _ 0 e
  have hb2 : (fun q : Fin 32 => shapeCast S1x32 b2 shapeCasts_S32_S1x32 (ix2 (0 : Fin 1) q)) = fun q => b2 (ix1 q) :=
    funext fun q => shapeCast_a_1a_apply _ _ 0 q
  show GcnSpec.dist _ _ _ _ _ _ (fun e : Fin 64 => shapeCast S1x64 b1 shapeCasts_S64_S1x64 (ix2 (0 : Fin 1) e)) _
    (fun q : Fin 32 => shapeCast S1x32 b2 shapeCasts_S32_S1x32 (ix2 (0 : Fin 1) q)) = _
  rw [hb1, hb2]
  rfl

/-- Result 3: the scale of extent 325. -/
theorem result3 (c : Dev nD) :
    Pipeline.afterTail₀ cfgs (dats m) 0 (V0 m) [hostOps1] c main_v12
      = GcnSpec.resultArr (Ideal.ofBits .f32 0x2B8CBCCC#32) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) := by
  unfold Pipeline.afterTail₀
  show StableHlo.after hostOps1 _ (Proc.devRef .tc main_v12) = _
  after_results
  rw [Pipeline.withArrays_arr spec0 launch0.win.arr_inj c _ _ 35, final35, V_main_arg24, V_main_arg25, V_main_arg26,
    V_main_arg27, V_main_arg28, V_main_arg30, V_v6, V_v7]
  exact squeeze325 _ _ _ _ _ _ _ _

/-! ## The run -/

set_option maxHeartbeats 4000000 in
/-- Every weakly fair execution of the idealized kernel terminates with each result at its scale's result vector of the
    argument arrays, and the argument arrays unchanged. -/
theorem run : θ_run defs (onTc (τ := τ) (main (F := Ideal))) ⟨m, fun _ => 0, ρ⟩ fun r => ∀ c : Dev nD,
      r.2.mem ((c.tc : Thread nD τ).loc main_v9) = GcnSpec.resultArr (Ideal.ofBits .f32 0x2B8CBCCC#32) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧       r.2.mem ((c.tc : Thread nD τ).loc main_v10) = GcnSpec.resultArr (Ideal.ofBits .f32 0x2B8CBCCC#32) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧       r.2.mem ((c.tc : Thread nD τ).loc main_v11) = GcnSpec.resultArr (Ideal.ofBits .f32 0x2B8CBCCC#32) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
      ∧       r.2.mem ((c.tc : Thread nD τ).loc main_v12) = GcnSpec.resultArr (Ideal.ofBits .f32 0x2B8CBCCC#32) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun r h c => ⟨((h c).2 main_v9 (Pipeline.mem_restRefs_of main_v9 (by decide) (by decide))).trans (result0 m c),
      ((h c).2 main_v10 (Pipeline.mem_restRefs_of main_v10 (by decide) (by decide))).trans (result1 m c),
      ((h c).2 main_v11 (Pipeline.mem_restRefs_of main_v11 (by decide) (by decide))).trans (result2 m c),
      ((h c).2 main_v12 (Pipeline.mem_restRefs_of main_v12 (by decide) (by decide))).trans (result3 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 16).trans (((dats m 0 c).arrAt_in 16 rfl _).trans ((A_eq m c 16).trans (V_main_arg4 m c))),
      ((h c).2 main_arg5 (Pipeline.mem_restRefs_of main_arg5 (by decide) (by decide))).trans (W_main_arg5 m (dats m) c),
      ((h c).1 18).trans (((dats m 0 c).arrAt_in 18 rfl _).trans ((A_eq m c 18).trans (V_main_arg6 m c))),
      ((h c).2 main_arg7 (Pipeline.mem_restRefs_of main_arg7 (by decide) (by decide))).trans (W_main_arg7 m (dats m) c),
      ((h c).1 4).trans (((dats m 0 c).arrAt_in 4 rfl _).trans ((A_eq m c 4).trans (V_main_arg8 m c))),
      ((h c).1 6).trans (((dats m 0 c).arrAt_in 6 rfl _).trans ((A_eq m c 6).trans (V_main_arg9 m c))),
      ((h c).1 5).trans (((dats m 0 c).arrAt_in 5 rfl _).trans ((A_eq m c 5).trans (V_main_arg10 m c))),
      ((h c).1 7).trans (((dats m 0 c).arrAt_in 7 rfl _).trans ((A_eq m c 7).trans (V_main_arg11 m c))),
      ((h c).1 20).trans (((dats m 0 c).arrAt_in 20 rfl _).trans ((A_eq m c 20).trans (V_main_arg12 m c))),
      ((h c).2 main_arg13 (Pipeline.mem_restRefs_of main_arg13 (by decide) (by decide))).trans (W_main_arg13 m (dats m) c),
      ((h c).1 22).trans (((dats m 0 c).arrAt_in 22 rfl _).trans ((A_eq m c 22).trans (V_main_arg14 m c))),
      ((h c).2 main_arg15 (Pipeline.mem_restRefs_of main_arg15 (by decide) (by decide))).trans (W_main_arg15 m (dats m) c),
      ((h c).1 8).trans (((dats m 0 c).arrAt_in 8 rfl _).trans ((A_eq m c 8).trans (V_main_arg16 m c))),
      ((h c).1 10).trans (((dats m 0 c).arrAt_in 10 rfl _).trans ((A_eq m c 10).trans (V_main_arg17 m c))),
      ((h c).1 9).trans (((dats m 0 c).arrAt_in 9 rfl _).trans ((A_eq m c 9).trans (V_main_arg18 m c))),
      ((h c).1 11).trans (((dats m 0 c).arrAt_in 11 rfl _).trans ((A_eq m c 11).trans (V_main_arg19 m c))),
      ((h c).1 24).trans (((dats m 0 c).arrAt_in 24 rfl _).trans ((A_eq m c 24).trans (V_main_arg20 m c))),
      ((h c).2 main_arg21 (Pipeline.mem_restRefs_of main_arg21 (by decide) (by decide))).trans (W_main_arg21 m (dats m) c),
      ((h c).1 26).trans (((dats m 0 c).arrAt_in 26 rfl _).trans ((A_eq m c 26).trans (V_main_arg22 m c))),
      ((h c).2 main_arg23 (Pipeline.mem_restRefs_of main_arg23 (by decide) (by decide))).trans (W_main_arg23 m (dats m) c),
      ((h c).1 12).trans (((dats m 0 c).arrAt_in 12 rfl _).trans ((A_eq m c 12).trans (V_main_arg24 m c))),
      ((h c).1 14).trans (((dats m 0 c).arrAt_in 14 rfl _).trans ((A_eq m c 14).trans (V_main_arg25 m c))),
      ((h c).1 13).trans (((dats m 0 c).arrAt_in 13 rfl _).trans ((A_eq m c 13).trans (V_main_arg26 m c))),
      ((h c).1 15).trans (((dats m 0 c).arrAt_in 15 rfl _).trans ((A_eq m c 15).trans (V_main_arg27 m c))),
      ((h c).1 28).trans (((dats m 0 c).arrAt_in 28 rfl _).trans ((A_eq m c 28).trans (V_main_arg28 m c))),
      ((h c).2 main_arg29 (Pipeline.mem_restRefs_of main_arg29 (by decide) (by decide))).trans (W_main_arg29 m (dats m) c),
      ((h c).1 30).trans (((dats m 0 c).arrAt_in 30 rfl _).trans ((A_eq m c 30).trans (V_main_arg30 m c))),
      ((h c).2 main_arg31 (Pipeline.mem_restRefs_of main_arg31 (by decide) (by decide))).trans (W_main_arg31 m (dats m) c)⟩)
    (run_main m ρ)

end Cert.KernelIdeal.Bridge

end
-- ==== Proof.LibSumFinMul.lean ====
/-
  A sum over the positions of a row-major flattening of an m×n grid is the double sum over rows and columns.

  Position k of `Fin (m * n)` is `q + n * p` for exactly one row p and column q (Mathlib's `finProdFinEquiv`), so in any
  commutative additive monoid the sum over the positions is the iterated sum over p and q of the term at that position.
-/
import Mathlib.Algebra.BigOperators.Fin
import Mathlib.Logic.Equiv.Fin.Basic

open scoped BigOperators

namespace SumFinMul

/-- `∑ k : Fin (m * n), f k = ∑ p, ∑ q, f (q + n * p)`. -/
theorem sum_fin_mul {M : Type*} [AddCommMonoid M] (m n : ℕ) (f : Fin (m * n) → M) :
    ∑ k, f k = ∑ p : Fin m, ∑ q : Fin n, f (finProdFinEquiv (p, q)) := by
  rw [← Equiv.sum_comp finProdFinEquiv f, Fintype.sum_prod_type]

/-- The position of row p, column q. -/
theorem finProdFinEquiv_val {m n : ℕ} (p : Fin m) (q : Fin n) : (finProdFinEquiv (p, q)).val = q.val + n * p.val := rfl

end SumFinMul
-- ==== Proof.RefScaleA.lean ====
/-
  The reference's distance for the scale of extent 116, read at a sample.

  The reference works on all 128 samples at once: two batched products, a bias, a clamp, twice; the two branches'
  outputs flattened to 3712 = 116·32 entries per sample, subtracted, squared, summed, ε added, square root. Read at
  sample b, each product is a sum over its contracted coordinate and the flattened sum is the double sum over the
  116 rows and 32 columns, so the result is the specification's distance of sample b's slabs.
-/
import proofs.«125226_g50010599194667_cont_sun_m_1001_24_alg».proof.Proof.Gen.ReferenceIdeal.Read
import proofs.«125226_g50010599194667_cont_sun_m_1001_24_alg».proof.Proof.GcnResult
import proofs.«125226_g50010599194667_cont_sun_m_1001_24_alg».proof.Proof.LibSumFinMul
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

section Scale
variable (x0 x1 x2 x3 : (⟨S128x116x116, .f32⟩ : BufTy).Contents (Elt Ideal))
variable (x4 : (⟨S116x64, .f32⟩ : BufTy).Contents (Elt Ideal)) (x5 : (⟨S64, .f32⟩ : BufTy).Contents (Elt Ideal))
variable (x6 : (⟨S64x32, .f32⟩ : BufTy).Contents (Elt Ideal)) (x7 : (⟨S32, .f32⟩ : BufTy).Contents (Elt Ideal))

/-- x·W1 at (b, c, e): the sum over the feature coordinate. -/
theorem a_xw (b : Fin 128) (c : Fin 116) (e : Fin 64) :
    val_main_v0 (F := Ideal) x0 x4 (ix3 b c e) = ∑ d : Fin 116, x0 (ix3 b c d) * x4 (ix2 d e) := by
  rw [val_main_v0_apply]
  refine Finset.sum_congr rfl fun k _ => ?_
  have hl : lidx_main_v0 (ix3 b c e) k = ix3 b c k := funext fun a => by match a with | ⟨0, _⟩ => rfl | ⟨1, _⟩ => rfl | ⟨2, _⟩ => rfl
  have hr : ridx_main_v0 (ix3 b c e) k = ix2 k e := funext fun a => by match a with | ⟨0, _⟩ => rfl | ⟨1, _⟩ => rfl
  rw [hl, hr]

/-- a·(x·W1) at (b, r, e): the sum over the neighbour coordinate. -/
theorem a_axw (b : Fin 128) (r : Fin 116) (e : Fin 64) :
    val_main_v1 (F := Ideal) x0 x2 x4 (ix3 b r e)
      = ∑ c : Fin 116, x2 (ix3 b r c) * val_main_v0 (F := Ideal) x0 x4 (ix3 b c e) := by
  rw [val_main_v1_apply]
  refine Finset.sum_congr rfl fun k _ => ?_
  have hl : lidx_main_v1 (ix3 b r e) k = ix3 b r k := funext fun a => by match a with | ⟨0, _⟩ => rfl | ⟨1, _⟩ => rfl | ⟨2, _⟩ => rfl
  have hr : ridx_main_v1 (ix3 b r e) k = ix3 b k e := funext fun a => by match a with | ⟨0, _⟩ => rfl | ⟨1, _⟩ => rfl | ⟨2, _⟩ => rfl
  rw [hl, hr]

/-- The first bias broadcast over samples and rows. -/
theorem a_b1 (b : Fin 128) (r : Fin 116) (e : Fin 64) : val_main_v3 (F := Ideal) x5 (ix3 b r e) = x5 (ix1 e) := by
  rw [val_main_v3_apply, val_main_v2_apply]
  exact congrArg x5 (funext fun a => by match a with | ⟨0, _⟩ => rfl)

/-- The first layer after its clamp. -/
theorem a_hid (b : Fin 128) (r : Fin 116) (e : Fin 64) :
    val_main_v5 (F := Ideal) x0 x2 x4 x5 (ix3 b r e)
      = max (val_main_v1 (F := Ideal) x0 x2 x4 (ix3 b r e) + x5 (ix1 e)) 0 := by
  rw [val_main_v5_apply, val_main_v4_apply, a_b1, val_main_call0_v0_apply, val_main_call0_cst_apply]
  show max (_ + _) (Ideal.ofBits .f32 0x00000000#32) = _
  rw [Ideal.ofBits_zero_f32]

/-- hidden·W2 at (b, c, q): the sum over the hidden coordinate. -/
theorem a_hw (b : Fin 128) (c : Fin 116) (q : Fin 32) :
    val_main_v6 (F := Ideal) x0 x2 x4 x5 x6 (ix3 b c q)
      = ∑ e : Fin 64, val_main_v5 (F := Ideal) x0 x2 x4 x5 (ix3 b c e) * x6 (ix2 e q) := by
  rw [val_main_v6_apply]
  refine Finset.sum_congr rfl fun k _ => ?_
  have hl : lidx_main_v6 (ix3 b c q) k = ix3 b c k := funext fun a => by match a with | ⟨0, _⟩ => rfl | ⟨1, _⟩ => rfl | ⟨2, _⟩ => rfl
  have hr : ridx_main_v6 (ix3 b c q) k = ix2 k q := funext fun a => by match a with | ⟨0, _⟩ => rfl | ⟨1, _⟩ => rfl
  rw [hl, hr]

/-- a·(hidden·W2) at (b, p, q). -/
theorem a_ahw (b : Fin 128) (p : Fin 116) (q : Fin 32) :
    val_main_v7 (F := Ideal) x0 x2 x4 x5 x6 (ix3 b p q)
      = ∑ c : Fin 116, x2 (ix3 b p c) * val_main_v6 (F := Ideal) x0 x2 x4 x5 x6 (ix3 b c q) := by
  rw [val_main_v7_apply]
  refine Finset.sum_congr rfl fun k _ => ?_
  have hl : lidx_main_v7 (ix3 b p q) k = ix3 b p k := funext fun a => by match a with | ⟨0, _⟩ => rfl | ⟨1, _⟩ => rfl | ⟨2, _⟩ => rfl
  have hr : ridx_main_v7 (ix3 b p q) k = ix3 b k q := funext fun a => by match a with | ⟨0, _⟩ => rfl | ⟨1, _⟩ => rfl | ⟨2, _⟩ => rfl
  rw [hl, hr]

/-- The second bias broadcast over samples and rows. -/
theorem a_b2 (b : Fin 128) (p : Fin 116) (q : Fin 32) : val_main_v9 (F := Ideal) x7 (ix3 b p q) = x7 (ix1 q) := by
  rw [val_main_v9_apply, val_main_v8_apply]
  exact congrArg x7 (funext fun a => by match a with | ⟨0, _⟩ => rfl)

/-- One branch of the reference at (b, p, q) is the specification's branch of sample b's slabs. -/
theorem a_branch (b : Fin 128) (p : Fin 116) (q : Fin 32) :
    val_main_v11 (F := Ideal) x0 x2 x4 x5 x6 x7 (ix3 b p q)
      = GcnSpec.branch (fun i j => x0 (ix3 b i j)) (fun i j => x2 (ix3 b i j)) (fun d e => x4 (ix2 d e))
          (fun e => x5 (ix1 e)) (fun e q => x6 (ix2 e q)) (fun q => x7 (ix1 q)) p q := by
  rw [val_main_v11_apply, val_main_v10_apply, a_b2, val_main_call1_v0_apply, val_main_call1_cst_apply, a_ahw]
  show max (_ + _) (Ideal.ofBits .f32 0x00000000#32) = _
  rw [Ideal.ofBits_zero_f32]
  unfold GcnSpec.branch GcnSpec.hidden
  simp only [a_hw, a_hid, a_axw, a_xw]

end Scale

/-- The second branch is the first branch's function of the other pair of slabs. -/
theorem a_second (x1 x3 : (⟨S128x116x116, .f32⟩ : BufTy).Contents (Elt Ideal))
    (x4 : (⟨S116x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v24 (F := Ideal) x1 x3 x4 x5 x6 x7 = val_main_v11 (F := Ideal) x1 x3 x4 x5 x6 x7 := rfl

/-- The flattened position of row p, column q of sample b is read back as (b, p, q). -/
theorem a_unflatten (i : S128.Idx) (p : Fin 116) (q : Fin 32) :
    idx_main_v12 (idx_main_v28 i (finProdFinEquiv (p, q))) = ix3 (n0 := 128) (n1 := 116) (n2 := 32) (i 0) p q := by
  have hp := p.isLt
  have hq := q.isLt
  have hi : (i 0).val < 128 := (i 0).isLt
  funext a
  match a with
  | ⟨0, _⟩ => exact Fin.ext (by show ((i 0).val * 3712 + (q.val + 32 * p.val)) / 3712 = (i 0).val; omega)
  | ⟨1, _⟩ => exact Fin.ext (by show ((i 0).val * 3712 + (q.val + 32 * p.val)) / 32 % 116 = p.val; omega)
  | ⟨2, _⟩ => exact Fin.ext (by show ((i 0).val * 3712 + (q.val + 32 * p.val)) % 32 = q.val; omega)

/-- The flattened position of row p, column q of sample b is read back as (b, p, q) (second branch's flattening). -/
theorem a_unflatten2 (i : S128.Idx) (p : Fin 116) (q : Fin 32) :
    idx_main_v25 (idx_main_v28 i (finProdFinEquiv (p, q))) = ix3 (n0 := 128) (n1 := 116) (n2 := 32) (i 0) p q := by
  have hp := p.isLt
  have hq := q.isLt
  have hi : (i 0).val < 128 := (i 0).isLt
  funext a
  match a with
  | ⟨0, _⟩ => exact Fin.ext (by show ((i 0).val * 3712 + (q.val + 32 * p.val)) / 3712 = (i 0).val; omega)
  | ⟨1, _⟩ => exact Fin.ext (by show ((i 0).val * 3712 + (q.val + 32 * p.val)) / 32 % 116 = p.val; omega)
  | ⟨2, _⟩ => exact Fin.ext (by show ((i 0).val * 3712 + (q.val + 32 * p.val)) % 32 = q.val; omega)

/-- THE REFERENCE's result for this scale at sample `i`: the specification's distance of that sample's slabs. -/
theorem a_dist (x0 x1 x2 x3 : (⟨S128x116x116, .f32⟩ : BufTy).Contents (Elt Ideal))
    (x4 : (⟨S116x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) (i : S128.Idx) :
    val_main_v31 (F := Ideal) x0 x1 x2 x3 x4 x5 x6 x7 i
      = GcnSpec.dist (Ideal.ofBits .f32 0x2B8CBCCC#32)
          (fun p q => x0 (ix3 (i 0) p q)) (fun p q => x2 (ix3 (i 0) p q))
          (fun p q => x1 (ix3 (i 0) p q)) (fun p q => x3 (ix3 (i 0) p q))
          (fun d e => x4 (ix2 d e)) (fun e => x5 (ix1 e)) (fun e q => x6 (ix2 e q)) (fun q => x7 (ix1 q)) := by
  rw [val_main_v31_apply, val_main_v30_apply, val_main_v28_apply, val_main_v29_apply, val_main_cst_apply, val_main_cst_0_apply]
  unfold GcnSpec.dist
  show Ideal.sqrt ((Ideal.ofBits .f32 0x00000000#32
      + ∑ k : Fin (116 * 32), val_main_v27 (F := Ideal) x0 x1 x2 x3 x4 x5 x6 x7 (idx_main_v28 i k))
      + Ideal.ofBits .f32 0x2B8CBCCC#32) = _
  rw [Ideal.ofBits_zero_f32, zero_add, SumFinMul.sum_fin_mul]
  congr 2
  refine Finset.sum_congr rfl fun p _ => Finset.sum_congr rfl fun q _ => ?_
  rw [val_main_v27_apply, val_main_v26_apply, val_main_v12_apply, val_main_v25_apply, a_unflatten, a_unflatten2, a_second]
  have hA := a_branch x0 x2 x4 x5 x6 x7 (i 0) p q
  have hB := a_branch x1 x3 x4 x5 x6 x7 (i 0) p q
  rw [hA, hB]
  rfl

/-- As a whole vector: the scale's result vector of the eight arguments. -/
theorem a_result (x0 x1 x2 x3 : (⟨S128x116x116, .f32⟩ : BufTy).Contents (Elt Ideal))
    (x4 : (⟨S116x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v31 (F := Ideal) x0 x1 x2 x3 x4 x5 x6 x7
      = GcnSpec.resultArr (Ideal.ofBits .f32 0x2B8CBCCC#32) x0 x1 x2 x3 x4 x5 x6 x7 :=
  funext fun i => a_dist x0 x1 x2 x3 x4 x5 x6 x7 i

end Cert.ReferenceIdeal.RefValue

end
-- ==== Proof.RefScaleB.lean ====
/-
  The reference's distance for the scale of extent 200, read at a sample.

  The reference works on all 128 samples at once: two batched products, a bias, a clamp, twice; the two branches'
  outputs flattened to 6400 = 200·32 entries per sample, subtracted, squared, summed, ε added, square root. Read at
  sample b, each product is a sum over its contracted coordinate and the flattened sum is the double sum over the
  200 rows and 32 columns, so the result is the specification's distance of sample b's slabs.
-/
import proofs.«125226_g50010599194667_cont_sun_m_1001_24_alg».proof.Proof.Gen.ReferenceIdeal.Read
import proofs.«125226_g50010599194667_cont_sun_m_1001_24_alg».proof.Proof.GcnResult
import proofs.«125226_g50010599194667_cont_sun_m_1001_24_alg».proof.Proof.LibSumFinMul
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

section Scale
variable (x8 x9 x10 x11 : (⟨S128x200x200, .f32⟩ : BufTy).Contents (Elt Ideal))
variable (x12 : (⟨S200x64, .f32⟩ : BufTy).Contents (Elt Ideal)) (x13 : (⟨S64, .f32⟩ : BufTy).Contents (Elt Ideal))
variable (x14 : (⟨S64x32, .f32⟩ : BufTy).Contents (Elt Ideal)) (x15 : (⟨S32, .f32⟩ : BufTy).Contents (Elt Ideal))

/-- x·W1 at (b, c, e): the sum over the feature coordinate. -/
theorem b_xw (b : Fin 128) (c : Fin 200) (e : Fin 64) :
    val_main_v32 (F := Ideal) x8 x12 (ix3 b c e) = ∑ d : Fin 200, x8 (ix3 b c d) * x12 (ix2 d e) := by
  rw [val_main_v32_apply]
  refine Finset.sum_congr rfl fun k _ => ?_
  have hl : lidx_main_v32 (ix3 b c e) k = ix3 b c k := funext fun a => by match a with | ⟨0, _⟩ => rfl | ⟨1, _⟩ => rfl | ⟨2, _⟩ => rfl
  have hr : ridx_main_v32 (ix3 b c e) k = ix2 k e := funext fun a => by match a with | ⟨0, _⟩ => rfl | ⟨1, _⟩ => rfl
  rw [hl, hr]

/-- a·(x·W1) at (b, r, e): the sum over the neighbour coordinate. -/
theorem b_axw (b : Fin 128) (r : Fin 200) (e : Fin 64) :
    val_main_v33 (F := Ideal) x8 x10 x12 (ix3 b r e)
      = ∑ c : Fin 200, x10 (ix3 b r c) * val_main_v32 (F := Ideal) x8 x12 (ix3 b c e) := by
  rw [val_main_v33_apply]
  refine Finset.sum_congr rfl fun k _ => ?_
  have hl : lidx_main_v33 (ix3 b r e) k = ix3 b r k := funext fun a => by match a with | ⟨0, _⟩ => rfl | ⟨1, _⟩ => rfl | ⟨2, _⟩ => rfl
  have hr : ridx_main_v33 (ix3 b r e) k = ix3 b k e := funext fun a => by match a with | ⟨0, _⟩ => rfl | ⟨1, _⟩ => rfl | ⟨2, _⟩ => rfl
  rw [hl, hr]

/-- The first bias broadcast over samples and rows. -/
theorem b_b1 (b : Fin 128) (r : Fin 200) (e : Fin 64) : val_main_v35 (F := Ideal) x13 (ix3 b r e) = x13 (ix1 e) := by
  rw [val_main_v35_apply, val_main_v34_apply]
  exact congrArg x13 (funext fun a => by match a with | ⟨0, _⟩ => rfl)

/-- The first layer after its clamp. -/
theorem b_hid (b : Fin 128) (r : Fin 200) (e : Fin 64) :
    val_main_v37 (F := Ideal) x8 x10 x12 x13 (ix3 b r e)
      = max (val_main_v33 (F := Ideal) x8 x10 x12 (ix3 b r e) + x13 (ix1 e)) 0 := by
  rw [val_main_v37_apply, val_main_v36_apply, b_b1, val_main_call4_v0_apply, val_main_call4_cst_apply]
  show max (_ + _) (Ideal.ofBits .f32 0x00000000#32) = _
  rw [Ideal.ofBits_zero_f32]

/-- hidden·W2 at (b, c, q): the sum over the hidden coordinate. -/
theorem b_hw (b : Fin 128) (c : Fin 200) (q : Fin 32) :
    val_main_v38 (F := Ideal) x8 x10 x12 x13 x14 (ix3 b c q)
      = ∑ e : Fin 64, val_main_v37 (F := Ideal) x8 x10 x12 x13 (ix3 b c e) * x14 (ix2 e q) := by
  rw [val_main_v38_apply]
  refine Finset.sum_congr rfl fun k _ => ?_
  have hl : lidx_main_v38 (ix3 b c q) k = ix3 b c k := funext fun a => by match a with | ⟨0, _⟩ => rfl | ⟨1, _⟩ => rfl | ⟨2, _⟩ => rfl
  have hr : ridx_main_v38 (ix3 b c q) k = ix2 k q := funext fun a => by match a with | ⟨0, _⟩ => rfl | ⟨1, _⟩ => rfl
  rw [hl, hr]

/-- a·(hidden·W2) at (b, p, q). -/
theorem b_ahw (b : Fin 128) (p : Fin 200) (q : Fin 32) :
    val_main_v39 (F := Ideal) x8 x10 x12 x13 x14 (ix3 b p q)
      = ∑ c : Fin 200, x10 (ix3 b p c) * val_main_v38 (F := Ideal) x8 x10 x12 x13 x14 (ix3 b c q) := by
  rw [val_main_v39_apply]
  refine Finset.sum_congr rfl fun k _ => ?_
  have hl : lidx_main_v39 (ix3 b p q) k = ix3 b p k := funext fun a => by match a with | ⟨0, _⟩ => rfl | ⟨1, _⟩ => rfl | ⟨2, _⟩ => rfl
  have hr : ridx_main_v39 (ix3 b p q) k = ix3 b k q := funext fun a => by match a with | ⟨0, _⟩ => rfl | ⟨1, _⟩ => rfl | ⟨2, _⟩ => rfl
  rw [hl, hr]

/-- The second bias broadcast over samples and rows. -/
theorem b_b2 (b : Fin 128) (p : Fin 200) (q : Fin 32) : val_main_v41 (F := Ideal) x15 (ix3 b p q) = x15 (ix1 q) := by
  rw [val_main_v41_apply, val_main_v40_apply]
  exact congrArg x15 (funext fun a => by match a with | ⟨0, _⟩ => rfl)

/-- One branch of the reference at (b, p, q) is the specification's branch of sample b's slabs. -/
theorem b_branch (b : Fin 128) (p : Fin 200) (q : Fin 32) :
    val_main_v43 (F := Ideal) x8 x10 x12 x13 x14 x15 (ix3 b p q)
      = GcnSpec.branch (fun i j => x8 (ix3 b i j)) (fun i j => x10 (ix3 b i j)) (fun d e => x12 (ix2 d e))
          (fun e => x13 (ix1 e)) (fun e q => x14 (ix2 e q)) (fun q => x15 (ix1 q)) p q := by
  rw [val_main_v43_apply, val_main_v42_apply, b_b2, val_main_call5_v0_apply, val_main_call5_cst_apply, b_ahw]
  show max (_ + _) (Ideal.ofBits .f32 0x00000000#32) = _
  rw [Ideal.ofBits_zero_f32]
  unfold GcnSpec.branch GcnSpec.hidden
  simp only [b_hw, b_hid, b_axw, b_xw]

end Scale

/-- The second branch is the first branch's function of the other pair of slabs. -/
theorem b_second (x1 x3 : (⟨S128x200x200, .f32⟩ : BufTy).Contents (Elt Ideal))
    (x4 : (⟨S200x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v56 (F := Ideal) x1 x3 x4 x5 x6 x7 = val_main_v43 (F := Ideal) x1 x3 x4 x5 x6 x7 := rfl

/-- The flattened position of row p, column q of sample b is read back as (b, p, q). -/
theorem b_unflatten (i : S128.Idx) (p : Fin 200) (q : Fin 32) :
    idx_main_v44 (idx_main_v60 i (finProdFinEquiv (p, q))) = ix3 (n0 := 128) (n1 := 200) (n2 := 32) (i 0) p q := by
  have hp := p.isLt
  have hq := q.isLt
  have hi : (i 0).val < 128 := (i 0).isLt
  funext a
  match a with
  | ⟨0, _⟩ => exact Fin.ext (by show ((i 0).val * 6400 + (q.val + 32 * p.val)) / 6400 = (i 0).val; omega)
  | ⟨1, _⟩ => exact Fin.ext (by show ((i 0).val * 6400 + (q.val + 32 * p.val)) / 32 % 200 = p.val; omega)
  | ⟨2, _⟩ => exact Fin.ext (by show ((i 0).val * 6400 + (q.val + 32 * p.val)) % 32 = q.val; omega)

/-- The flattened position of row p, column q of sample b is read back as (b, p, q) (second branch's flattening). -/
theorem b_unflatten2 (i : S128.Idx) (p : Fin 200) (q : Fin 32) :
    idx_main_v57 (idx_main_v60 i (finProdFinEquiv (p, q))) = ix3 (n0 := 128) (n1 := 200) (n2 := 32) (i 0) p q := by
  have hp := p.isLt
  have hq := q.isLt
  have hi : (i 0).val < 128 := (i 0).isLt
  funext a
  match a with
  | ⟨0, _⟩ => exact Fin.ext (by show ((i 0).val * 6400 + (q.val + 32 * p.val)) / 6400 = (i 0).val; omega)
  | ⟨1, _⟩ => exact Fin.ext (by show ((i 0).val * 6400 + (q.val + 32 * p.val)) / 32 % 200 = p.val; omega)
  | ⟨2, _⟩ => exact Fin.ext (by show ((i 0).val * 6400 + (q.val + 32 * p.val)) % 32 = q.val; omega)

/-- THE REFERENCE's result for this scale at sample `i`: the specification's distance of that sample's slabs. -/
theorem b_dist (x0 x1 x2 x3 : (⟨S128x200x200, .f32⟩ : BufTy).Contents (Elt Ideal))
    (x4 : (⟨S200x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) (i : S128.Idx) :
    val_main_v63 (F := Ideal) x0 x1 x2 x3 x4 x5 x6 x7 i
      = GcnSpec.dist (Ideal.ofBits .f32 0x2B8CBCCC#32)
          (fun p q => x0 (ix3 (i 0) p q)) (fun p q => x2 (ix3 (i 0) p q))
          (fun p q => x1 (ix3 (i 0) p q)) (fun p q => x3 (ix3 (i 0) p q))
          (fun d e => x4 (ix2 d e)) (fun e => x5 (ix1 e)) (fun e q => x6 (ix2 e q)) (fun q => x7 (ix1 q)) := by
  rw [val_main_v63_apply, val_main_v62_apply, val_main_v60_apply, val_main_v61_apply, val_main_cst_1_apply, val_main_cst_2_apply]
  unfold GcnSpec.dist
  show Ideal.sqrt ((Ideal.ofBits .f32 0x00000000#32
      + ∑ k : Fin (200 * 32), val_main_v59 (F := Ideal) x0 x1 x2 x3 x4 x5 x6 x7 (idx_main_v60 i k))
      + Ideal.ofBits .f32 0x2B8CBCCC#32) = _
  rw [Ideal.ofBits_zero_f32, zero_add, SumFinMul.sum_fin_mul]
  congr 2
  refine Finset.sum_congr rfl fun p _ => Finset.sum_congr rfl fun q _ => ?_
  rw [val_main_v59_apply, val_main_v58_apply, val_main_v44_apply, val_main_v57_apply, b_unflatten, b_unflatten2, b_second]
  have hA := b_branch x0 x2 x4 x5 x6 x7 (i 0) p q
  have hB := b_branch x1 x3 x4 x5 x6 x7 (i 0) p q
  rw [hA, hB]
  rfl

/-- As a whole vector: the scale's result vector of the eight arguments. -/
theorem b_result (x0 x1 x2 x3 : (⟨S128x200x200, .f32⟩ : BufTy).Contents (Elt Ideal))
    (x4 : (⟨S200x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v63 (F := Ideal) x0 x1 x2 x3 x4 x5 x6 x7
      = GcnSpec.resultArr (Ideal.ofBits .f32 0x2B8CBCCC#32) x0 x1 x2 x3 x4 x5 x6 x7 :=
  funext fun i => b_dist x0 x1 x2 x3 x4 x5 x6 x7 i

end Cert.ReferenceIdeal.RefValue

end
-- ==== Proof.RefScaleC.lean ====
/-
  The reference's distance for the scale of extent 264, read at a sample.

  The reference works on all 128 samples at once: two batched products, a bias, a clamp, twice; the two branches'
  outputs flattened to 8448 = 264·32 entries per sample, subtracted, squared, summed, ε added, square root. Read at
  sample b, each product is a sum over its contracted coordinate and the flattened sum is the double sum over the
  264 rows and 32 columns, so the result is the specification's distance of sample b's slabs.
-/
import proofs.«125226_g50010599194667_cont_sun_m_1001_24_alg».proof.Proof.Gen.ReferenceIdeal.Read
import proofs.«125226_g50010599194667_cont_sun_m_1001_24_alg».proof.Proof.GcnResult
import proofs.«125226_g50010599194667_cont_sun_m_1001_24_alg».proof.Proof.LibSumFinMul
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

section Scale
variable (x16 x17 x18 x19 : (⟨S128x264x264, .f32⟩ : BufTy).Contents (Elt Ideal))
variable (x20 : (⟨S264x64, .f32⟩ : BufTy).Contents (Elt Ideal)) (x21 : (⟨S64, .f32⟩ : BufTy).Contents (Elt Ideal))
variable (x22 : (⟨S64x32, .f32⟩ : BufTy).Contents (Elt Ideal)) (x23 : (⟨S32, .f32⟩ : BufTy).Contents (Elt Ideal))

/-- x·W1 at (b, c, e): the sum over the feature coordinate. -/
theorem c_xw (b : Fin 128) (c : Fin 264) (e : Fin 64) :
    val_main_v64 (F := Ideal) x16 x20 (ix3 b c e) = ∑ d : Fin 264, x16 (ix3 b c d) * x20 (ix2 d e) := by
  rw [val_main_v64_apply]
  refine Finset.sum_congr rfl fun k _ => ?_
  have hl : lidx_main_v64 (ix3 b c e) k = ix3 b c k := funext fun a => by match a with | ⟨0, _⟩ => rfl | ⟨1, _⟩ => rfl | ⟨2, _⟩ => rfl
  have hr : ridx_main_v64 (ix3 b c e) k = ix2 k e := funext fun a => by match a with | ⟨0, _⟩ => rfl | ⟨1, _⟩ => rfl
  rw [hl, hr]

/-- a·(x·W1) at (b, r, e): the sum over the neighbour coordinate. -/
theorem c_axw (b : Fin 128) (r : Fin 264) (e : Fin 64) :
    val_main_v65 (F := Ideal) x16 x18 x20 (ix3 b r e)
      = ∑ c : Fin 264, x18 (ix3 b r c) * val_main_v64 (F := Ideal) x16 x20 (ix3 b c e) := by
  rw [val_main_v65_apply]
  refine Finset.sum_congr rfl fun k _ => ?_
  have hl : lidx_main_v65 (ix3 b r e) k = ix3 b r k := funext fun a => by match a with | ⟨0, _⟩ => rfl | ⟨1, _⟩ => rfl | ⟨2, _⟩ => rfl
  have hr : ridx_main_v65 (ix3 b r e) k = ix3 b k e := funext fun a => by match a with | ⟨0, _⟩ => rfl | ⟨1, _⟩ => rfl | ⟨2, _⟩ => rfl
  rw [hl, hr]

/-- The first bias broadcast over samples and rows. -/
theorem c_b1 (b : Fin 128) (r : Fin 264) (e : Fin 64) : val_main_v67 (F := Ideal) x21 (ix3 b r e) = x21 (ix1 e) := by
  rw [val_main_v67_apply, val_main_v66_apply]
  exact congrArg x21 (funext fun a => by match a with | ⟨0, _⟩ => rfl)

/-- The first layer after its clamp. -/
theorem c_hid (b : Fin 128) (r : Fin 264) (e : Fin 64) :
    val_main_v69 (F := Ideal) x16 x18 x20 x21 (ix3 b r e)
      = max (val_main_v65 (F := Ideal) x16 x18 x20 (ix3 b r e) + x21 (ix1 e)) 0 := by
  rw [val_main_v69_apply, val_main_v68_apply, c_b1, val_main_call8_v0_apply, val_main_call8_cst_apply]
  show max (_ + _) (Ideal.ofBits .f32 0x00000000#32) = _
  rw [Ideal.ofBits_zero_f32]

/-- hidden·W2 at (b, c, q): the sum over the hidden coordinate. -/
theorem c_hw (b : Fin 128) (c : Fin 264) (q : Fin 32) :
    val_main_v70 (F := Ideal) x16 x18 x20 x21 x22 (ix3 b c q)
      = ∑ e : Fin 64, val_main_v69 (F := Ideal) x16 x18 x20 x21 (ix3 b c e) * x22 (ix2 e q) := by
  rw [val_main_v70_apply]
  refine Finset.sum_congr rfl fun k _ => ?_
  have hl : lidx_main_v70 (ix3 b c q) k = ix3 b c k := funext fun a => by match a with | ⟨0, _⟩ => rfl | ⟨1, _⟩ => rfl | ⟨2, _⟩ => rfl
  have hr : ridx_main_v70 (ix3 b c q) k = ix2 k q := funext fun a => by match a with | ⟨0, _⟩ => rfl | ⟨1, _⟩ => rfl
  rw [hl, hr]

/-- a·(hidden·W2) at (b, p, q). -/
theorem c_ahw (b : Fin 128) (p : Fin 264) (q : Fin 32) :
    val_main_v71 (F := Ideal) x16 x18 x20 x21 x22 (ix3 b p q)
      = ∑ c : Fin 264, x18 (ix3 b p c) * val_main_v70 (F := Ideal) x16 x18 x20 x21 x22 (ix3 b c q) := by
  rw [val_main_v71_apply]
  refine Finset.sum_congr rfl fun k _ => ?_
  have hl : lidx_main_v71 (ix3 b p q) k = ix3 b p k := funext fun a => by match a with | ⟨0, _⟩ => rfl | ⟨1, _⟩ => rfl | ⟨2, _⟩ => rfl
  have hr : ridx_main_v71 (ix3 b p q) k = ix3 b k q := funext fun a => by match a with | ⟨0, _⟩ => rfl | ⟨1, _⟩ => rfl | ⟨2, _⟩ => rfl
  rw [hl, hr]

/-- The second bias broadcast over samples and rows. -/
theorem c_b2 (b : Fin 128) (p : Fin 264) (q : Fin 32) : val_main_v73 (F := Ideal) x23 (ix3 b p q) = x23 (ix1 q) := by
  rw [val_main_v73_apply, val_main_v72_apply]
  exact congrArg x23 (funext fun a => by match a with | ⟨0, _⟩ => rfl)

/-- One branch of the reference at (b, p, q) is the specification's branch of sample b's slabs. -/
theorem c_branch (b : Fin 128) (p : Fin 264) (q : Fin 32) :
    val_main_v75 (F := Ideal) x16 x18 x20 x21 x22 x23 (ix3 b p q)
      = GcnSpec.branch (fun i j => x16 (ix3 b i j)) (fun i j => x18 (ix3 b i j)) (fun d e => x20 (ix2 d e))
          (fun e => x21 (ix1 e)) (fun e q => x22 (ix2 e q)) (fun q => x23 (ix1 q)) p q := by
  rw [val_main_v75_apply, val_main_v74_apply, c_b2, val_main_call9_v0_apply, val_main_call9_cst_apply, c_ahw]
  show max (_ + _) (Ideal.ofBits .f32 0x00000000#32) = _
  rw [Ideal.ofBits_zero_f32]
  unfold GcnSpec.branch GcnSpec.hidden
  simp only [c_hw, c_hid, c_axw, c_xw]

end Scale

/-- The second branch is the first branch's function of the other pair of slabs. -/
theorem c_second (x1 x3 : (⟨S128x264x264, .f32⟩ : BufTy).Contents (Elt Ideal))
    (x4 : (⟨S264x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v88 (F := Ideal) x1 x3 x4 x5 x6 x7 = val_main_v75 (F := Ideal) x1 x3 x4 x5 x6 x7 := rfl

/-- The flattened position of row p, column q of sample b is read back as (b, p, q). -/
theorem c_unflatten (i : S128.Idx) (p : Fin 264) (q : Fin 32) :
    idx_main_v76 (idx_main_v92 i (finProdFinEquiv (p, q))) = ix3 (n0 := 128) (n1 := 264) (n2 := 32) (i 0) p q := by
  have hp := p.isLt
  have hq := q.isLt
  have hi : (i 0).val < 128 := (i 0).isLt
  funext a
  match a with
  | ⟨0, _⟩ => exact Fin.ext (by show ((i 0).val * 8448 + (q.val + 32 * p.val)) / 8448 = (i 0).val; omega)
  | ⟨1, _⟩ => exact Fin.ext (by show ((i 0).val * 8448 + (q.val + 32 * p.val)) / 32 % 264 = p.val; omega)
  | ⟨2, _⟩ => exact Fin.ext (by show ((i 0).val * 8448 + (q.val + 32 * p.val)) % 32 = q.val; omega)

/-- The flattened position of row p, column q of sample b is read back as (b, p, q) (second branch's flattening). -/
theorem c_unflatten2 (i : S128.Idx) (p : Fin 264) (q : Fin 32) :
    idx_main_v89 (idx_main_v92 i (finProdFinEquiv (p, q))) = ix3 (n0 := 128) (n1 := 264) (n2 := 32) (i 0) p q := by
  have hp := p.isLt
  have hq := q.isLt
  have hi : (i 0).val < 128 := (i 0).isLt
  funext a
  match a with
  | ⟨0, _⟩ => exact Fin.ext (by show ((i 0).val * 8448 + (q.val + 32 * p.val)) / 8448 = (i 0).val; omega)
  | ⟨1, _⟩ => exact Fin.ext (by show ((i 0).val * 8448 + (q.val + 32 * p.val)) / 32 % 264 = p.val; omega)
  | ⟨2, _⟩ => exact Fin.ext (by show ((i 0).val * 8448 + (q.val + 32 * p.val)) % 32 = q.val; omega)

/-- THE REFERENCE's result for this scale at sample `i`: the specification's distance of that sample's slabs. -/
theorem c_dist (x0 x1 x2 x3 : (⟨S128x264x264, .f32⟩ : BufTy).Contents (Elt Ideal))
    (x4 : (⟨S264x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) (i : S128.Idx) :
    val_main_v95 (F := Ideal) x0 x1 x2 x3 x4 x5 x6 x7 i
      = GcnSpec.dist (Ideal.ofBits .f32 0x2B8CBCCC#32)
          (fun p q => x0 (ix3 (i 0) p q)) (fun p q => x2 (ix3 (i 0) p q))
          (fun p q => x1 (ix3 (i 0) p q)) (fun p q => x3 (ix3 (i 0) p q))
          (fun d e => x4 (ix2 d e)) (fun e => x5 (ix1 e)) (fun e q => x6 (ix2 e q)) (fun q => x7 (ix1 q)) := by
  rw [val_main_v95_apply, val_main_v94_apply, val_main_v92_apply, val_main_v93_apply, val_main_cst_3_apply, val_main_cst_4_apply]
  unfold GcnSpec.dist
  show Ideal.sqrt ((Ideal.ofBits .f32 0x00000000#32
      + ∑ k : Fin (264 * 32), val_main_v91 (F := Ideal) x0 x1 x2 x3 x4 x5 x6 x7 (idx_main_v92 i k))
      + Ideal.ofBits .f32 0x2B8CBCCC#32) = _
  rw [Ideal.ofBits_zero_f32, zero_add, SumFinMul.sum_fin_mul]
  congr 2
  refine Finset.sum_congr rfl fun p _ => Finset.sum_congr rfl fun q _ => ?_
  rw [val_main_v91_apply, val_main_v90_apply, val_main_v76_apply, val_main_v89_apply, c_unflatten, c_unflatten2, c_second]
  have hA := c_branch x0 x2 x4 x5 x6 x7 (i 0) p q
  have hB := c_branch x1 x3 x4 x5 x6 x7 (i 0) p q
  rw [hA, hB]
  rfl

/-- As a whole vector: the scale's result vector of the eight arguments. -/
theorem c_result (x0 x1 x2 x3 : (⟨S128x264x264, .f32⟩ : BufTy).Contents (Elt Ideal))
    (x4 : (⟨S264x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v95 (F := Ideal) x0 x1 x2 x3 x4 x5 x6 x7
      = GcnSpec.resultArr (Ideal.ofBits .f32 0x2B8CBCCC#32) x0 x1 x2 x3 x4 x5 x6 x7 :=
  funext fun i => c_dist x0 x1 x2 x3 x4 x5 x6 x7 i

end Cert.ReferenceIdeal.RefValue

end
-- ==== Proof.RefScaleD.lean ====
/-
  The reference's distance for the scale of extent 325, read at a sample.

  The reference works on all 128 samples at once: two batched products, a bias, a clamp, twice; the two branches'
  outputs flattened to 10400 = 325·32 entries per sample, subtracted, squared, summed, ε added, square root. Read at
  sample b, each product is a sum over its contracted coordinate and the flattened sum is the double sum over the
  325 rows and 32 columns, so the result is the specification's distance of sample b's slabs.
-/
import proofs.«125226_g50010599194667_cont_sun_m_1001_24_alg».proof.Proof.Gen.ReferenceIdeal.Read
import proofs.«125226_g50010599194667_cont_sun_m_1001_24_alg».proof.Proof.GcnResult
import proofs.«125226_g50010599194667_cont_sun_m_1001_24_alg».proof.Proof.LibSumFinMul
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read Idealize.ShloMosaic Idealize.ShloMosaic.ValueIdx

section Scale
variable (x24 x25 x26 x27 : (⟨S128x325x325, .f32⟩ : BufTy).Contents (Elt Ideal))
variable (x28 : (⟨S325x64, .f32⟩ : BufTy).Contents (Elt Ideal)) (x29 : (⟨S64, .f32⟩ : BufTy).Contents (Elt Ideal))
variable (x30 : (⟨S64x32, .f32⟩ : BufTy).Contents (Elt Ideal)) (x31 : (⟨S32, .f32⟩ : BufTy).Contents (Elt Ideal))

/-- x·W1 at (b, c, e): the sum over the feature coordinate. -/
theorem d_xw (b : Fin 128) (c : Fin 325) (e : Fin 64) :
    val_main_v96 (F := Ideal) x24 x28 (ix3 b c e) = ∑ d : Fin 325, x24 (ix3 b c d) * x28 (ix2 d e) := by
  rw [val_main_v96_apply]
  refine Finset.sum_congr rfl fun k _ => ?_
  have hl : lidx_main_v96 (ix3 b c e) k = ix3 b c k := funext fun a => by match a with | ⟨0, _⟩ => rfl | ⟨1, _⟩ => rfl | ⟨2, _⟩ => rfl
  have hr : ridx_main_v96 (ix3 b c e) k = ix2 k e := funext fun a => by match a with | ⟨0, _⟩ => rfl | ⟨1, _⟩ => rfl
  rw [hl, hr]

/-- a·(x·W1) at (b, r, e): the sum over the neighbour coordinate. -/
theorem d_axw (b : Fin 128) (r : Fin 325) (e : Fin 64) :
    val_main_v97 (F := Ideal) x24 x26 x28 (ix3 b r e)
      = ∑ c : Fin 325, x26 (ix3 b r c) * val_main_v96 (F := Ideal) x24 x28 (ix3 b c e) := by
  rw [val_main_v97_apply]
  refine Finset.sum_congr rfl fun k _ => ?_
  have hl : lidx_main_v97 (ix3 b r e) k = ix3 b r k := funext fun a => by match a with | ⟨0, _⟩ => rfl | ⟨1, _⟩ => rfl | ⟨2, _⟩ => rfl
  have hr : ridx_main_v97 (ix3 b r e) k = ix3 b k e := funext fun a => by match a with | ⟨0, _⟩ => rfl | ⟨1, _⟩ => rfl | ⟨2, _⟩ => rfl
  rw [hl, hr]

/-- The first bias broadcast over samples and rows. -/
theorem d_b1 (b : Fin 128) (r : Fin 325) (e : Fin 64) : val_main_v99 (F := Ideal) x29 (ix3 b r e) = x29 (ix1 e) := by
  rw [val_main_v99_apply, val_main_v98_apply]
  exact congrArg x29 (funext fun a => by match a with | ⟨0, _⟩ => rfl)

/-- The first layer after its clamp. -/
theorem d_hid (b : Fin 128) (r : Fin 325) (e : Fin 64) :
    val_main_v101 (F := Ideal) x24 x26 x28 x29 (ix3 b r e)
      = max (val_main_v97 (F := Ideal) x24 x26 x28 (ix3 b r e) + x29 (ix1 e)) 0 := by
  rw [val_main_v101_apply, val_main_v100_apply, d_b1, val_main_call12_v0_apply, val_main_call12_cst_apply]
  show max (_ + _) (Ideal.ofBits .f32 0x00000000#32) = _
  rw [Ideal.ofBits_zero_f32]

/-- hidden·W2 at (b, c, q): the sum over the hidden coordinate. -/
theorem d_hw (b : Fin 128) (c : Fin 325) (q : Fin 32) :
    val_main_v102 (F := Ideal) x24 x26 x28 x29 x30 (ix3 b c q)
      = ∑ e : Fin 64, val_main_v101 (F := Ideal) x24 x26 x28 x29 (ix3 b c e) * x30 (ix2 e q) := by
  rw [val_main_v102_apply]
  refine Finset.sum_congr rfl fun k _ => ?_
  have hl : lidx_main_v102 (ix3 b c q) k = ix3 b c k := funext fun a => by match a with | ⟨0, _⟩ => rfl | ⟨1, _⟩ => rfl | ⟨2, _⟩ => rfl
  have hr : ridx_main_v102 (ix3 b c q) k = ix2 k q := funext fun a => by match a with | ⟨0, _⟩ => rfl | ⟨1, _⟩ => rfl
  rw [hl, hr]

/-- a·(hidden·W2) at (b, p, q). -/
theorem d_ahw (b : Fin 128) (p : Fin 325) (q : Fin 32) :
    val_main_v103 (F := Ideal) x24 x26 x28 x29 x30 (ix3 b p q)
      = ∑ c : Fin 325, x26 (ix3 b p c) * val_main_v102 (F := Ideal) x24 x26 x28 x29 x30 (ix3 b c q) := by
  rw [val_main_v103_apply]
  refine Finset.sum_congr rfl fun k _ => ?_
  have hl : lidx_main_v103 (ix3 b p q) k = ix3 b p k := funext fun a => by match a with | ⟨0, _⟩ => rfl | ⟨1, _⟩ => rfl | ⟨2, _⟩ => rfl
  have hr : ridx_main_v103 (ix3 b p q) k = ix3 b k q := funext fun a => by match a with | ⟨0, _⟩ => rfl | ⟨1, _⟩ => rfl | ⟨2, _⟩ => rfl
  rw [hl, hr]

/-- The second bias broadcast over samples and rows. -/
theorem d_b2 (b : Fin 128) (p : Fin 325) (q : Fin 32) : val_main_v105 (F := Ideal) x31 (ix3 b p q) = x31 (ix1 q) := by
  rw [val_main_v105_apply, val_main_v104_apply]
  exact congrArg x31 (funext fun a => by match a with | ⟨0, _⟩ => rfl)

/-- One branch of the reference at (b, p, q) is the specification's branch of sample b's slabs. -/
theorem d_branch (b : Fin 128) (p : Fin 325) (q : Fin 32) :
    val_main_v107 (F := Ideal) x24 x26 x28 x29 x30 x31 (ix3 b p q)
      = GcnSpec.branch (fun i j => x24 (ix3 b i j)) (fun i j => x26 (ix3 b i j)) (fun d e => x28 (ix2 d e))
          (fun e => x29 (ix1 e)) (fun e q => x30 (ix2 e q)) (fun q => x31 (ix1 q)) p q := by
  rw [val_main_v107_apply, val_main_v106_apply, d_b2, val_main_call13_v0_apply, val_main_call13_cst_apply, d_ahw]
  show max (_ + _) (Ideal.ofBits .f32 0x00000000#32) = _
  rw [Ideal.ofBits_zero_f32]
  unfold GcnSpec.branch GcnSpec.hidden
  simp only [d_hw, d_hid, d_axw, d_xw]

end Scale

/-- The second branch is the first branch's function of the other pair of slabs. -/
theorem d_second (x1 x3 : (⟨S128x325x325, .f32⟩ : BufTy).Contents (Elt Ideal))
    (x4 : (⟨S325x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v120 (F := Ideal) x1 x3 x4 x5 x6 x7 = val_main_v107 (F := Ideal) x1 x3 x4 x5 x6 x7 := rfl

/-- The flattened position of row p, column q of sample b is read back as (b, p, q). -/
theorem d_unflatten (i : S128.Idx) (p : Fin 325) (q : Fin 32) :
    idx_main_v108 (idx_main_v124 i (finProdFinEquiv (p, q))) = ix3 (n0 := 128) (n1 := 325) (n2 := 32) (i 0) p q := by
  have hp := p.isLt
  have hq := q.isLt
  have hi : (i 0).val < 128 := (i 0).isLt
  funext a
  match a with
  | ⟨0, _⟩ => exact Fin.ext (by show ((i 0).val * 10400 + (q.val + 32 * p.val)) / 10400 = (i 0).val; omega)
  | ⟨1, _⟩ => exact Fin.ext (by show ((i 0).val * 10400 + (q.val + 32 * p.val)) / 32 % 325 = p.val; omega)
  | ⟨2, _⟩ => exact Fin.ext (by show ((i 0).val * 10400 + (q.val + 32 * p.val)) % 32 = q.val; omega)

/-- The flattened position of row p, column q of sample b is read back as (b, p, q) (second branch's flattening). -/
theorem d_unflatten2 (i : S128.Idx) (p : Fin 325) (q : Fin 32) :
    idx_main_v121 (idx_main_v124 i (finProdFinEquiv (p, q))) = ix3 (n0 := 128) (n1 := 325) (n2 := 32) (i 0) p q := by
  have hp := p.isLt
  have hq := q.isLt
  have hi : (i 0).val < 128 := (i 0).isLt
  funext a
  match a with
  | ⟨0, _⟩ => exact Fin.ext (by show ((i 0).val * 10400 + (q.val + 32 * p.val)) / 10400 = (i 0).val; omega)
  | ⟨1, _⟩ => exact Fin.ext (by show ((i 0).val * 10400 + (q.val + 32 * p.val)) / 32 % 325 = p.val; omega)
  | ⟨2, _⟩ => exact Fin.ext (by show ((i 0).val * 10400 + (q.val + 32 * p.val)) % 32 = q.val; omega)

/-- THE REFERENCE's result for this scale at sample `i`: the specification's distance of that sample's slabs. -/
theorem d_dist (x0 x1 x2 x3 : (⟨S128x325x325, .f32⟩ : BufTy).Contents (Elt Ideal))
    (x4 : (⟨S325x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) (i : S128.Idx) :
    val_main_v127 (F := Ideal) x0 x1 x2 x3 x4 x5 x6 x7 i
      = GcnSpec.dist (Ideal.ofBits .f32 0x2B8CBCCC#32)
          (fun p q => x0 (ix3 (i 0) p q)) (fun p q => x2 (ix3 (i 0) p q))
          (fun p q => x1 (ix3 (i 0) p q)) (fun p q => x3 (ix3 (i 0) p q))
          (fun d e => x4 (ix2 d e)) (fun e => x5 (ix1 e)) (fun e q => x6 (ix2 e q)) (fun q => x7 (ix1 q)) := by
  rw [val_main_v127_apply, val_main_v126_apply, val_main_v124_apply, val_main_v125_apply, val_main_cst_5_apply, val_main_cst_6_apply]
  unfold GcnSpec.dist
  show Ideal.sqrt ((Ideal.ofBits .f32 0x00000000#32
      + ∑ k : Fin (325 * 32), val_main_v123 (F := Ideal) x0 x1 x2 x3 x4 x5 x6 x7 (idx_main_v124 i k))
      + Ideal.ofBits .f32 0x2B8CBCCC#32) = _
  rw [Ideal.ofBits_zero_f32, zero_add, SumFinMul.sum_fin_mul]
  congr 2
  refine Finset.sum_congr rfl fun p _ => Finset.sum_congr rfl fun q _ => ?_
  rw [val_main_v123_apply, val_main_v122_apply, val_main_v108_apply, val_main_v121_apply, d_unflatten, d_unflatten2, d_second]
  have hA := d_branch x0 x2 x4 x5 x6 x7 (i 0) p q
  have hB := d_branch x1 x3 x4 x5 x6 x7 (i 0) p q
  rw [hA, hB]
  rfl

/-- As a whole vector: the scale's result vector of the eight arguments. -/
theorem d_result (x0 x1 x2 x3 : (⟨S128x325x325, .f32⟩ : BufTy).Contents (Elt Ideal))
    (x4 : (⟨S325x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    val_main_v127 (F := Ideal) x0 x1 x2 x3 x4 x5 x6 x7
      = GcnSpec.resultArr (Ideal.ofBits .f32 0x2B8CBCCC#32) x0 x1 x2 x3 x4 x5 x6 x7 :=
  funext fun i => d_dist x0 x1 x2 x3 x4 x5 x6 x7 i

end Cert.ReferenceIdeal.RefValue

end
-- ==== Proof.lean ====
/-
  The certificate of the fused multi-scale siamese graph-convolution distance.

  For each of four scales (extents 116, 200, 264, 325) and each of 128 samples, both programs compute
      sqrt(Σ_{p,q} (branch(x1, a1)(p,q) − branch(x2, a2)(p,q))² + ε),
      branch(x, a) = max(a·(max(a·(x·W1) + b1, 0)·W2) + b2, 0),
  the kernel four samples per grid point with every product a block product into a zero accumulator, the reference on
  all samples at once with batched products and the squared differences flattened before the sum. At exact values a
  change of float format is the identity and every product is a finite sum, so both results are the same term
  (`GcnSpec.dist`) of the same slabs; the two sums over the n·32 differences are one sum re-indexed. No law that needs
  finite entries is used.
  The kernel side: `GcnBlock` (one sample's computation as a block computes it, and its value), `GcnPieces` / `KernelOut`
  (each output block's four stores are that computation of the grid point's four samples), `KernelBlocks` / `KernelArrays`
  (blocks to arrays), `KernelRun` (the host's re-layouts around the region, and the run). The reference side:
  `RefScaleA … RefScaleD`, one scale each, over the generated reading of the reference's run.
-/
import proofs.«125226_g50010599194667_cont_sun_m_1001_24_alg».proof.Defs
import proofs.«125226_g50010599194667_cont_sun_m_1001_24_alg».proof.Proof.Gen.Kernel
import proofs.«125226_g50010599194667_cont_sun_m_1001_24_alg».proof.Proof.Gen.KernelIdeal
import proofs.«125226_g50010599194667_cont_sun_m_1001_24_alg».proof.Proof.Gen.ReferenceIdeal
import proofs.«125226_g50010599194667_cont_sun_m_1001_24_alg».proof.Proof.Gen.Pre_finite_inputs
import proofs.«125226_g50010599194667_cont_sun_m_1001_24_alg».proof.Proof.Gen.ReferenceIdeal.Run
import proofs.«125226_g50010599194667_cont_sun_m_1001_24_alg».proof.Proof.Gen.ReferenceIdeal.Read
import proofs.«125226_g50010599194667_cont_sun_m_1001_24_alg».proof.Proof.KernelFrameP
import proofs.«125226_g50010599194667_cont_sun_m_1001_24_alg».proof.Proof.KernelIdealFrameP
import proofs.«125226_g50010599194667_cont_sun_m_1001_24_alg».proof.Proof.KernelRun
import proofs.«125226_g50010599194667_cont_sun_m_1001_24_alg».proof.Proof.RefScaleA
import proofs.«125226_g50010599194667_cont_sun_m_1001_24_alg».proof.Proof.RefScaleB
import proofs.«125226_g50010599194667_cont_sun_m_1001_24_alg».proof.Proof.RefScaleC
import proofs.«125226_g50010599194667_cont_sun_m_1001_24_alg».proof.Proof.RefScaleD
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The ideal pass rewrote nothing. -/
theorem preserves : Cert.preserves_Kernel_KernelIdeal := trivial

/-- Both idealized programs end with, for each scale, the scale's result vector of the (agreeing) argument arrays. -/
theorem algebraic : Cert.algebraic_KernelIdeal_ReferenceIdeal := by
  intro m ρ m' ρ' _ hagree
  refine ⟨_, _, _, _, Cert.KernelIdeal.Bridge.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28, a29, a30, a31⟩ := hagree c
  obtain ⟨r0, r1, r2, r3, hargs⟩ := h c
  refine ⟨?_, ?_, ?_, ?_, hargs⟩
  · rw [r0, Cert.ReferenceIdeal.Read.val_main_v31_eq, Cert.ReferenceIdeal.RefValue.a_result, a0, a1, a2, a3, a4, a5, a6, a7]
  · rw [r1, Cert.ReferenceIdeal.Read.val_main_v63_eq, Cert.ReferenceIdeal.RefValue.b_result, a8, a9, a10, a11, a12, a13, a14, a15]
  · rw [r2, Cert.ReferenceIdeal.Read.val_main_v95_eq, Cert.ReferenceIdeal.RefValue.c_result, a16, a17, a18, a19, a20, a21, a22, a23]
  · rw [r3, Cert.ReferenceIdeal.Read.val_main_v127_eq, Cert.ReferenceIdeal.RefValue.d_result, a24, a25, a26, a27, a28, a29, a30, a31]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
